-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_v2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x64 : Shape := ⟨2, ![1024, 64]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn_part1 {F : FTy → Type} [FloatOps F] (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  main_v18

def fn {F : FTy → Type} [FloatOps F] (main_arg0 : FVec F S4x2048x1024 .f32) (main_arg1 : FVec F S1024x64 .f32) (main_arg2 : FVec F S1024x64 .f32) (main_arg3 : FVec F S1024x64 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S1024x64 .f32 := Host.absf main_arg2
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_v13 main_v16
-- ==== Kernel.lean ====
abbrev S4x2048x1024 : Shape := ⟨3, ![4, 2048, 1024]⟩
abbrev S1024x64 : Shape := ⟨2, ![1024, 64]⟩
abbrev S4x2048x64 : Shape := ⟨3, ![4, 2048, 64]⟩
abbrev S1x2048x1024 : Shape := ⟨3, ![1, 2048, 1024]⟩
abbrev S1x2048x64 : Shape := ⟨3, ![1, 2048, 64]⟩
abbrev S2048x1024 : Shape := ⟨2, ![2048, 1024]⟩
abbrev S2048x64 : Shape := ⟨2, ![2048, 64]⟩
abbrev S1x512x64 : Shape := ⟨3, ![1, 512, 64]⟩
abbrev S512x64 : Shape := ⟨2, ![512, 64]⟩
abbrev S512x1 : Shape := ⟨2, ![512, 1]⟩
abbrev S64x512 : Shape := ⟨2, ![64, 512]⟩
abbrev S512x512 : Shape := ⟨2, ![512, 512]⟩
abbrev S512 : Shape := ⟨1, ![512]⟩

abbrev nBuf : Space → Nat
  | .hbm => 8
  | .vmem => 22
  | .smem => 0
  | _ => 0

abbrev bufTy : (tb : Table) → Fin (tcTables nBuf tb) → BufTy
  | .hbm, ⟨0, _⟩ => ⟨S4x2048x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S4x2048x64, .f32⟩
  | .hbm, ⟨5, _⟩ => ⟨S4x2048x64, .f32⟩
  | .hbm, ⟨6, _⟩ => ⟨S4x2048x64, .f32⟩
  | .hbm, ⟨7, _⟩ => ⟨S4x2048x64, .f32⟩
  | .local _ .vmem, ⟨0, _⟩ => ⟨S1x2048x1024, .f32⟩
  | .local _ .vmem, ⟨1, _⟩ => ⟨S1x2048x1024, .f32⟩
  | .local _ .vmem, ⟨2, _⟩ => ⟨S1024x64, .f32⟩
  | .local _ .vmem, ⟨3, _⟩ => ⟨S1024x64, .f32⟩
  | .local _ .vmem, ⟨4, _⟩ => ⟨S1024x64, .f32⟩
  | .local _ .vmem, ⟨5, _⟩ => ⟨S1x2048x64, .f32⟩
  | .local _ .vmem, ⟨6, _⟩ => ⟨S1x2048x64, .f32⟩
  | .local _ .vmem, ⟨7, _⟩ => ⟨S1x2048x64, .f32⟩
  | .local _ .vmem, ⟨8, _⟩ => ⟨S1x2048x64, .f32⟩
  | .local _ .vmem, ⟨9, _⟩ => ⟨S1x2048x64, .f32⟩
  | .local _ .vmem, ⟨10, _⟩ => ⟨S1x2048x64, .f32⟩
  | .local _ .vmem, ⟨11, _⟩ => ⟨S1x512x64, .f32⟩
  | .local _ .vmem, ⟨12, _⟩ => ⟨S1x512x64, .f32⟩
  | .local _ .vmem, ⟨13, _⟩ => ⟨S1x2048x64, .f32⟩
  | .local _ .vmem, ⟨14, _⟩ => ⟨S1x2048x64, .f32⟩
  | .local _ .vmem, ⟨15, _⟩ => ⟨S1x2048x64, .f32⟩
  | .local _ .vmem, ⟨16, _⟩ => ⟨S1x2048x64, .f32⟩
  | .local _ .vmem, ⟨17, _⟩ => ⟨S1x512x64, .f32⟩
  | .local _ .vmem, ⟨18, _⟩ => ⟨S1x512x64, .f32⟩
  | .local _ .vmem, ⟨19, _⟩ => ⟨S512x64, .f32⟩
  | .local _ .vmem, ⟨20, _⟩ => ⟨S512x1, .f32⟩
  | .local _ .vmem, ⟨21, _⟩ => ⟨S512x1, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  shapeCasts_S2048x64_S1x2048x64 : S2048x64.ShapeCasts S1x2048x64
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x512x64_0_0_0 : ∀ a, (![0, 0, 0] : Fin 3 → Nat) a + S1x512x64.size a ≤ S1x2048x64.size a
  transposes_S512x64_p1_0_S64x512 : S512x64.Transposes [1, 0] S64x512
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  broadcasts_S512x1_S512x512 : S512x1.Broadcasts S512x512
  broadcasts_S512x1_S512x64 : S512x1.Broadcasts S512x64
  inb_S1x2048x64_S1x512x64_0_512_0 : ∀ a, (![0, 512, 0] : Fin 3 → Nat) a + S1x512x64.size a ≤ S1x2048x64.size a
  inb_S1x2048x64_S1x512x64_0_1024_0 : ∀ a, (![0, 1024, 0] : Fin 3 → Nat) a + S1x512x64.size a ≤ S1x2048x64.size a
  inb_S1x2048x64_S1x512x64_0_1536_0 : ∀ a, (![0, 1536, 0] : Fin 3 → Nat) a + S1x512x64.size a ≤ S1x2048x64.size a
  shapeCasts_S512x64_S1x512x64 : S512x64.ShapeCasts S1x512x64
  dot_S2048x1024_S1024x64_S2048x64_1_0_0_1_n_n_wf : DotDims.WF S2048x1024 S1024x64 S2048x64 [1] [0] [0] [1] [] []
  dot_S512x64_S64x512_S512x512_1_0_0_1_n_n_wf : DotDims.WF S512x64 S64x512 S512x512 [1] [0] [0] [1] [] []
  dot_S512x512_S512x64_S512x64_1_0_0_1_n_n_wf : DotDims.WF S512x512 S512x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S4x2048x1024.size a
  hwx0_0 : ∀ i : grid0.Coords, EltTy.bits .f32 = 32 ∨ (Rect.block (s := S4x2048x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S1024x64.size a
  hwx0_2 : ∀ i : grid0.Coords, EltTy.bits .f32 = 32 ∨ (Rect.block (s := S1024x64) S1024x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S1024x64.size a
  hwx0_3 : ∀ i : grid0.Coords, EltTy.bits .f32 = 32 ∨ (Rect.block (s := S1024x64) S1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x64.size a ≤ S4x2048x64.size a
  hwx0_4 : ∀ i : grid0.Coords, EltTy.bits .f32 = 32 ∨ (Rect.block (s := S4x2048x64) S1x2048x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048x64.size a ≤ S4x2048x64.size a
  hwx0_5 : ∀ i : grid0.Coords, EltTy.bits .f32 = 32 ∨ (Rect.block (s := S4x2048x64) S1x2048x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x2048x64.size a ≤ S4x2048x64.size a
  hwx0_6 : ∀ i : grid0.Coords, EltTy.bits .f32 = 32 ∨ (Rect.block (s := S4x2048x64) S1x2048x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S4x2048x64.size a
  hwx1_0 : ∀ i : grid1.Coords, EltTy.bits .f32 = 32 ∨ (Rect.block (s := S4x2048x64) S1x512x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S4x2048x64.size a
  hwx1_1 : ∀ i : grid1.Coords, EltTy.bits .f32 = 32 ∨ (Rect.block (s := S4x2048x64) S1x2048x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S4x2048x64.size a
  hwx1_2 : ∀ i : grid1.Coords, EltTy.bits .f32 = 32 ∨ (Rect.block (s := S4x2048x64) S1x2048x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x64.size a ≤ S4x2048x64.size a
  hwx1_3 : ∀ i : grid1.Coords, EltTy.bits .f32 = 32 ∨ (Rect.block (s := S4x2048x64) S1x512x64.size (cc1_transform_3 i) (hinb1_3 i)).WholeWords (EltTy.packing .f32)

variable [Facts₀]

def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf
def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x2048x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x2048x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S1x2048x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v0_0) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S1024x64 : Shape := ⟨2, ![1024, 64]⟩
abbrev S4x2048x64 : Shape := ⟨3, ![4, 2048, 64]⟩
abbrev S4x2048x2048 : Shape := ⟨3, ![4, 2048, 2048]⟩
abbrev S_ : Shape := ⟨0, ![]⟩
abbrev S2048x2048 : Shape := ⟨2, ![2048, 2048]⟩
abbrev S4x2048 : Shape := ⟨2, ![4, 2048]⟩
abbrev S4x2048x1 : Shape := ⟨3, ![4, 2048, 1]⟩

abbrev nBuf : Space → Nat
  | .hbm => 42
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S4x2048x64, .f32⟩
  | .hbm, ⟨5, _⟩ => ⟨S4x2048x64, .f32⟩
  | .hbm, ⟨6, _⟩ => ⟨S4x2048x64, .f32⟩
  | .hbm, ⟨7, _⟩ => ⟨S4x2048x2048, .f32⟩
  | .hbm, ⟨8, _⟩ => ⟨S_, .f32⟩
  | .hbm, ⟨9, _⟩ => ⟨S4x2048x2048, .f32⟩
  | .hbm, ⟨10, _⟩ => ⟨S4x2048x2048, .f32⟩
  | .hbm, ⟨11, _⟩ => ⟨S_, .i1⟩
  | .hbm, ⟨12, _⟩ => ⟨S2048x2048, .i1⟩
  | .hbm, ⟨13, _⟩ => ⟨S2048x2048, .i32⟩
  | .hbm, ⟨14, _⟩ => ⟨S_, .i32⟩
  | .hbm, ⟨15, _⟩ => ⟨S2048x2048, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .i1⟩
  | .hbm, ⟨20, _⟩ => ⟨S2048x2048, .i1⟩
  | .hbm, ⟨21, _⟩ => ⟨S2048x2048, .i1⟩
  | .hbm, ⟨22, _⟩ => ⟨S_, .f32⟩
  | .hbm, ⟨23, _⟩ => ⟨S_, .f32⟩
  | .hbm, ⟨24, _⟩ => ⟨S4x2048x2048, .i1⟩
  | .hbm, ⟨25, _⟩ => ⟨S4x2048x2048, .f32⟩
  | .hbm, ⟨26, _⟩ => ⟨S4x2048x2048, .f32⟩
  | .hbm, ⟨27, _⟩ => ⟨S_, .f32⟩
  | .hbm, ⟨28, _⟩ => ⟨S4x2048, .f32⟩
  | .hbm, ⟨29, _⟩ => ⟨S_, .f32⟩
  | .hbm, ⟨30, _⟩ => ⟨S4x2048, .f32⟩
  | .hbm, ⟨31, _⟩ => ⟨S4x2048, .f32⟩
  | .hbm, ⟨32, _⟩ => ⟨S4x2048x1, .f32⟩
  | .hbm, ⟨33, _⟩ => ⟨S4x2048x2048, .f32⟩
  | .hbm, ⟨34, _⟩ => ⟨S4x2048x2048, .f32⟩
  | .hbm, ⟨35, _⟩ => ⟨S4x2048x2048, .f32⟩
  | .hbm, ⟨36, _⟩ => ⟨S_, .f32⟩
  | .hbm, ⟨37, _⟩ => ⟨S4x2048, .f32⟩
  | .hbm, ⟨38, _⟩ => ⟨S4x2048x1, .f32⟩
  | .hbm, ⟨39, _⟩ => ⟨S4x2048x2048, .f32⟩
  | .hbm, ⟨40, _⟩ => ⟨S4x2048x2048, .f32⟩
  | .hbm, ⟨41, _⟩ => ⟨S4x2048x64, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v7 : Ref sig .tc := ⟨.hbm, 21, rfl⟩
abbrev main_cst_0 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩

abbrev nD : Nat := 1
abbrev τ : Topo := Topo.v7x

variable {F : FTy → Type} [FloatOps F]

class Facts₀ : Prop where
  bcast_S_S4x2048x2048 : S_.BroadcastsInDim S4x2048x2048 (![] : Fin 0 → Fin S4x2048x2048.rank)
  bcast_S_S2048x2048 : S_.BroadcastsInDim S2048x2048 (![] : Fin 0 → Fin S2048x2048.rank)
  bcast_S2048x2048_S4x2048x2048_1_2 : S2048x2048.BroadcastsInDim S4x2048x2048 (![1, 2] : Fin 2 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x64_S4x2048x64_2_0_01_1_n_n_wf : DotDims.WF S4x2048x1024 S1024x64 S4x2048x64 [2] [0] [0, 1] [1] [] []
  dot_S4x2048x64_S4x2048x64_S4x2048x2048_2_2_1_1_0_0_wf : DotDims.WF S4x2048x64 S4x2048x64 S4x2048x2048 [2] [2] [1] [1] [0] [0]
  dot_S4x2048x2048_S4x2048x64_S4x2048x64_2_1_1_2_0_0_wf : DotDims.WF S4x2048x2048 S4x2048x64 S4x2048x64 [2] [1] [1] [2] [0] [0]

variable [Facts₀]

def dot_S4x2048x1024_S1024x64_S4x2048x64_2_0_01_1_n_n : DotDims S4x2048x1024 S1024x64 S4x2048x64 where
  lhsContracting := [2]
  rhsContracting := [0]
  lhsNonContracting := [0, 1]
  rhsNonContracting := [1]
  lhsBatch := []
  rhsBatch := []
  wf := dot_S4x2048x1024_S1024x64_S4x2048x64_2_0_01_1_n_n_wf
def dot_S4x2048x64_S4x2048x64_S4x2048x2048_2_2_1_1_0_0 : DotDims S4x2048x64 S4x2048x64 S4x2048x2048 where
  lhsContracting := [2]
  rhsContracting := [2]
  lhsNonContracting := [1]
  rhsNonContracting := [1]
  lhsBatch := [0]
  rhsBatch := [0]
  wf := dot_S4x2048x64_S4x2048x64_S4x2048x2048_2_2_1_1_0_0_wf
def dot_S4x2048x2048_S4x2048x64_S4x2048x64_2_1_1_2_0_0 : DotDims S4x2048x2048 S4x2048x64 S4x2048x64 where
  lhsContracting := [2]
  rhsContracting := [1]
  lhsNonContracting := [1]
  rhsNonContracting := [2]
  lhsBatch := [0]
  rhsBatch := [0]
  wf := dot_S4x2048x2048_S4x2048x64_S4x2048x64_2_1_1_2_0_0_wf

class Facts : Prop extends Facts₀ where

variable [Facts]
-- ==== Proof.BitsRegion0.lean ====
/-
  The projection launch (q, k, v = x·Wq, x·Wk, x·Wv; one batch row per grid point): each window's block at a point, what the body leaves in the three result blocks, the body's triple, and the pipeline's proof data with its obligation at every point.
-/
import proofs.«154606_j45561013076111_2_alg».proof.Proof.Gen.Kernel.Launch
import proofs.«154606_j45561013076111_2_alg».proof.Proof.Gen.Kernel.Skeleton
import proofs.«154606_j45561013076111_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region0
-- the core's buffer contents when the first launch is entered
variable (V : (c : Dev nD) → (b : Ref sig .tc) → Buf (Elt F) ((c : Thread nD τ).loc b))

/-! # The projection launch: q, k, v = x·Wq, x·Wk, x·Wv, one batch row per grid point -/

/-! ## The windows' blocks -/

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: unfetched, the block index has not moved. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: unfetched, the block index has not moved. -/
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole x block, the whole weight, the whole result block. -/
abbrev r0_0 : Rect S1x2048x1024 := Rect.unit (s := S1x2048x1024) ![0, 0, 0] S1x2048x1024.size inb_S1x2048x1024_S1x2048x1024_0_0_0
abbrev r0_1 : Rect S1024x64 := Rect.unit (s := S1024x64) ![0, 0] S1024x64.size inb_S1024x64_S1024x64_0_0
abbrev r0_2 : Rect S1x2048x64 := Rect.unit (s := S1x2048x64) ![0, 0, 0] S1x2048x64.size inb_S1x2048x64_S1x2048x64_0_0_0

/-! ## What the body leaves in each output window's buffer -/

/-- The q block after the body: the one store of x·Wq over the whole buffer. -/
def out0_4 (x0 : Vec F S1x2048x1024 .f32) (x1 : Vec F S1024x64 .f32) : Vec F S1x2048x64 .f32 :=
  View.canon [⟨r0_2, k0_pay2 (View.ld x0 r0_0) (View.ld x1 r0_1)⟩]
/-- The k block after the body: the one store of x·Wk over the whole buffer. -/
def out0_5 (x0 : Vec F S1x2048x1024 .f32) (x2 : Vec F S1024x64 .f32) : Vec F S1x2048x64 .f32 :=
  View.canon [⟨r0_2, k0_pay3 (View.ld x0 r0_0) (View.ld x2 r0_1)⟩]
/-- The v block after the body: the one store of x·Wv over the whole buffer. -/
def out0_6 (x0 : Vec F S1x2048x1024 .f32) (x3 : Vec F S1024x64 .f32) : Vec F S1x2048x64 .f32 :=
  View.canon [⟨r0_2, k0_pay4 (View.ld x0 r0_0) (View.ld x3 r0_1)⟩]

/-- A single whole-buffer store covers the buffer. -/
theorem cover0_4 (p0 : Vec F S1x2048x64 .f32) (y : S1x2048x64.Idx) :
    ∃ pc ∈ ([⟨r0_2, p0⟩] : List (View.Piece (Elt F) S1x2048x64 .f32)), y ∈ pc.1.set :=
  View.cover_of_tiled [⟨r0_2, p0⟩] S1x2048x64.size (by rfl) y

/-! ## The body's triple -/

set_option maxHeartbeats 4000000 in
/-- The body on whole staging memrefs, the four inputs' at contents `x0..x3` and the three outputs' at anything, runs to
    the continuation holding the inputs' as they were and each output's at its product. -/
theorem sound_kernel0 (c : Dev nD) (E : Set ℕ) (i : grid0.Coords)
    (arg2 : Memref sig .tc .vmem S1x2048x1024 .f32) (harg2 : arg2.IsWhole) (arg3 : Memref sig .tc .vmem S1024x64 .f32) (harg3 : arg3.IsWhole)
    (arg4 : Memref sig .tc .vmem S1024x64 .f32) (harg4 : arg4.IsWhole) (arg5 : Memref sig .tc .vmem S1024x64 .f32) (harg5 : arg5.IsWhole)
    (arg6 : Memref sig .tc .vmem S1x2048x64 .f32) (harg6 : arg6.IsWhole) (arg7 : Memref sig .tc .vmem S1x2048x64 .f32) (harg7 : arg7.IsWhole)
    (arg8 : Memref sig .tc .vmem S1x2048x64 .f32) (harg8 : arg8.IsWhole)
    (x0 : Vec F S1x2048x1024 .f32) (x1 : Vec F S1024x64 .f32) (x2 : Vec F S1024x64 .f32) (x3 : Vec F S1024x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3
            ∗ owns (c : Thread nD τ) arg6 fullShare (out0_4 x0 x1) ∗ owns (c : Thread nD τ) arg7 fullShare (out0_5 x0 x2)
            ∗ owns (c : Thread nD τ) arg8 fullShare (out0_6 x0 x3)) -∗ K ⟨⟩))
      ⊢ wp frame (wpE (defs₀ (F := F)) Variants.none c none) E (cc0__proj_kernel i arg2 harg2 arg3 harg3 arg4 harg4 arg5 harg5 arg6 harg6 arg7 harg7 arg8 harg8) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_4 _)
  iexists _; isplitr
  swap; · iexact H6
  ipureintro
  exact View.read_writes_eq_canon _ _ _ (cover0_4 _)

/-! ## The pipeline's proof data -/

/-- The proof data of the projection pipeline on core `c`: the arrays as the launch finds them; after the body at
    point `t` each input's buffer at its block and each output's at its product of the input blocks; the scoped
    rest and the generator register untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

/-- The proof data's arrays are the launch-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body's triple at every grid point, the seven windows conjoined one by one: what the pipeline asks of the body. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.BitsRegion1Defs.lean ====
/-
  The attention launch on the grid (batch, query chunk): each window's block at a point, the staging memrefs the body is called with, the three carried buffers (weighted sum, running row maximum, normaliser), and the statement of the body's triple for a list of stored pieces.
-/
import proofs.«154606_j45561013076111_2_alg».proof.Proof.Gen.Kernel.Launch
import proofs.«154606_j45561013076111_2_alg».proof.Proof.Gen.Kernel.Skeleton
import proofs.«154606_j45561013076111_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region1
-- the buffer contents of the core when the region is entered
variable (V : (c : Dev nD) → (b : Ref sig .tc) → Buf (Elt F) ((c : Thread nD τ).loc b))

/-! # Region 1: the attention kernel on the grid (batch, query chunk) -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the query chunk) holds its block at every point. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (all keys of the batch) holds its block at every point: where it is not fetched the batch index
    has not moved, so the block of the point before is this point's. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (all values of the batch), likewise. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-- One staging buffer of the output window, through which its contents are stated (the choice does not matter). -/
abbrev VO1_3 : View sig .tc .vmem S1x512x64 .f32 := (Memref.whole cc1_stg3_0 : Memref sig .tc .vmem S1x512x64 .f32).view

/-- Each window's current staging memref at point `t`, as the pipeline passes it, and its wholeness. -/
abbrev ms1_0 (t : Fin cfg1.N) : Memref sig .tc .vmem S1x512x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x64 .f32 := win1_3.stage (cfg1.slots t 3)
abbrev hs1_3 (t : Fin cfg1.N) : (ms1_3 t).IsWhole := hstage1_3 ((cfg1.slots t 3).cast nbuf1_3)

/-- The scratch operands: the accumulator, the running row maximum and the running row sum. -/
abbrev scM1_0 : Memref sig .tc .vmem S512x64 .f32 := Memref.whole cc1_scratch0
abbrev scM1_1 : Memref sig .tc .vmem S512x1 .f32 := Memref.whole cc1_scratch1
abbrev scM1_2 : Memref sig .tc .vmem S512x1 .f32 := Memref.whole cc1_scratch2

/-- The body's triple for a list of pieces `L1`: on whole memrefs, the query chunk at `x0`, the keys at `x1`, the values
    at `x2`, the output and the three scratch buffers at anything, the body runs to the continuation holding the inputs
    as they were, the scratch at some contents, and the output's buffer with the pieces `L1` written. -/
def Run1Spec (c : Dev nD) (i : grid1.Coords) (arg2 : Memref sig .tc .vmem S1x512x64 .f32) (harg2 : arg2.IsWhole)
    (arg3 : Memref sig .tc .vmem S1x2048x64 .f32) (harg3 : arg3.IsWhole) (arg4 : Memref sig .tc .vmem S1x2048x64 .f32) (harg4 : arg4.IsWhole)
    (arg5 : Memref sig .tc .vmem S1x512x64 .f32) (harg5 : arg5.IsWhole)
    (x0 : Vec F S1x512x64 .f32) (x1 x2 : Vec F S1x2048x64 .f32) (L1 : List (View.Piece (Elt F) S1x512x64 .f32)) : Prop :=
  ∀ (K : PUnit → sProp 𝕄),
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (∃ d, owns (c : Thread nD τ) scM1_0 fullShare d) ∗ (∃ d, owns (c : Thread nD τ) scM1_1 fullShare d) ∗ (∃ d, owns (c : Thread nD τ) scM1_2 fullShare d)
        ∗ (iprop(owns (c : Thread nD τ) arg2 fullShare x0 ∗ owns (c : Thread nD τ) arg3 fullShare x1 ∗ owns (c : Thread nD τ) arg4 fullShare x2
            ∗ (∃ f, arg5.view.loc (c : Thread nD τ) ↦[arg5.view.set]{fullShare} arg5.view.writes (Elt F) f L1)
            ∗ (∃ d, owns (c : Thread nD τ) scM1_0 fullShare d) ∗ (∃ d, owns (c : Thread nD τ) scM1_1 fullShare d) ∗ (∃ d, owns (c : Thread nD τ) scM1_2 fullShare d)) -∗ K ⟨⟩))
      ⊢ wp frame (wpE (defs₀ (F := F)) Variants.none c none) Set.univ
          (cc1__attn_kernel i arg2 harg2 arg3 harg3 arg4 harg4 arg5 harg5 (Memref.whole cc1_scratch0) (Memref.isWhole_whole _) (Memref.whole cc1_scratch1) (Memref.isWhole_whole _) (Memref.whole cc1_scratch2) (Memref.isWhole_whole _)) K

end Cert.Kernel.Hand

end
-- ==== Proof.BitsRegion1Run0.lean ====
/-
  The attention body at a point whose query chunk is number 0: key chunk 0 is visited, the later ones skipped; the pieces its stores leave in the output block and the body's triple for them.
-/
import proofs.«154606_j45561013076111_2_alg».proof.Proof.BitsRegion1Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The attention body at a point whose query chunk is number 0: key chunks 0..0 are visited -/

set_option maxHeartbeats 1000000 in
/-- What the body's stores leave in the output's staging memref, as pieces, when the query-chunk coordinate is 0, with
    the proof that on whole memrefs — the query chunk at `x0`, the keys at `x1`, the values at `x2`, the output and the
    three scratch buffers at anything — the body runs to the continuation holding the inputs as they were, the scratch
    at some contents and the output's buffer with those pieces written. The key chunks `ci ≤ 0` are visited, the
    others skipped: each condition compares the coordinate with a literal. -/
noncomputable def kernelRun1_q0 (c : Dev nD) (i : grid1.Coords) (hi : (i 1).val = 0)
    (arg2 : Memref sig .tc .vmem S1x512x64 .f32) (harg2 : arg2.IsWhole)
    (arg3 : Memref sig .tc .vmem S1x2048x64 .f32) (harg3 : arg3.IsWhole) (arg4 : Memref sig .tc .vmem S1x2048x64 .f32) (harg4 : arg4.IsWhole)
    (arg5 : Memref sig .tc .vmem S1x512x64 .f32) (harg5 : arg5.IsWhole)
    (x0 : Vec F S1x512x64 .f32) (x1 x2 : Vec F S1x2048x64 .f32) :
    { L1 : List (View.Piece (Elt F) S1x512x64 .f32) // Run1Spec c i arg2 harg2 arg3 harg3 arg4 harg4 arg5 harg5 x0 x1 x2 L1 } := by
  have hc0 : (Scalar.cmpi .ne (Scalar.extui (Scalar.cmpi .sge (BitVec.ofNat 32 (i 1).val) 0#32)) 0#32) = 1#1 := by rw [hi]; decide
  have hc1 : ¬ (Scalar.cmpi .ne (Scalar.extui (Scalar.cmpi .sge (BitVec.ofNat 32 (i 1).val) 1#32)) 0#32) = 1#1 := by rw [hi]; decide
  have hc2 : ¬ (Scalar.cmpi .ne (Scalar.extui (Scalar.cmpi .sge (BitVec.ofNat 32 (i 1).val) 2#32)) 0#32) = 1#1 := by rw [hi]; decide
  have hc3 : ¬ (Scalar.cmpi .ne (Scalar.extui (Scalar.cmpi .sge (BitVec.ofNat 32 (i 1).val) 3#32)) 0#32) = 1#1 := by rw [hi]; decide
  refine ⟨?_, ?run⟩
  case run =>
    unfold Run1Spec
    intro K
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

/-- The pieces tile the output block (one store of the whole block), so they cover it. -/
theorem cover1_q0 (c : Dev nD) (i : grid1.Coords) (hi : (i 1).val = 0)
    (arg2 : Memref sig .tc .vmem S1x512x64 .f32) (harg2 : arg2.IsWhole)
    (arg3 : Memref sig .tc .vmem S1x2048x64 .f32) (harg3 : arg3.IsWhole) (arg4 : Memref sig .tc .vmem S1x2048x64 .f32) (harg4 : arg4.IsWhole)
    (arg5 : Memref sig .tc .vmem S1x512x64 .f32) (harg5 : arg5.IsWhole)
    (x0 : Vec F S1x512x64 .f32) (x1 x2 : Vec F S1x2048x64 .f32) (y : S1x512x64.Idx) :
    ∃ pc ∈ (kernelRun1_q0 c i hi arg2 harg2 arg3 harg3 arg4 harg4 arg5 harg5 x0 x1 x2).1, y ∈ pc.1.set :=
  View.cover_of_tiledL (kernelRun1_q0 c i hi arg2 harg2 arg3 harg3 arg4 harg4 arg5 harg5 x0 x1 x2).1 S1x512x64.size (by sl_kernel_rfl) y

end Cert.Kernel.Hand

end
-- ==== Proof.BitsRegion1Run1.lean ====
/-
  The attention body at a point whose query chunk is number 1: key chunks 0 and 1 are visited, the later ones skipped; the pieces its stores leave in the output block and the body's triple for them.
-/
import proofs.«154606_j45561013076111_2_alg».proof.Proof.BitsRegion1Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The attention body at a point whose query chunk is number 1: key chunks 0..1 are visited -/

set_option maxHeartbeats 1000000 in
/-- What the body's stores leave in the output's staging memref, as pieces, when the query-chunk coordinate is 1, with
    the proof that on whole memrefs — the query chunk at `x0`, the keys at `x1`, the values at `x2`, the output and the
    three scratch buffers at anything — the body runs to the continuation holding the inputs as they were, the scratch
    at some contents and the output's buffer with those pieces written. The key chunks `ci ≤ 1` are visited, the
    others skipped: each condition compares the coordinate with a literal. -/
noncomputable def kernelRun1_q1 (c : Dev nD) (i : grid1.Coords) (hi : (i 1).val = 1)
    (arg2 : Memref sig .tc .vmem S1x512x64 .f32) (harg2 : arg2.IsWhole)
    (arg3 : Memref sig .tc .vmem S1x2048x64 .f32) (harg3 : arg3.IsWhole) (arg4 : Memref sig .tc .vmem S1x2048x64 .f32) (harg4 : arg4.IsWhole)
    (arg5 : Memref sig .tc .vmem S1x512x64 .f32) (harg5 : arg5.IsWhole)
    (x0 : Vec F S1x512x64 .f32) (x1 x2 : Vec F S1x2048x64 .f32) :
    { L1 : List (View.Piece (Elt F) S1x512x64 .f32) // Run1Spec c i arg2 harg2 arg3 harg3 arg4 harg4 arg5 harg5 x0 x1 x2 L1 } := by
  have hc0 : (Scalar.cmpi .ne (Scalar.extui (Scalar.cmpi .sge (BitVec.ofNat 32 (i 1).val) 0#32)) 0#32) = 1#1 := by rw [hi]; decide
  have hc1 : (Scalar.cmpi .ne (Scalar.extui (Scalar.cmpi .sge (BitVec.ofNat 32 (i 1).val) 1#32)) 0#32) = 1#1 := by rw [hi]; decide
  have hc2 : ¬ (Scalar.cmpi .ne (Scalar.extui (Scalar.cmpi .sge (BitVec.ofNat 32 (i 1).val) 2#32)) 0#32) = 1#1 := by rw [hi]; decide
  have hc3 : ¬ (Scalar.cmpi .ne (Scalar.extui (Scalar.cmpi .sge (BitVec.ofNat 32 (i 1).val) 3#32)) 0#32) = 1#1 := by rw [hi]; decide
  refine ⟨?_, ?run⟩
  case run =>
    unfold Run1Spec
    intro K
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

/-- The pieces tile the output block (one store of the whole block), so they cover it. -/
theorem cover1_q1 (c : Dev nD) (i : grid1.Coords) (hi : (i 1).val = 1)
    (arg2 : Memref sig .tc .vmem S1x512x64 .f32) (harg2 : arg2.IsWhole)
    (arg3 : Memref sig .tc .vmem S1x2048x64 .f32) (harg3 : arg3.IsWhole) (arg4 : Memref sig .tc .vmem S1x2048x64 .f32) (harg4 : arg4.IsWhole)
    (arg5 : Memref sig .tc .vmem S1x512x64 .f32) (harg5 : arg5.IsWhole)
    (x0 : Vec F S1x512x64 .f32) (x1 x2 : Vec F S1x2048x64 .f32) (y : S1x512x64.Idx) :
    ∃ pc ∈ (kernelRun1_q1 c i hi arg2 harg2 arg3 harg3 arg4 harg4 arg5 harg5 x0 x1 x2).1, y ∈ pc.1.set :=
  View.cover_of_tiledL (kernelRun1_q1 c i hi arg2 harg2 arg3 harg3 arg4 harg4 arg5 harg5 x0 x1 x2).1 S1x512x64.size (by sl_kernel_rfl) y

end Cert.Kernel.Hand

end
-- ==== Proof.BitsRegion1Run2.lean ====
/-
  The attention body at a point whose query chunk is number 2: key chunks 0, 1 and 2 are visited, the last one skipped; the pieces its stores leave in the output block and the body's triple for them.
-/
import proofs.«154606_j45561013076111_2_alg».proof.Proof.BitsRegion1Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The attention body at a point whose query chunk is number 2: key chunks 0..2 are visited -/

set_option maxHeartbeats 1000000 in
/-- What the body's stores leave in the output's staging memref, as pieces, when the query-chunk coordinate is 2, with
    the proof that on whole memrefs — the query chunk at `x0`, the keys at `x1`, the values at `x2`, the output and the
    three scratch buffers at anything — the body runs to the continuation holding the inputs as they were, the scratch
    at some contents and the output's buffer with those pieces written. The key chunks `ci ≤ 2` are visited, the
    others skipped: each condition compares the coordinate with a literal. -/
noncomputable def kernelRun1_q2 (c : Dev nD) (i : grid1.Coords) (hi : (i 1).val = 2)
    (arg2 : Memref sig .tc .vmem S1x512x64 .f32) (harg2 : arg2.IsWhole)
    (arg3 : Memref sig .tc .vmem S1x2048x64 .f32) (harg3 : arg3.IsWhole) (arg4 : Memref sig .tc .vmem S1x2048x64 .f32) (harg4 : arg4.IsWhole)
    (arg5 : Memref sig .tc .vmem S1x512x64 .f32) (harg5 : arg5.IsWhole)
    (x0 : Vec F S1x512x64 .f32) (x1 x2 : Vec F S1x2048x64 .f32) :
    { L1 : List (View.Piece (Elt F) S1x512x64 .f32) // Run1Spec c i arg2 harg2 arg3 harg3 arg4 harg4 arg5 harg5 x0 x1 x2 L1 } := by
  have hc0 : (Scalar.cmpi .ne (Scalar.extui (Scalar.cmpi .sge (BitVec.ofNat 32 (i 1).val) 0#32)) 0#32) = 1#1 := by rw [hi]; decide
  have hc1 : (Scalar.cmpi .ne (Scalar.extui (Scalar.cmpi .sge (BitVec.ofNat 32 (i 1).val) 1#32)) 0#32) = 1#1 := by rw [hi]; decide
  have hc2 : (Scalar.cmpi .ne (Scalar.extui (Scalar.cmpi .sge (BitVec.ofNat 32 (i 1).val) 2#32)) 0#32) = 1#1 := by rw [hi]; decide
  have hc3 : ¬ (Scalar.cmpi .ne (Scalar.extui (Scalar.cmpi .sge (BitVec.ofNat 32 (i 1).val) 3#32)) 0#32) = 1#1 := by rw [hi]; decide
  refine ⟨?_, ?run⟩
  case run =>
    unfold Run1Spec
    intro K
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

/-- The pieces tile the output block (one store of the whole block), so they cover it. -/
theorem cover1_q2 (c : Dev nD) (i : grid1.Coords) (hi : (i 1).val = 2)
    (arg2 : Memref sig .tc .vmem S1x512x64 .f32) (harg2 : arg2.IsWhole)
    (arg3 : Memref sig .tc .vmem S1x2048x64 .f32) (harg3 : arg3.IsWhole) (arg4 : Memref sig .tc .vmem S1x2048x64 .f32) (harg4 : arg4.IsWhole)
    (arg5 : Memref sig .tc .vmem S1x512x64 .f32) (harg5 : arg5.IsWhole)
    (x0 : Vec F S1x512x64 .f32) (x1 x2 : Vec F S1x2048x64 .f32) (y : S1x512x64.Idx) :
    ∃ pc ∈ (kernelRun1_q2 c i hi arg2 harg2 arg3 harg3 arg4 harg4 arg5 harg5 x0 x1 x2).1, y ∈ pc.1.set :=
  View.cover_of_tiledL (kernelRun1_q2 c i hi arg2 harg2 arg3 harg3 arg4 harg4 arg5 harg5 x0 x1 x2).1 S1x512x64.size (by sl_kernel_rfl) y

end Cert.Kernel.Hand

end
-- ==== Proof.BitsRegion1Run3.lean ====
/-
  The attention body at a point whose query chunk is number 3: all four key chunks are visited; the pieces its stores leave in the output block and the body's triple for them.
-/
import proofs.«154606_j45561013076111_2_alg».proof.Proof.BitsRegion1Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The attention body at a point whose query chunk is number 3: key chunks 0..3 are visited -/

set_option maxHeartbeats 1000000 in
/-- What the body's stores leave in the output's staging memref, as pieces, when the query-chunk coordinate is 3, with
    the proof that on whole memrefs — the query chunk at `x0`, the keys at `x1`, the values at `x2`, the output and the
    three scratch buffers at anything — the body runs to the continuation holding the inputs as they were, the scratch
    at some contents and the output's buffer with those pieces written. The key chunks `ci ≤ 3` are visited, the
    others skipped: each condition compares the coordinate with a literal. -/
noncomputable def kernelRun1_q3 (c : Dev nD) (i : grid1.Coords) (hi : (i 1).val = 3)
    (arg2 : Memref sig .tc .vmem S1x512x64 .f32) (harg2 : arg2.IsWhole)
    (arg3 : Memref sig .tc .vmem S1x2048x64 .f32) (harg3 : arg3.IsWhole) (arg4 : Memref sig .tc .vmem S1x2048x64 .f32) (harg4 : arg4.IsWhole)
    (arg5 : Memref sig .tc .vmem S1x512x64 .f32) (harg5 : arg5.IsWhole)
    (x0 : Vec F S1x512x64 .f32) (x1 x2 : Vec F S1x2048x64 .f32) :
    { L1 : List (View.Piece (Elt F) S1x512x64 .f32) // Run1Spec c i arg2 harg2 arg3 harg3 arg4 harg4 arg5 harg5 x0 x1 x2 L1 } := by
  have hc0 : (Scalar.cmpi .ne (Scalar.extui (Scalar.cmpi .sge (BitVec.ofNat 32 (i 1).val) 0#32)) 0#32) = 1#1 := by rw [hi]; decide
  have hc1 : (Scalar.cmpi .ne (Scalar.extui (Scalar.cmpi .sge (BitVec.ofNat 32 (i 1).val) 1#32)) 0#32) = 1#1 := by rw [hi]; decide
  have hc2 : (Scalar.cmpi .ne (Scalar.extui (Scalar.cmpi .sge (BitVec.ofNat 32 (i 1).val) 2#32)) 0#32) = 1#1 := by rw [hi]; decide
  have hc3 : (Scalar.cmpi .ne (Scalar.extui (Scalar.cmpi .sge (BitVec.ofNat 32 (i 1).val) 3#32)) 0#32) = 1#1 := by rw [hi]; decide
  refine ⟨?_, ?run⟩
  case run =>
    unfold Run1Spec
    intro K
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

/-- The pieces tile the output block (one store of the whole block), so they cover it. -/
theorem cover1_q3 (c : Dev nD) (i : grid1.Coords) (hi : (i 1).val = 3)
    (arg2 : Memref sig .tc .vmem S1x512x64 .f32) (harg2 : arg2.IsWhole)
    (arg3 : Memref sig .tc .vmem S1x2048x64 .f32) (harg3 : arg3.IsWhole) (arg4 : Memref sig .tc .vmem S1x2048x64 .f32) (harg4 : arg4.IsWhole)
    (arg5 : Memref sig .tc .vmem S1x512x64 .f32) (harg5 : arg5.IsWhole)
    (x0 : Vec F S1x512x64 .f32) (x1 x2 : Vec F S1x2048x64 .f32) (y : S1x512x64.Idx) :
    ∃ pc ∈ (kernelRun1_q3 c i hi arg2 harg2 arg3 harg3 arg4 harg4 arg5 harg5 x0 x1 x2).1, y ∈ pc.1.set :=
  View.cover_of_tiledL (kernelRun1_q3 c i hi arg2 harg2 arg3 harg3 arg4 harg4 arg5 harg5 x0 x1 x2).1 S1x512x64.size (by sl_kernel_rfl) y

end Cert.Kernel.Hand

end
-- ==== Proof.BitsRegion1.lean ====
/-
  The attention launch: what the body leaves in the output block, by query chunk; the pipeline's proof data; its obligation at every point.
-/
import proofs.«154606_j45561013076111_2_alg».proof.Proof.Gen.Kernel.Launch
import proofs.«154606_j45561013076111_2_alg».proof.Proof.Gen.Kernel.Skeleton
import proofs.«154606_j45561013076111_2_alg».proof.Proof.Gen.Kernel.Points
import proofs.«154606_j45561013076111_2_alg».proof.Proof.BitsRegion1Defs
import proofs.«154606_j45561013076111_2_alg».proof.Proof.BitsRegion1Run0
import proofs.«154606_j45561013076111_2_alg».proof.Proof.BitsRegion1Run1
import proofs.«154606_j45561013076111_2_alg».proof.Proof.BitsRegion1Run2
import proofs.«154606_j45561013076111_2_alg».proof.Proof.BitsRegion1Run3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Region 1: the body at each query chunk, the proof data, the body obligation -/

/-- What the run leaves in the output's staging buffer when the query chunk is chunk 0: its pieces read back over junk. -/
def out1_q0 (c : Dev nD) (i : grid1.Coords) (hi : (i 1).val = 0) (arg2 : Memref sig .tc .vmem S1x512x64 .f32) (harg2 : arg2.IsWhole)
    (arg3 : Memref sig .tc .vmem S1x2048x64 .f32) (harg3 : arg3.IsWhole) (arg4 : Memref sig .tc .vmem S1x2048x64 .f32) (harg4 : arg4.IsWhole)
    (arg5 : Memref sig .tc .vmem S1x512x64 .f32) (harg5 : arg5.IsWhole)
    (x0 : Vec F S1x512x64 .f32) (x1 x2 : Vec F S1x2048x64 .f32) : Vec F S1x512x64 .f32 :=
  VO1_3.read (Elt F) (VO1_3.writes (Elt F) VO1_3.junk (kernelRun1_q0 c i hi arg2 harg2 arg3 harg3 arg4 harg4 arg5 harg5 x0 x1 x2).1)

/-- What the run leaves in the output's staging buffer when the query chunk is chunk 1: its pieces read back over junk. -/
def out1_q1 (c : Dev nD) (i : grid1.Coords) (hi : (i 1).val = 1) (arg2 : Memref sig .tc .vmem S1x512x64 .f32) (harg2 : arg2.IsWhole)
    (arg3 : Memref sig .tc .vmem S1x2048x64 .f32) (harg3 : arg3.IsWhole) (arg4 : Memref sig .tc .vmem S1x2048x64 .f32) (harg4 : arg4.IsWhole)
    (arg5 : Memref sig .tc .vmem S1x512x64 .f32) (harg5 : arg5.IsWhole)
    (x0 : Vec F S1x512x64 .f32) (x1 x2 : Vec F S1x2048x64 .f32) : Vec F S1x512x64 .f32 :=
  VO1_3.read (Elt F) (VO1_3.writes (Elt F) VO1_3.junk (kernelRun1_q1 c i hi arg2 harg2 arg3 harg3 arg4 harg4 arg5 harg5 x0 x1 x2).1)

/-- What the run leaves in the output's staging buffer when the query chunk is chunk 2: its pieces read back over junk. -/
def out1_q2 (c : Dev nD) (i : grid1.Coords) (hi : (i 1).val = 2) (arg2 : Memref sig .tc .vmem S1x512x64 .f32) (harg2 : arg2.IsWhole)
    (arg3 : Memref sig .tc .vmem S1x2048x64 .f32) (harg3 : arg3.IsWhole) (arg4 : Memref sig .tc .vmem S1x2048x64 .f32) (harg4 : arg4.IsWhole)
    (arg5 : Memref sig .tc .vmem S1x512x64 .f32) (harg5 : arg5.IsWhole)
    (x0 : Vec F S1x512x64 .f32) (x1 x2 : Vec F S1x2048x64 .f32) : Vec F S1x512x64 .f32 :=
  VO1_3.read (Elt F) (VO1_3.writes (Elt F) VO1_3.junk (kernelRun1_q2 c i hi arg2 harg2 arg3 harg3 arg4 harg4 arg5 harg5 x0 x1 x2).1)

/-- What the run leaves in the output's staging buffer when the query chunk is chunk 3: its pieces read back over junk. -/
def out1_q3 (c : Dev nD) (i : grid1.Coords) (hi : (i 1).val = 3) (arg2 : Memref sig .tc .vmem S1x512x64 .f32) (harg2 : arg2.IsWhole)
    (arg3 : Memref sig .tc .vmem S1x2048x64 .f32) (harg3 : arg3.IsWhole) (arg4 : Memref sig .tc .vmem S1x2048x64 .f32) (harg4 : arg4.IsWhole)
    (arg5 : Memref sig .tc .vmem S1x512x64 .f32) (harg5 : arg5.IsWhole)
    (x0 : Vec F S1x512x64 .f32) (x1 x2 : Vec F S1x2048x64 .f32) : Vec F S1x512x64 .f32 :=
  VO1_3.read (Elt F) (VO1_3.writes (Elt F) VO1_3.junk (kernelRun1_q3 c i hi arg2 harg2 arg3 harg3 arg4 harg4 arg5 harg5 x0 x1 x2).1)

/-- The run's contents at chunk 0 are its pieces laid over one another. -/
theorem out1_q0_eq_canon (c : Dev nD) (i : grid1.Coords) (hi : (i 1).val = 0) (arg2 : Memref sig .tc .vmem S1x512x64 .f32) (harg2 : arg2.IsWhole)
    (arg3 : Memref sig .tc .vmem S1x2048x64 .f32) (harg3 : arg3.IsWhole) (arg4 : Memref sig .tc .vmem S1x2048x64 .f32) (harg4 : arg4.IsWhole)
    (arg5 : Memref sig .tc .vmem S1x512x64 .f32) (harg5 : arg5.IsWhole)
    (x0 : Vec F S1x512x64 .f32) (x1 x2 : Vec F S1x2048x64 .f32) :
    out1_q0 c i hi arg2 harg2 arg3 harg3 arg4 harg4 arg5 harg5 x0 x1 x2 = View.canon (kernelRun1_q0 c i hi arg2 harg2 arg3 harg3 arg4 harg4 arg5 harg5 x0 x1 x2).1 :=
  View.read_writes_eq_canon _ _ _ (cover1_q0 c i hi arg2 harg2 arg3 harg3 arg4 harg4 arg5 harg5 x0 x1 x2)

/-- The run's contents at chunk 1 are its pieces laid over one another. -/
theorem out1_q1_eq_canon (c : Dev nD) (i : grid1.Coords) (hi : (i 1).val = 1) (arg2 : Memref sig .tc .vmem S1x512x64 .f32) (harg2 : arg2.IsWhole)
    (arg3 : Memref sig .tc .vmem S1x2048x64 .f32) (harg3 : arg3.IsWhole) (arg4 : Memref sig .tc .vmem S1x2048x64 .f32) (harg4 : arg4.IsWhole)
    (arg5 : Memref sig .tc .vmem S1x512x64 .f32) (harg5 : arg5.IsWhole)
    (x0 : Vec F S1x512x64 .f32) (x1 x2 : Vec F S1x2048x64 .f32) :
    out1_q1 c i hi arg2 harg2 arg3 harg3 arg4 harg4 arg5 harg5 x0 x1 x2 = View.canon (kernelRun1_q1 c i hi arg2 harg2 arg3 harg3 arg4 harg4 arg5 harg5 x0 x1 x2).1 :=
  View.read_writes_eq_canon _ _ _ (cover1_q1 c i hi arg2 harg2 arg3 harg3 arg4 harg4 arg5 harg5 x0 x1 x2)

/-- The run's contents at chunk 2 are its pieces laid over one another. -/
theorem out1_q2_eq_canon (c : Dev nD) (i : grid1.Coords) (hi : (i 1).val = 2) (arg2 : Memref sig .tc .vmem S1x512x64 .f32) (harg2 : arg2.IsWhole)
    (arg3 : Memref sig .tc .vmem S1x2048x64 .f32) (harg3 : arg3.IsWhole) (arg4 : Memref sig .tc .vmem S1x2048x64 .f32) (harg4 : arg4.IsWhole)
    (arg5 : Memref sig .tc .vmem S1x512x64 .f32) (harg5 : arg5.IsWhole)
    (x0 : Vec F S1x512x64 .f32) (x1 x2 : Vec F S1x2048x64 .f32) :
    out1_q2 c i hi arg2 harg2 arg3 harg3 arg4 harg4 arg5 harg5 x0 x1 x2 = View.canon (kernelRun1_q2 c i hi arg2 harg2 arg3 harg3 arg4 harg4 arg5 harg5 x0 x1 x2).1 :=
  View.read_writes_eq_canon _ _ _ (cover1_q2 c i hi arg2 harg2 arg3 harg3 arg4 harg4 arg5 harg5 x0 x1 x2)

/-- The run's contents at chunk 3 are its pieces laid over one another. -/
theorem out1_q3_eq_canon (c : Dev nD) (i : grid1.Coords) (hi : (i 1).val = 3) (arg2 : Memref sig .tc .vmem S1x512x64 .f32) (harg2 : arg2.IsWhole)
    (arg3 : Memref sig .tc .vmem S1x2048x64 .f32) (harg3 : arg3.IsWhole) (arg4 : Memref sig .tc .vmem S1x2048x64 .f32) (harg4 : arg4.IsWhole)
    (arg5 : Memref sig .tc .vmem S1x512x64 .f32) (harg5 : arg5.IsWhole)
    (x0 : Vec F S1x512x64 .f32) (x1 x2 : Vec F S1x2048x64 .f32) :
    out1_q3 c i hi arg2 harg2 arg3 harg3 arg4 harg4 arg5 harg5 x0 x1 x2 = View.canon (kernelRun1_q3 c i hi arg2 harg2 arg3 harg3 arg4 harg4 arg5 harg5 x0 x1 x2).1 :=
  View.read_writes_eq_canon _ _ _ (cover1_q3 c i hi arg2 harg2 arg3 harg3 arg4 harg4 arg5 harg5 x0 x1 x2)

/-- The second grid coordinate (the query chunk) is below 4. -/
theorem qi_lt (i : grid1.Coords) : (i 1).val < 4 := (i 1).isLt

/-- The last case: a query chunk that is none of 0, 1, 2 is chunk 3. -/
theorem qi_eq3 (i : grid1.Coords) (h0 : ¬ (i 1).val = 0) (h1 : ¬ (i 1).val = 1) (h2 : ¬ (i 1).val = 2) : (i 1).val = 3 := by
  have := qi_lt i; omega

/-- What the run leaves in the output's staging buffer, by the query chunk. -/
def out1 (c : Dev nD) (i : grid1.Coords) (arg2 : Memref sig .tc .vmem S1x512x64 .f32) (harg2 : arg2.IsWhole)
    (arg3 : Memref sig .tc .vmem S1x2048x64 .f32) (harg3 : arg3.IsWhole) (arg4 : Memref sig .tc .vmem S1x2048x64 .f32) (harg4 : arg4.IsWhole)
    (arg5 : Memref sig .tc .vmem S1x512x64 .f32) (harg5 : arg5.IsWhole)
    (x0 : Vec F S1x512x64 .f32) (x1 x2 : Vec F S1x2048x64 .f32) : Vec F S1x512x64 .f32 :=
  if h0 : (i 1).val = 0 then out1_q0 c i h0 arg2 harg2 arg3 harg3 arg4 harg4 arg5 harg5 x0 x1 x2
  else if h1 : (i 1).val = 1 then out1_q1 c i h1 arg2 harg2 arg3 harg3 arg4 harg4 arg5 harg5 x0 x1 x2
  else if h2 : (i 1).val = 2 then out1_q2 c i h2 arg2 harg2 arg3 harg3 arg4 harg4 arg5 harg5 x0 x1 x2
  else out1_q3 c i (qi_eq3 i h0 h1 h2) arg2 harg2 arg3 harg3 arg4 harg4 arg5 harg5 x0 x1 x2

theorem out1_eq_q0 (c : Dev nD) (i : grid1.Coords) (hi : (i 1).val = 0) (arg2 : Memref sig .tc .vmem S1x512x64 .f32) (harg2 : arg2.IsWhole)
    (arg3 : Memref sig .tc .vmem S1x2048x64 .f32) (harg3 : arg3.IsWhole) (arg4 : Memref sig .tc .vmem S1x2048x64 .f32) (harg4 : arg4.IsWhole)
    (arg5 : Memref sig .tc .vmem S1x512x64 .f32) (harg5 : arg5.IsWhole)
    (x0 : Vec F S1x512x64 .f32) (x1 x2 : Vec F S1x2048x64 .f32) :
    out1 c i arg2 harg2 arg3 harg3 arg4 harg4 arg5 harg5 x0 x1 x2 = out1_q0 c i hi arg2 harg2 arg3 harg3 arg4 harg4 arg5 harg5 x0 x1 x2 := by
  unfold out1; rw [dif_pos hi]
theorem out1_eq_q1 (c : Dev nD) (i : grid1.Coords) (hi : (i 1).val = 1) (arg2 : Memref sig .tc .vmem S1x512x64 .f32) (harg2 : arg2.IsWhole)
    (arg3 : Memref sig .tc .vmem S1x2048x64 .f32) (harg3 : arg3.IsWhole) (arg4 : Memref sig .tc .vmem S1x2048x64 .f32) (harg4 : arg4.IsWhole)
    (arg5 : Memref sig .tc .vmem S1x512x64 .f32) (harg5 : arg5.IsWhole)
    (x0 : Vec F S1x512x64 .f32) (x1 x2 : Vec F S1x2048x64 .f32) :
    out1 c i arg2 harg2 arg3 harg3 arg4 harg4 arg5 harg5 x0 x1 x2 = out1_q1 c i hi arg2 harg2 arg3 harg3 arg4 harg4 arg5 harg5 x0 x1 x2 := by
  unfold out1; rw [dif_neg (by omega), dif_pos hi]
theorem out1_eq_q2 (c : Dev nD) (i : grid1.Coords) (hi : (i 1).val = 2) (arg2 : Memref sig .tc .vmem S1x512x64 .f32) (harg2 : arg2.IsWhole)
    (arg3 : Memref sig .tc .vmem S1x2048x64 .f32) (harg3 : arg3.IsWhole) (arg4 : Memref sig .tc .vmem S1x2048x64 .f32) (harg4 : arg4.IsWhole)
    (arg5 : Memref sig .tc .vmem S1x512x64 .f32) (harg5 : arg5.IsWhole)
    (x0 : Vec F S1x512x64 .f32) (x1 x2 : Vec F S1x2048x64 .f32) :
    out1 c i arg2 harg2 arg3 harg3 arg4 harg4 arg5 harg5 x0 x1 x2 = out1_q2 c i hi arg2 harg2 arg3 harg3 arg4 harg4 arg5 harg5 x0 x1 x2 := by
  unfold out1; rw [dif_neg (by omega), dif_neg (by omega), dif_pos hi]
theorem out1_eq_q3 (c : Dev nD) (i : grid1.Coords) (hi : (i 1).val = 3) (arg2 : Memref sig .tc .vmem S1x512x64 .f32) (harg2 : arg2.IsWhole)
    (arg3 : Memref sig .tc .vmem S1x2048x64 .f32) (harg3 : arg3.IsWhole) (arg4 : Memref sig .tc .vmem S1x2048x64 .f32) (harg4 : arg4.IsWhole)
    (arg5 : Memref sig .tc .vmem S1x512x64 .f32) (harg5 : arg5.IsWhole)
    (x0 : Vec F S1x512x64 .f32) (x1 x2 : Vec F S1x2048x64 .f32) :
    out1 c i arg2 harg2 arg3 harg3 arg4 harg4 arg5 harg5 x0 x1 x2 = out1_q3 c i hi arg2 harg2 arg3 harg3 arg4 harg4 arg5 harg5 x0 x1 x2 := by
  unfold out1; rw [dif_neg (by omega), dif_neg (by omega), dif_neg (by omega)]

/-- In every case the body's triple holds for some covering list of pieces, and `out1` is those pieces read back. -/
theorem run1 (c : Dev nD) (i : grid1.Coords) (arg2 : Memref sig .tc .vmem S1x512x64 .f32) (harg2 : arg2.IsWhole)
    (arg3 : Memref sig .tc .vmem S1x2048x64 .f32) (harg3 : arg3.IsWhole) (arg4 : Memref sig .tc .vmem S1x2048x64 .f32) (harg4 : arg4.IsWhole)
    (arg5 : Memref sig .tc .vmem S1x512x64 .f32) (harg5 : arg5.IsWhole)
    (x0 : Vec F S1x512x64 .f32) (x1 x2 : Vec F S1x2048x64 .f32) :
    ∃ L1 : List (View.Piece (Elt F) S1x512x64 .f32), Run1Spec c i arg2 harg2 arg3 harg3 arg4 harg4 arg5 harg5 x0 x1 x2 L1 ∧ (∀ y : S1x512x64.Idx, ∃ pc ∈ L1, y ∈ pc.1.set)
      ∧ out1 c i arg2 harg2 arg3 harg3 arg4 harg4 arg5 harg5 x0 x1 x2 = VO1_3.read (Elt F) (VO1_3.writes (Elt F) VO1_3.junk L1) := by
  by_cases h0 : (i 1).val = 0
  · exact ⟨_, (kernelRun1_q0 c i h0 arg2 harg2 arg3 harg3 arg4 harg4 arg5 harg5 x0 x1 x2).2, cover1_q0 c i h0 arg2 harg2 arg3 harg3 arg4 harg4 arg5 harg5 x0 x1 x2, out1_eq_q0 c i h0 arg2 harg2 arg3 harg3 arg4 harg4 arg5 harg5 x0 x1 x2⟩
  by_cases h1 : (i 1).val = 1
  · exact ⟨_, (kernelRun1_q1 c i h1 arg2 harg2 arg3 harg3 arg4 harg4 arg5 harg5 x0 x1 x2).2, cover1_q1 c i h1 arg2 harg2 arg3 harg3 arg4 harg4 arg5 harg5 x0 x1 x2, out1_eq_q1 c i h1 arg2 harg2 arg3 harg3 arg4 harg4 arg5 harg5 x0 x1 x2⟩
  by_cases h2 : (i 1).val = 2
  · exact ⟨_, (kernelRun1_q2 c i h2 arg2 harg2 arg3 harg3 arg4 harg4 arg5 harg5 x0 x1 x2).2, cover1_q2 c i h2 arg2 harg2 arg3 harg3 arg4 harg4 arg5 harg5 x0 x1 x2, out1_eq_q2 c i h2 arg2 harg2 arg3 harg3 arg4 harg4 arg5 harg5 x0 x1 x2⟩
  have h3 := qi_eq3 i h0 h1 h2
  exact ⟨_, (kernelRun1_q3 c i h3 arg2 harg2 arg3 harg3 arg4 harg4 arg5 harg5 x0 x1 x2).2, cover1_q3 c i h3 arg2 harg2 arg3 harg3 arg4 harg4 arg5 harg5 x0 x1 x2, out1_eq_q3 c i h3 arg2 harg2 arg3 harg3 arg4 harg4 arg5 harg5 x0 x1 x2⟩

section Region1
variable (V : (c : Dev nD) → (b : Ref sig .tc) → Buf (Elt F) ((c : Thread nD τ).loc b))

/-! ## What the output holds after each point -/

/-- What the output's staging buffer holds after the body at point `t`: the run's contents at the point's memrefs and
    input blocks. -/
def outsAt1 (c : Dev nD) (t : Fin cfg1.N) : Vec F S1x512x64 .f32 :=
  out1 c (grid1.coords t) (ms1_0 t) (hs1_0 t) (ms1_1 t) (hs1_1 t) (ms1_2 t) (hs1_2 t) (ms1_3 t) (hs1_3 t)
    (iblk1 V c 0 t) (iblk1 V c 1 t) (iblk1 V c 2 t)

/-- At a point whose query chunk is 0 the output holds the run's contents of that case. -/
theorem outsAt1_eq_q0 (c : Dev nD) (t : Fin cfg1.N) (h : ((grid1.coords t) 1).val = 0) :
    outsAt1 V c t = out1_q0 c (grid1.coords t) h (ms1_0 t) (hs1_0 t) (ms1_1 t) (hs1_1 t) (ms1_2 t) (hs1_2 t) (ms1_3 t) (hs1_3 t)
      (iblk1 V c 0 t) (iblk1 V c 1 t) (iblk1 V c 2 t) :=
  out1_eq_q0 c (grid1.coords t) h _ _ _ _ _ _ _ _ _ _ _

/-- At a point whose query chunk is 1 the output holds the run's contents of that case. -/
theorem outsAt1_eq_q1 (c : Dev nD) (t : Fin cfg1.N) (h : ((grid1.coords t) 1).val = 1) :
    outsAt1 V c t = out1_q1 c (grid1.coords t) h (ms1_0 t) (hs1_0 t) (ms1_1 t) (hs1_1 t) (ms1_2 t) (hs1_2 t) (ms1_3 t) (hs1_3 t)
      (iblk1 V c 0 t) (iblk1 V c 1 t) (iblk1 V c 2 t) :=
  out1_eq_q1 c (grid1.coords t) h _ _ _ _ _ _ _ _ _ _ _

/-- At a point whose query chunk is 2 the output holds the run's contents of that case. -/
theorem outsAt1_eq_q2 (c : Dev nD) (t : Fin cfg1.N) (h : ((grid1.coords t) 1).val = 2) :
    outsAt1 V c t = out1_q2 c (grid1.coords t) h (ms1_0 t) (hs1_0 t) (ms1_1 t) (hs1_1 t) (ms1_2 t) (hs1_2 t) (ms1_3 t) (hs1_3 t)
      (iblk1 V c 0 t) (iblk1 V c 1 t) (iblk1 V c 2 t) :=
  out1_eq_q2 c (grid1.coords t) h _ _ _ _ _ _ _ _ _ _ _

/-- At a point whose query chunk is 3 the output holds the run's contents of that case. -/
theorem outsAt1_eq_q3 (c : Dev nD) (t : Fin cfg1.N) (h : ((grid1.coords t) 1).val = 3) :
    outsAt1 V c t = out1_q3 c (grid1.coords t) h (ms1_0 t) (hs1_0 t) (ms1_1 t) (hs1_1 t) (ms1_2 t) (hs1_2 t) (ms1_3 t) (hs1_3 t)
      (iblk1 V c 0 t) (iblk1 V c 1 t) (iblk1 V c 2 t) :=
  out1_eq_q3 c (grid1.coords t) h _ _ _ _ _ _ _ _ _ _ _

/-! ## The pipeline's proof data -/

/-- The proof data of pipeline 1 on core `c`: the arrays as the region finds them; after the body at point `t` each
    input's buffer at its block and the output's at `outsAt1`; the invariant the scoped rest and the generator register;
    nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outsAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outsAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The invariant, conjunct by conjunct -/

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f)
          ∗ (∃ d, owns (c : Thread nD τ) scM1_0 fullShare d) ∗ (∃ d, owns (c : Thread nD τ) scM1_1 fullShare d) ∗ (∃ d, owns (c : Thread nD τ) scM1_2 fullShare d))
        ∗ (∃ r, prngReg c r)) := by
  unfold Pipeline.ΦA; rw [scopedRest1_eq]; simp only [scM1_0, scM1_1, scM1_2, owns_whole]; try rfl

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 1000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  rw [show (dat1 V c).Φ t.castSucc = Pipeline.ΦA spec1 c from rfl, PhiA1_eq]
  unfold outsAt1
  obtain ⟨L1, hrun, hcov, hout⟩ := run1 c (grid1.coords t) (ms1_0 t) (hs1_0 t) (ms1_1 t) (hs1_1 t) (ms1_2 t) (hs1_2 t) (ms1_3 t) (hs1_3 t)
    (iblk1 V c 0 t) (iblk1 V c 1 t) (iblk1 V c 2 t)
  rw [hout]
  unfold Run1Spec at hrun
  iintro ⟨⟨⟨HR0, HR1, HR2, HR3, HR4, HR5, HR6, HR7, HR8, HR9, HR10, HS0, HS1, HS2⟩, Hg⟩, Ho, ⟨%d0, H0⟩, ⟨%d1, H1⟩, ⟨%d2, H2⟩, ⟨%d3, H3⟩⟩
  iapply (hrun _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  iintro ⟨H0, H1, H2, ⟨%e3, H3⟩, HS0, HS1, HS2⟩
  isplitl [HR0 HR1 HR2 HR3 HR4 HR5 HR6 HR7 HR8 HR9 HR10 HS0 HS1 HS2 Hg]
  · isplitl [HR0 HR1 HR2 HR3 HR4 HR5 HR6 HR7 HR8 HR9 HR10 HS0 HS1 HS2]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HS0]; · iexact HS0
      isplitl [HS1]; · iexact HS1
      iexact HS2
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ hcov

/-- The body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.BitsRun.lean ====
/-
  The two launches in order: the buffer contents at each boundary, the arguments unchanged, the three result arrays by name, and the run from the launch memory to the return.
-/
import proofs.«154606_j45561013076111_2_alg».proof.Proof.BitsRegion0
import proofs.«154606_j45561013076111_2_alg».proof.Proof.BitsRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! # The run: the two launches in order, from the launch memory to the return

## The buffer contents at each boundary: a fold through the two launches -/

/-- Core `c`'s buffers at launch (what the projection launch is entered from). -/
abbrev W0 : Dev nD → Valuation τ sig (Elt F) := fun c b => (s₀ m ρ).mem ((c : Dev nD), b)
/-- The same read at the core's references. -/
abbrev V0 : (c : Dev nD) → (b : Ref sig .tc) → Buf (Elt F) ((c : Thread nD τ).loc b) := fun c b => W0 m ρ c b
/-- After the projection launch: its seven arrays at what the write-backs leave (the four inputs as entered, q, k, v
    with every block written), every other buffer as entered (what the attention launch is entered from). -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the core's references. -/
abbrev V1 : (c : Dev nD) → (b : Ref sig .tc) → Buf (Elt F) ((c : Thread nD τ).loc b) := fun c b => W1 m ρ c b
/-- After the projection launch each of its arrays holds what the write-backs leave, and every other buffer what it
    held before. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the attention launch: its four arrays at what the write-backs leave (q, k, v as entered, the output with
    every block written), every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the core's references. -/
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ### The arguments end as launched: the projection launch only reads them (an input array is never written back),
    the attention launch does not touch them -/

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := (W1_arr m ρ c 2).trans (((dat0 (V0 m ρ) c).arrAt_in 2 rfl _).trans (A_eq0 (V0 m ρ) c 2))
    _ = m ((c : Thread nD τ).loc main_arg2) := rfl
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := (W1_arr m ρ c 3).trans (((dat0 (V0 m ρ) c).arrAt_in 3 rfl _).trans (A_eq0 (V0 m ρ) c 3))
    _ = m ((c : Thread nD τ).loc main_arg3) := rfl

/-! ### The results by name: what the attention launch finds in q, k, v, and what the three result arrays hold at
    the end (k and v are inputs of the attention launch, which leaves them as the projection launch wrote them) -/

theorem V1_q (c : Dev nD) : V1 m ρ c main_v0_0 = (dat0 (V0 m ρ) c).arrAt 4 cfg0.N := W1_arr m ρ c 4
theorem V1_k (c : Dev nD) : V1 m ρ c main_v0_1 = (dat0 (V0 m ρ) c).arrAt 5 cfg0.N := W1_arr m ρ c 5
theorem V1_v (c : Dev nD) : V1 m ρ c main_v0_2 = (dat0 (V0 m ρ) c).arrAt 6 cfg0.N := W1_arr m ρ c 6
theorem W2_main_v1 (c : Dev nD) : W2 m ρ c (Proc.devRef .tc main_v1) = (dat1 (V1 m ρ) c).arrAt 3 cfg1.N := W2_arr m ρ c 3
theorem W2_main_v0_1 (c : Dev nD) : W2 m ρ c (Proc.devRef .tc main_v0_1) = (dat0 (V0 m ρ) c).arrAt 5 cfg0.N :=
  calc W2 m ρ c (Proc.devRef .tc main_v0_1)
    _ = W1 m ρ c (Proc.devRef .tc main_v0_1) := (W2_arr m ρ c 1).trans (((dat1 (V1 m ρ) c).arrAt_in 1 rfl _).trans (A_eq1 (V1 m ρ) c 1))
    _ = (dat0 (V0 m ρ) c).arrAt 5 cfg0.N := W1_arr m ρ c 5
theorem W2_main_v0_2 (c : Dev nD) : W2 m ρ c (Proc.devRef .tc main_v0_2) = (dat0 (V0 m ρ) c).arrAt 6 cfg0.N :=
  calc W2 m ρ c (Proc.devRef .tc main_v0_2)
    _ = W1 m ρ c (Proc.devRef .tc main_v0_2) := (W2_arr m ρ c 2).trans (((dat1 (V1 m ρ) c).arrAt_in 2 rfl _).trans (A_eq1 (V1 m ρ) c 2))
    _ = (dat0 (V0 m ρ) c).arrAt 6 cfg0.N := W1_arr m ρ c 6

/-! ## The proof data of both launches and the state between them -/

/-- No launch has a prefetched table. -/
abbrev adm : (p : Fin 2) → (pcfgs (F := F) p).Adm := fun p => (cfgs p).toPCfg_adm
/-- Each launch's proof data at the contents it is entered from. -/
def pdats : (p : Fin 2) → (c : Dev nD) → Dat τ (Elt F) Unit ℕ (Pipeline.UD sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)

/-- An unscoped reference of the core is among those the state between launches holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without what is owed: every unscoped buffer at the final contents, the generator register at some state. -/
abbrev Tₙ (c : Dev nD) : sProp 𝕄 := iprop(StableHlo.held (c : Thread nD τ) (Pipeline.ucRefs τ sig) (W2 m ρ c) ∗ ∃ r, prngReg c r)

/-! ## The launches as segments -/

set_option backward.isDefEq.respectTransparency.types false in
/-- The projection launch over the state between launches: entered with every unscoped buffer at the launch contents, left
    with them at the contents after it. Its arrays are split out of the unscoped buffers and put back at the exit contents;
    the generator register passes through the invariant; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention launch, likewise: entered at the contents the projection launch leaves, left at the final contents. Its
    three scratch buffers are scoped: they stay inside the invariant from the first point to the last. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as the two segments, and the run -/

abbrev segs : List (Pipeline.Seg (pcfgs (F := F)) adm (pdats m ρ) () defs₀ 𝒱₀ L lv) :=
  [ .region (reg0 m ρ),
    .region (reg1 m ρ) ]
/-- The program is the run of the two segments. -/
theorem main_run (c : Dev nD) : main (F := F) c = Pipeline.Seg.run (segs m ρ) := (main_chain c).trans (by chain_rfl)

set_option backward.isDefEq.respectTransparency.types false in
/-- THE RUN, with the results named: from any memory with zero counters every weakly fair execution of the two launches
    terminates, nothing faulting, and every final memory holds, on every core, the attention output at what the attention
    launch's write-backs leave, k and v at what the projection launch's write-backs leave, and each argument as launched. -/
theorem run_named : θ_run defs (onTc (τ := τ) (main (F := F))) ⟨m, fun _ => 0, ρ⟩ (fun r => ∀ c : Dev nD,
      r.2.mem ((c.tc : Thread nD τ).loc main_v1) = (dat1 (V1 m ρ) c).arrAt 3 cfg1.N
      ∧ r.2.mem ((c.tc : Thread nD τ).loc main_v0_1) = (dat0 (V0 m ρ) c).arrAt 5 cfg0.N
      ∧ r.2.mem ((c.tc : Thread nD τ).loc main_v0_2) = (dat0 (V0 m ρ) c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (W2_main_v1 m ρ c),
       (h c _ (mem_uc main_v0_1 (by decide))).trans (W2_main_v0_1 m ρ c),
       (h c _ (mem_uc main_v0_2 (by decide))).trans (W2_main_v0_2 m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

/-- THE FRAME at any float model: the run terminates, nothing faulting, and every final memory holds each argument as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run _ _ _).mono (fun r h c => (h c).2.2.2) (run_named m ρ)

end Cert.Kernel.Hand

end
-- ==== Proof.IdealRegion0.lean ====
/-
  The projection launch (q, k, v = x·Wq, x·Wk, x·Wv; one batch row per grid point): each window's block at a point, what the body leaves in the three result blocks, the body's triple, and the pipeline's proof data with its obligation at every point.
-/
import proofs.«154606_j45561013076111_2_alg».proof.Proof.Gen.KernelIdeal.Launch
import proofs.«154606_j45561013076111_2_alg».proof.Proof.Gen.KernelIdeal.Skeleton
import proofs.«154606_j45561013076111_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

section Region0
-- the core's buffer contents when the first launch is entered
variable (V : (c : Dev nD) → (b : Ref sig .tc) → Buf (Elt F) ((c : Thread nD τ).loc b))

/-! # The projection launch: q, k, v = x·Wq, x·Wk, x·Wv, one batch row per grid point -/

/-! ## The windows' blocks -/

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: unfetched, the block index has not moved. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: unfetched, the block index has not moved. -/
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole x block, the whole weight, the whole result block. -/
abbrev r0_0 : Rect S1x2048x1024 := Rect.unit (s := S1x2048x1024) ![0, 0, 0] S1x2048x1024.size inb_S1x2048x1024_S1x2048x1024_0_0_0
abbrev r0_1 : Rect S1024x64 := Rect.unit (s := S1024x64) ![0, 0] S1024x64.size inb_S1024x64_S1024x64_0_0
abbrev r0_2 : Rect S1x2048x64 := Rect.unit (s := S1x2048x64) ![0, 0, 0] S1x2048x64.size inb_S1x2048x64_S1x2048x64_0_0_0

/-! ## What the body leaves in each output window's buffer -/

/-- The q block after the body: the one store of x·Wq over the whole buffer. -/
def out0_4 (x0 : Vec F S1x2048x1024 .f32) (x1 : Vec F S1024x64 .f32) : Vec F S1x2048x64 .f32 :=
  View.canon [⟨r0_2, k0_pay2 (View.ld x0 r0_0) (View.ld x1 r0_1)⟩]
/-- The k block after the body: the one store of x·Wk over the whole buffer. -/
def out0_5 (x0 : Vec F S1x2048x1024 .f32) (x2 : Vec F S1024x64 .f32) : Vec F S1x2048x64 .f32 :=
  View.canon [⟨r0_2, k0_pay3 (View.ld x0 r0_0) (View.ld x2 r0_1)⟩]
/-- The v block after the body: the one store of x·Wv over the whole buffer. -/
def out0_6 (x0 : Vec F S1x2048x1024 .f32) (x3 : Vec F S1024x64 .f32) : Vec F S1x2048x64 .f32 :=
  View.canon [⟨r0_2, k0_pay4 (View.ld x0 r0_0) (View.ld x3 r0_1)⟩]

/-- A single whole-buffer store covers the buffer. -/
theorem cover0_4 (p0 : Vec F S1x2048x64 .f32) (y : S1x2048x64.Idx) :
    ∃ pc ∈ ([⟨r0_2, p0⟩] : List (View.Piece (Elt F) S1x2048x64 .f32)), y ∈ pc.1.set :=
  View.cover_of_tiled [⟨r0_2, p0⟩] S1x2048x64.size (by rfl) y

/-! ## The body's triple -/

set_option maxHeartbeats 4000000 in
/-- The body on whole staging memrefs, the four inputs' at contents `x0..x3` and the three outputs' at anything, runs to
    the continuation holding the inputs' as they were and each output's at its product. -/
theorem sound_kernel0 (c : Dev nD) (E : Set ℕ) (i : grid0.Coords)
    (arg2 : Memref sig .tc .vmem S1x2048x1024 .f32) (harg2 : arg2.IsWhole) (arg3 : Memref sig .tc .vmem S1024x64 .f32) (harg3 : arg3.IsWhole)
    (arg4 : Memref sig .tc .vmem S1024x64 .f32) (harg4 : arg4.IsWhole) (arg5 : Memref sig .tc .vmem S1024x64 .f32) (harg5 : arg5.IsWhole)
    (arg6 : Memref sig .tc .vmem S1x2048x64 .f32) (harg6 : arg6.IsWhole) (arg7 : Memref sig .tc .vmem S1x2048x64 .f32) (harg7 : arg7.IsWhole)
    (arg8 : Memref sig .tc .vmem S1x2048x64 .f32) (harg8 : arg8.IsWhole)
    (x0 : Vec F S1x2048x1024 .f32) (x1 : Vec F S1024x64 .f32) (x2 : Vec F S1024x64 .f32) (x3 : Vec F S1024x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3
            ∗ owns (c : Thread nD τ) arg6 fullShare (out0_4 x0 x1) ∗ owns (c : Thread nD τ) arg7 fullShare (out0_5 x0 x2)
            ∗ owns (c : Thread nD τ) arg8 fullShare (out0_6 x0 x3)) -∗ K ⟨⟩))
      ⊢ wp frame (wpE (defs₀ (F := F)) Variants.none c none) E (cc0__proj_kernel i arg2 harg2 arg3 harg3 arg4 harg4 arg5 harg5 arg6 harg6 arg7 harg7 arg8 harg8) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_4 _)
  iexists _; isplitr
  swap; · iexact H6
  ipureintro
  exact View.read_writes_eq_canon _ _ _ (cover0_4 _)

/-! ## The pipeline's proof data -/

/-- The proof data of the projection pipeline on core `c`: the arrays as the launch finds them; after the body at
    point `t` each input's buffer at its block and each output's at its product of the input blocks; the scoped
    rest and the generator register untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

/-- The proof data's arrays are the launch-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body's triple at every grid point, the seven windows conjoined one by one: what the pipeline asks of the body. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.IdealRegion1Defs.lean ====
/-
  The attention launch on the grid (batch, query chunk): each window's block at a point, the staging memrefs the body is called with, the three carried buffers (weighted sum, running row maximum, normaliser), and the statement of the body's triple for a list of stored pieces.
-/
import proofs.«154606_j45561013076111_2_alg».proof.Proof.Gen.KernelIdeal.Launch
import proofs.«154606_j45561013076111_2_alg».proof.Proof.Gen.KernelIdeal.Skeleton
import proofs.«154606_j45561013076111_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

section Region1
-- the buffer contents of the core when the region is entered
variable (V : (c : Dev nD) → (b : Ref sig .tc) → Buf (Elt F) ((c : Thread nD τ).loc b))

/-! # Region 1: the attention kernel on the grid (batch, query chunk) -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the query chunk) holds its block at every point. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (all keys of the batch) holds its block at every point: where it is not fetched the batch index
    has not moved, so the block of the point before is this point's. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (all values of the batch), likewise. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-- One staging buffer of the output window, through which its contents are stated (the choice does not matter). -/
abbrev VO1_3 : View sig .tc .vmem S1x512x64 .f32 := (Memref.whole cc1_stg3_0 : Memref sig .tc .vmem S1x512x64 .f32).view

/-- Each window's current staging memref at point `t`, as the pipeline passes it, and its wholeness. -/
abbrev ms1_0 (t : Fin cfg1.N) : Memref sig .tc .vmem S1x512x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x64 .f32 := win1_3.stage (cfg1.slots t 3)
abbrev hs1_3 (t : Fin cfg1.N) : (ms1_3 t).IsWhole := hstage1_3 ((cfg1.slots t 3).cast nbuf1_3)

/-- The scratch operands: the accumulator, the running row maximum and the running row sum. -/
abbrev scM1_0 : Memref sig .tc .vmem S512x64 .f32 := Memref.whole cc1_scratch0
abbrev scM1_1 : Memref sig .tc .vmem S512x1 .f32 := Memref.whole cc1_scratch1
abbrev scM1_2 : Memref sig .tc .vmem S512x1 .f32 := Memref.whole cc1_scratch2

/-- The body's triple for a list of pieces `L1`: on whole memrefs, the query chunk at `x0`, the keys at `x1`, the values
    at `x2`, the output and the three scratch buffers at anything, the body runs to the continuation holding the inputs
    as they were, the scratch at some contents, and the output's buffer with the pieces `L1` written. -/
def Run1Spec (c : Dev nD) (i : grid1.Coords) (arg2 : Memref sig .tc .vmem S1x512x64 .f32) (harg2 : arg2.IsWhole)
    (arg3 : Memref sig .tc .vmem S1x2048x64 .f32) (harg3 : arg3.IsWhole) (arg4 : Memref sig .tc .vmem S1x2048x64 .f32) (harg4 : arg4.IsWhole)
    (arg5 : Memref sig .tc .vmem S1x512x64 .f32) (harg5 : arg5.IsWhole)
    (x0 : Vec F S1x512x64 .f32) (x1 x2 : Vec F S1x2048x64 .f32) (L1 : List (View.Piece (Elt F) S1x512x64 .f32)) : Prop :=
  ∀ (K : PUnit → sProp 𝕄),
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (∃ d, owns (c : Thread nD τ) scM1_0 fullShare d) ∗ (∃ d, owns (c : Thread nD τ) scM1_1 fullShare d) ∗ (∃ d, owns (c : Thread nD τ) scM1_2 fullShare d)
        ∗ (iprop(owns (c : Thread nD τ) arg2 fullShare x0 ∗ owns (c : Thread nD τ) arg3 fullShare x1 ∗ owns (c : Thread nD τ) arg4 fullShare x2
            ∗ (∃ f, arg5.view.loc (c : Thread nD τ) ↦[arg5.view.set]{fullShare} arg5.view.writes (Elt F) f L1)
            ∗ (∃ d, owns (c : Thread nD τ) scM1_0 fullShare d) ∗ (∃ d, owns (c : Thread nD τ) scM1_1 fullShare d) ∗ (∃ d, owns (c : Thread nD τ) scM1_2 fullShare d)) -∗ K ⟨⟩))
      ⊢ wp frame (wpE (defs₀ (F := F)) Variants.none c none) Set.univ
          (cc1__attn_kernel i arg2 harg2 arg3 harg3 arg4 harg4 arg5 harg5 (Memref.whole cc1_scratch0) (Memref.isWhole_whole _) (Memref.whole cc1_scratch1) (Memref.isWhole_whole _) (Memref.whole cc1_scratch2) (Memref.isWhole_whole _)) K

end Cert.KernelIdeal.Hand

end
-- ==== Proof.IdealRegion1Run0.lean ====
/-
  The attention body at a point whose query chunk is number 0: key chunk 0 is visited, the later ones skipped; the pieces its stores leave in the output block and the body's triple for them.
-/
import proofs.«154606_j45561013076111_2_alg».proof.Proof.IdealRegion1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! # The attention body at a point whose query chunk is number 0: key chunks 0..0 are visited -/

set_option maxHeartbeats 1000000 in
/-- What the body's stores leave in the output's staging memref, as pieces, when the query-chunk coordinate is 0, with
    the proof that on whole memrefs — the query chunk at `x0`, the keys at `x1`, the values at `x2`, the output and the
    three scratch buffers at anything — the body runs to the continuation holding the inputs as they were, the scratch
    at some contents and the output's buffer with those pieces written. The key chunks `ci ≤ 0` are visited, the
    others skipped: each condition compares the coordinate with a literal. -/
noncomputable def kernelRun1_q0 (c : Dev nD) (i : grid1.Coords) (hi : (i 1).val = 0)
    (arg2 : Memref sig .tc .vmem S1x512x64 .f32) (harg2 : arg2.IsWhole)
    (arg3 : Memref sig .tc .vmem S1x2048x64 .f32) (harg3 : arg3.IsWhole) (arg4 : Memref sig .tc .vmem S1x2048x64 .f32) (harg4 : arg4.IsWhole)
    (arg5 : Memref sig .tc .vmem S1x512x64 .f32) (harg5 : arg5.IsWhole)
    (x0 : Vec F S1x512x64 .f32) (x1 x2 : Vec F S1x2048x64 .f32) :
    { L1 : List (View.Piece (Elt F) S1x512x64 .f32) // Run1Spec c i arg2 harg2 arg3 harg3 arg4 harg4 arg5 harg5 x0 x1 x2 L1 } := by
  have hc0 : (Scalar.cmpi .ne (Scalar.extui (Scalar.cmpi .sge (BitVec.ofNat 32 (i 1).val) 0#32)) 0#32) = 1#1 := by rw [hi]; decide
  have hc1 : ¬ (Scalar.cmpi .ne (Scalar.extui (Scalar.cmpi .sge (BitVec.ofNat 32 (i 1).val) 1#32)) 0#32) = 1#1 := by rw [hi]; decide
  have hc2 : ¬ (Scalar.cmpi .ne (Scalar.extui (Scalar.cmpi .sge (BitVec.ofNat 32 (i 1).val) 2#32)) 0#32) = 1#1 := by rw [hi]; decide
  have hc3 : ¬ (Scalar.cmpi .ne (Scalar.extui (Scalar.cmpi .sge (BitVec.ofNat 32 (i 1).val) 3#32)) 0#32) = 1#1 := by rw [hi]; decide
  refine ⟨?_, ?run⟩
  case run =>
    unfold Run1Spec
    intro K
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

/-- The pieces tile the output block (one store of the whole block), so they cover it. -/
theorem cover1_q0 (c : Dev nD) (i : grid1.Coords) (hi : (i 1).val = 0)
    (arg2 : Memref sig .tc .vmem S1x512x64 .f32) (harg2 : arg2.IsWhole)
    (arg3 : Memref sig .tc .vmem S1x2048x64 .f32) (harg3 : arg3.IsWhole) (arg4 : Memref sig .tc .vmem S1x2048x64 .f32) (harg4 : arg4.IsWhole)
    (arg5 : Memref sig .tc .vmem S1x512x64 .f32) (harg5 : arg5.IsWhole)
    (x0 : Vec F S1x512x64 .f32) (x1 x2 : Vec F S1x2048x64 .f32) (y : S1x512x64.Idx) :
    ∃ pc ∈ (kernelRun1_q0 c i hi arg2 harg2 arg3 harg3 arg4 harg4 arg5 harg5 x0 x1 x2).1, y ∈ pc.1.set :=
  View.cover_of_tiledL (kernelRun1_q0 c i hi arg2 harg2 arg3 harg3 arg4 harg4 arg5 harg5 x0 x1 x2).1 S1x512x64.size (by sl_kernel_rfl) y

end Cert.KernelIdeal.Hand

end
-- ==== Proof.IdealRegion1Run1.lean ====
/-
  The attention body at a point whose query chunk is number 1: key chunks 0 and 1 are visited, the later ones skipped; the pieces its stores leave in the output block and the body's triple for them.
-/
import proofs.«154606_j45561013076111_2_alg».proof.Proof.IdealRegion1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! # The attention body at a point whose query chunk is number 1: key chunks 0..1 are visited -/

set_option maxHeartbeats 1000000 in
/-- What the body's stores leave in the output's staging memref, as pieces, when the query-chunk coordinate is 1, with
    the proof that on whole memrefs — the query chunk at `x0`, the keys at `x1`, the values at `x2`, the output and the
    three scratch buffers at anything — the body runs to the continuation holding the inputs as they were, the scratch
    at some contents and the output's buffer with those pieces written. The key chunks `ci ≤ 1` are visited, the
    others skipped: each condition compares the coordinate with a literal. -/
noncomputable def kernelRun1_q1 (c : Dev nD) (i : grid1.Coords) (hi : (i 1).val = 1)
    (arg2 : Memref sig .tc .vmem S1x512x64 .f32) (harg2 : arg2.IsWhole)
    (arg3 : Memref sig .tc .vmem S1x2048x64 .f32) (harg3 : arg3.IsWhole) (arg4 : Memref sig .tc .vmem S1x2048x64 .f32) (harg4 : arg4.IsWhole)
    (arg5 : Memref sig .tc .vmem S1x512x64 .f32) (harg5 : arg5.IsWhole)
    (x0 : Vec F S1x512x64 .f32) (x1 x2 : Vec F S1x2048x64 .f32) :
    { L1 : List (View.Piece (Elt F) S1x512x64 .f32) // Run1Spec c i arg2 harg2 arg3 harg3 arg4 harg4 arg5 harg5 x0 x1 x2 L1 } := by
  have hc0 : (Scalar.cmpi .ne (Scalar.extui (Scalar.cmpi .sge (BitVec.ofNat 32 (i 1).val) 0#32)) 0#32) = 1#1 := by rw [hi]; decide
  have hc1 : (Scalar.cmpi .ne (Scalar.extui (Scalar.cmpi .sge (BitVec.ofNat 32 (i 1).val) 1#32)) 0#32) = 1#1 := by rw [hi]; decide
  have hc2 : ¬ (Scalar.cmpi .ne (Scalar.extui (Scalar.cmpi .sge (BitVec.ofNat 32 (i 1).val) 2#32)) 0#32) = 1#1 := by rw [hi]; decide
  have hc3 : ¬ (Scalar.cmpi .ne (Scalar.extui (Scalar.cmpi .sge (BitVec.ofNat 32 (i 1).val) 3#32)) 0#32) = 1#1 := by rw [hi]; decide
  refine ⟨?_, ?run⟩
  case run =>
    unfold Run1Spec
    intro K
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

/-- The pieces tile the output block (one store of the whole block), so they cover it. -/
theorem cover1_q1 (c : Dev nD) (i : grid1.Coords) (hi : (i 1).val = 1)
    (arg2 : Memref sig .tc .vmem S1x512x64 .f32) (harg2 : arg2.IsWhole)
    (arg3 : Memref sig .tc .vmem S1x2048x64 .f32) (harg3 : arg3.IsWhole) (arg4 : Memref sig .tc .vmem S1x2048x64 .f32) (harg4 : arg4.IsWhole)
    (arg5 : Memref sig .tc .vmem S1x512x64 .f32) (harg5 : arg5.IsWhole)
    (x0 : Vec F S1x512x64 .f32) (x1 x2 : Vec F S1x2048x64 .f32) (y : S1x512x64.Idx) :
    ∃ pc ∈ (kernelRun1_q1 c i hi arg2 harg2 arg3 harg3 arg4 harg4 arg5 harg5 x0 x1 x2).1, y ∈ pc.1.set :=
  View.cover_of_tiledL (kernelRun1_q1 c i hi arg2 harg2 arg3 harg3 arg4 harg4 arg5 harg5 x0 x1 x2).1 S1x512x64.size (by sl_kernel_rfl) y

end Cert.KernelIdeal.Hand

end
-- ==== Proof.IdealRegion1Run2.lean ====
/-
  The attention body at a point whose query chunk is number 2: key chunks 0, 1 and 2 are visited, the last one skipped; the pieces its stores leave in the output block and the body's triple for them.
-/
import proofs.«154606_j45561013076111_2_alg».proof.Proof.IdealRegion1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! # The attention body at a point whose query chunk is number 2: key chunks 0..2 are visited -/

set_option maxHeartbeats 1000000 in
/-- What the body's stores leave in the output's staging memref, as pieces, when the query-chunk coordinate is 2, with
    the proof that on whole memrefs — the query chunk at `x0`, the keys at `x1`, the values at `x2`, the output and the
    three scratch buffers at anything — the body runs to the continuation holding the inputs as they were, the scratch
    at some contents and the output's buffer with those pieces written. The key chunks `ci ≤ 2` are visited, the
    others skipped: each condition compares the coordinate with a literal. -/
noncomputable def kernelRun1_q2 (c : Dev nD) (i : grid1.Coords) (hi : (i 1).val = 2)
    (arg2 : Memref sig .tc .vmem S1x512x64 .f32) (harg2 : arg2.IsWhole)
    (arg3 : Memref sig .tc .vmem S1x2048x64 .f32) (harg3 : arg3.IsWhole) (arg4 : Memref sig .tc .vmem S1x2048x64 .f32) (harg4 : arg4.IsWhole)
    (arg5 : Memref sig .tc .vmem S1x512x64 .f32) (harg5 : arg5.IsWhole)
    (x0 : Vec F S1x512x64 .f32) (x1 x2 : Vec F S1x2048x64 .f32) :
    { L1 : List (View.Piece (Elt F) S1x512x64 .f32) // Run1Spec c i arg2 harg2 arg3 harg3 arg4 harg4 arg5 harg5 x0 x1 x2 L1 } := by
  have hc0 : (Scalar.cmpi .ne (Scalar.extui (Scalar.cmpi .sge (BitVec.ofNat 32 (i 1).val) 0#32)) 0#32) = 1#1 := by rw [hi]; decide
  have hc1 : (Scalar.cmpi .ne (Scalar.extui (Scalar.cmpi .sge (BitVec.ofNat 32 (i 1).val) 1#32)) 0#32) = 1#1 := by rw [hi]; decide
  have hc2 : (Scalar.cmpi .ne (Scalar.extui (Scalar.cmpi .sge (BitVec.ofNat 32 (i 1).val) 2#32)) 0#32) = 1#1 := by rw [hi]; decide
  have hc3 : ¬ (Scalar.cmpi .ne (Scalar.extui (Scalar.cmpi .sge (BitVec.ofNat 32 (i 1).val) 3#32)) 0#32) = 1#1 := by rw [hi]; decide
  refine ⟨?_, ?run⟩
  case run =>
    unfold Run1Spec
    intro K
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

/-- The pieces tile the output block (one store of the whole block), so they cover it. -/
theorem cover1_q2 (c : Dev nD) (i : grid1.Coords) (hi : (i 1).val = 2)
    (arg2 : Memref sig .tc .vmem S1x512x64 .f32) (harg2 : arg2.IsWhole)
    (arg3 : Memref sig .tc .vmem S1x2048x64 .f32) (harg3 : arg3.IsWhole) (arg4 : Memref sig .tc .vmem S1x2048x64 .f32) (harg4 : arg4.IsWhole)
    (arg5 : Memref sig .tc .vmem S1x512x64 .f32) (harg5 : arg5.IsWhole)
    (x0 : Vec F S1x512x64 .f32) (x1 x2 : Vec F S1x2048x64 .f32) (y : S1x512x64.Idx) :
    ∃ pc ∈ (kernelRun1_q2 c i hi arg2 harg2 arg3 harg3 arg4 harg4 arg5 harg5 x0 x1 x2).1, y ∈ pc.1.set :=
  View.cover_of_tiledL (kernelRun1_q2 c i hi arg2 harg2 arg3 harg3 arg4 harg4 arg5 harg5 x0 x1 x2).1 S1x512x64.size (by sl_kernel_rfl) y

end Cert.KernelIdeal.Hand

end
-- ==== Proof.IdealRegion1Run3.lean ====
/-
  The attention body at a point whose query chunk is number 3: all four key chunks are visited; the pieces its stores leave in the output block and the body's triple for them.
-/
import proofs.«154606_j45561013076111_2_alg».proof.Proof.IdealRegion1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! # The attention body at a point whose query chunk is number 3: key chunks 0..3 are visited -/

set_option maxHeartbeats 1000000 in
/-- What the body's stores leave in the output's staging memref, as pieces, when the query-chunk coordinate is 3, with
    the proof that on whole memrefs — the query chunk at `x0`, the keys at `x1`, the values at `x2`, the output and the
    three scratch buffers at anything — the body runs to the continuation holding the inputs as they were, the scratch
    at some contents and the output's buffer with those pieces written. The key chunks `ci ≤ 3` are visited, the
    others skipped: each condition compares the coordinate with a literal. -/
noncomputable def kernelRun1_q3 (c : Dev nD) (i : grid1.Coords) (hi : (i 1).val = 3)
    (arg2 : Memref sig .tc .vmem S1x512x64 .f32) (harg2 : arg2.IsWhole)
    (arg3 : Memref sig .tc .vmem S1x2048x64 .f32) (harg3 : arg3.IsWhole) (arg4 : Memref sig .tc .vmem S1x2048x64 .f32) (harg4 : arg4.IsWhole)
    (arg5 : Memref sig .tc .vmem S1x512x64 .f32) (harg5 : arg5.IsWhole)
    (x0 : Vec F S1x512x64 .f32) (x1 x2 : Vec F S1x2048x64 .f32) :
    { L1 : List (View.Piece (Elt F) S1x512x64 .f32) // Run1Spec c i arg2 harg2 arg3 harg3 arg4 harg4 arg5 harg5 x0 x1 x2 L1 } := by
  have hc0 : (Scalar.cmpi .ne (Scalar.extui (Scalar.cmpi .sge (BitVec.ofNat 32 (i 1).val) 0#32)) 0#32) = 1#1 := by rw [hi]; decide
  have hc1 : (Scalar.cmpi .ne (Scalar.extui (Scalar.cmpi .sge (BitVec.ofNat 32 (i 1).val) 1#32)) 0#32) = 1#1 := by rw [hi]; decide
  have hc2 : (Scalar.cmpi .ne (Scalar.extui (Scalar.cmpi .sge (BitVec.ofNat 32 (i 1).val) 2#32)) 0#32) = 1#1 := by rw [hi]; decide
  have hc3 : (Scalar.cmpi .ne (Scalar.extui (Scalar.cmpi .sge (BitVec.ofNat 32 (i 1).val) 3#32)) 0#32) = 1#1 := by rw [hi]; decide
  refine ⟨?_, ?run⟩
  case run =>
    unfold Run1Spec
    intro K
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | exact hc0 | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

/-- The pieces tile the output block (one store of the whole block), so they cover it. -/
theorem cover1_q3 (c : Dev nD) (i : grid1.Coords) (hi : (i 1).val = 3)
    (arg2 : Memref sig .tc .vmem S1x512x64 .f32) (harg2 : arg2.IsWhole)
    (arg3 : Memref sig .tc .vmem S1x2048x64 .f32) (harg3 : arg3.IsWhole) (arg4 : Memref sig .tc .vmem S1x2048x64 .f32) (harg4 : arg4.IsWhole)
    (arg5 : Memref sig .tc .vmem S1x512x64 .f32) (harg5 : arg5.IsWhole)
    (x0 : Vec F S1x512x64 .f32) (x1 x2 : Vec F S1x2048x64 .f32) (y : S1x512x64.Idx) :
    ∃ pc ∈ (kernelRun1_q3 c i hi arg2 harg2 arg3 harg3 arg4 harg4 arg5 harg5 x0 x1 x2).1, y ∈ pc.1.set :=
  View.cover_of_tiledL (kernelRun1_q3 c i hi arg2 harg2 arg3 harg3 arg4 harg4 arg5 harg5 x0 x1 x2).1 S1x512x64.size (by sl_kernel_rfl) y

end Cert.KernelIdeal.Hand

end
-- ==== Proof.IdealRegion1.lean ====
/-
  The attention launch: what the body leaves in the output block, by query chunk; the pipeline's proof data; its obligation at every point.
-/
import proofs.«154606_j45561013076111_2_alg».proof.Proof.Gen.KernelIdeal.Launch
import proofs.«154606_j45561013076111_2_alg».proof.Proof.Gen.KernelIdeal.Skeleton
import proofs.«154606_j45561013076111_2_alg».proof.Proof.Gen.KernelIdeal.Points
import proofs.«154606_j45561013076111_2_alg».proof.Proof.IdealRegion1Defs
import proofs.«154606_j45561013076111_2_alg».proof.Proof.IdealRegion1Run0
import proofs.«154606_j45561013076111_2_alg».proof.Proof.IdealRegion1Run1
import proofs.«154606_j45561013076111_2_alg».proof.Proof.IdealRegion1Run2
import proofs.«154606_j45561013076111_2_alg».proof.Proof.IdealRegion1Run3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! # Region 1: the body at each query chunk, the proof data, the body obligation -/

/-- What the run leaves in the output's staging buffer when the query chunk is chunk 0: its pieces read back over junk. -/
def out1_q0 (c : Dev nD) (i : grid1.Coords) (hi : (i 1).val = 0) (arg2 : Memref sig .tc .vmem S1x512x64 .f32) (harg2 : arg2.IsWhole)
    (arg3 : Memref sig .tc .vmem S1x2048x64 .f32) (harg3 : arg3.IsWhole) (arg4 : Memref sig .tc .vmem S1x2048x64 .f32) (harg4 : arg4.IsWhole)
    (arg5 : Memref sig .tc .vmem S1x512x64 .f32) (harg5 : arg5.IsWhole)
    (x0 : Vec F S1x512x64 .f32) (x1 x2 : Vec F S1x2048x64 .f32) : Vec F S1x512x64 .f32 :=
  VO1_3.read (Elt F) (VO1_3.writes (Elt F) VO1_3.junk (kernelRun1_q0 c i hi arg2 harg2 arg3 harg3 arg4 harg4 arg5 harg5 x0 x1 x2).1)

/-- What the run leaves in the output's staging buffer when the query chunk is chunk 1: its pieces read back over junk. -/
def out1_q1 (c : Dev nD) (i : grid1.Coords) (hi : (i 1).val = 1) (arg2 : Memref sig .tc .vmem S1x512x64 .f32) (harg2 : arg2.IsWhole)
    (arg3 : Memref sig .tc .vmem S1x2048x64 .f32) (harg3 : arg3.IsWhole) (arg4 : Memref sig .tc .vmem S1x2048x64 .f32) (harg4 : arg4.IsWhole)
    (arg5 : Memref sig .tc .vmem S1x512x64 .f32) (harg5 : arg5.IsWhole)
    (x0 : Vec F S1x512x64 .f32) (x1 x2 : Vec F S1x2048x64 .f32) : Vec F S1x512x64 .f32 :=
  VO1_3.read (Elt F) (VO1_3.writes (Elt F) VO1_3.junk (kernelRun1_q1 c i hi arg2 harg2 arg3 harg3 arg4 harg4 arg5 harg5 x0 x1 x2).1)

/-- What the run leaves in the output's staging buffer when the query chunk is chunk 2: its pieces read back over junk. -/
def out1_q2 (c : Dev nD) (i : grid1.Coords) (hi : (i 1).val = 2) (arg2 : Memref sig .tc .vmem S1x512x64 .f32) (harg2 : arg2.IsWhole)
    (arg3 : Memref sig .tc .vmem S1x2048x64 .f32) (harg3 : arg3.IsWhole) (arg4 : Memref sig .tc .vmem S1x2048x64 .f32) (harg4 : arg4.IsWhole)
    (arg5 : Memref sig .tc .vmem S1x512x64 .f32) (harg5 : arg5.IsWhole)
    (x0 : Vec F S1x512x64 .f32) (x1 x2 : Vec F S1x2048x64 .f32) : Vec F S1x512x64 .f32 :=
  VO1_3.read (Elt F) (VO1_3.writes (Elt F) VO1_3.junk (kernelRun1_q2 c i hi arg2 harg2 arg3 harg3 arg4 harg4 arg5 harg5 x0 x1 x2).1)

/-- What the run leaves in the output's staging buffer when the query chunk is chunk 3: its pieces read back over junk. -/
def out1_q3 (c : Dev nD) (i : grid1.Coords) (hi : (i 1).val = 3) (arg2 : Memref sig .tc .vmem S1x512x64 .f32) (harg2 : arg2.IsWhole)
    (arg3 : Memref sig .tc .vmem S1x2048x64 .f32) (harg3 : arg3.IsWhole) (arg4 : Memref sig .tc .vmem S1x2048x64 .f32) (harg4 : arg4.IsWhole)
    (arg5 : Memref sig .tc .vmem S1x512x64 .f32) (harg5 : arg5.IsWhole)
    (x0 : Vec F S1x512x64 .f32) (x1 x2 : Vec F S1x2048x64 .f32) : Vec F S1x512x64 .f32 :=
  VO1_3.read (Elt F) (VO1_3.writes (Elt F) VO1_3.junk (kernelRun1_q3 c i hi arg2 harg2 arg3 harg3 arg4 harg4 arg5 harg5 x0 x1 x2).1)

/-- The run's contents at chunk 0 are its pieces laid over one another. -/
theorem out1_q0_eq_canon (c : Dev nD) (i : grid1.Coords) (hi : (i 1).val = 0) (arg2 : Memref sig .tc .vmem S1x512x64 .f32) (harg2 : arg2.IsWhole)
    (arg3 : Memref sig .tc .vmem S1x2048x64 .f32) (harg3 : arg3.IsWhole) (arg4 : Memref sig .tc .vmem S1x2048x64 .f32) (harg4 : arg4.IsWhole)
    (arg5 : Memref sig .tc .vmem S1x512x64 .f32) (harg5 : arg5.IsWhole)
    (x0 : Vec F S1x512x64 .f32) (x1 x2 : Vec F S1x2048x64 .f32) :
    out1_q0 c i hi arg2 harg2 arg3 harg3 arg4 harg4 arg5 harg5 x0 x1 x2 = View.canon (kernelRun1_q0 c i hi arg2 harg2 arg3 harg3 arg4 harg4 arg5 harg5 x0 x1 x2).1 :=
  View.read_writes_eq_canon _ _ _ (cover1_q0 c i hi arg2 harg2 arg3 harg3 arg4 harg4 arg5 harg5 x0 x1 x2)

/-- The run's contents at chunk 1 are its pieces laid over one another. -/
theorem out1_q1_eq_canon (c : Dev nD) (i : grid1.Coords) (hi : (i 1).val = 1) (arg2 : Memref sig .tc .vmem S1x512x64 .f32) (harg2 : arg2.IsWhole)
    (arg3 : Memref sig .tc .vmem S1x2048x64 .f32) (harg3 : arg3.IsWhole) (arg4 : Memref sig .tc .vmem S1x2048x64 .f32) (harg4 : arg4.IsWhole)
    (arg5 : Memref sig .tc .vmem S1x512x64 .f32) (harg5 : arg5.IsWhole)
    (x0 : Vec F S1x512x64 .f32) (x1 x2 : Vec F S1x2048x64 .f32) :
    out1_q1 c i hi arg2 harg2 arg3 harg3 arg4 harg4 arg5 harg5 x0 x1 x2 = View.canon (kernelRun1_q1 c i hi arg2 harg2 arg3 harg3 arg4 harg4 arg5 harg5 x0 x1 x2).1 :=
  View.read_writes_eq_canon _ _ _ (cover1_q1 c i hi arg2 harg2 arg3 harg3 arg4 harg4 arg5 harg5 x0 x1 x2)

/-- The run's contents at chunk 2 are its pieces laid over one another. -/
theorem out1_q2_eq_canon (c : Dev nD) (i : grid1.Coords) (hi : (i 1).val = 2) (arg2 : Memref sig .tc .vmem S1x512x64 .f32) (harg2 : arg2.IsWhole)
    (arg3 : Memref sig .tc .vmem S1x2048x64 .f32) (harg3 : arg3.IsWhole) (arg4 : Memref sig .tc .vmem S1x2048x64 .f32) (harg4 : arg4.IsWhole)
    (arg5 : Memref sig .tc .vmem S1x512x64 .f32) (harg5 : arg5.IsWhole)
    (x0 : Vec F S1x512x64 .f32) (x1 x2 : Vec F S1x2048x64 .f32) :
    out1_q2 c i hi arg2 harg2 arg3 harg3 arg4 harg4 arg5 harg5 x0 x1 x2 = View.canon (kernelRun1_q2 c i hi arg2 harg2 arg3 harg3 arg4 harg4 arg5 harg5 x0 x1 x2).1 :=
  View.read_writes_eq_canon _ _ _ (cover1_q2 c i hi arg2 harg2 arg3 harg3 arg4 harg4 arg5 harg5 x0 x1 x2)

/-- The run's contents at chunk 3 are its pieces laid over one another. -/
theorem out1_q3_eq_canon (c : Dev nD) (i : grid1.Coords) (hi : (i 1).val = 3) (arg2 : Memref sig .tc .vmem S1x512x64 .f32) (harg2 : arg2.IsWhole)
    (arg3 : Memref sig .tc .vmem S1x2048x64 .f32) (harg3 : arg3.IsWhole) (arg4 : Memref sig .tc .vmem S1x2048x64 .f32) (harg4 : arg4.IsWhole)
    (arg5 : Memref sig .tc .vmem S1x512x64 .f32) (harg5 : arg5.IsWhole)
    (x0 : Vec F S1x512x64 .f32) (x1 x2 : Vec F S1x2048x64 .f32) :
    out1_q3 c i hi arg2 harg2 arg3 harg3 arg4 harg4 arg5 harg5 x0 x1 x2 = View.canon (kernelRun1_q3 c i hi arg2 harg2 arg3 harg3 arg4 harg4 arg5 harg5 x0 x1 x2).1 :=
  View.read_writes_eq_canon _ _ _ (cover1_q3 c i hi arg2 harg2 arg3 harg3 arg4 harg4 arg5 harg5 x0 x1 x2)

/-- The second grid coordinate (the query chunk) is below 4. -/
theorem qi_lt (i : grid1.Coords) : (i 1).val < 4 := (i 1).isLt

/-- The last case: a query chunk that is none of 0, 1, 2 is chunk 3. -/
theorem qi_eq3 (i : grid1.Coords) (h0 : ¬ (i 1).val = 0) (h1 : ¬ (i 1).val = 1) (h2 : ¬ (i 1).val = 2) : (i 1).val = 3 := by
  have := qi_lt i; omega

/-- What the run leaves in the output's staging buffer, by the query chunk. -/
def out1 (c : Dev nD) (i : grid1.Coords) (arg2 : Memref sig .tc .vmem S1x512x64 .f32) (harg2 : arg2.IsWhole)
    (arg3 : Memref sig .tc .vmem S1x2048x64 .f32) (harg3 : arg3.IsWhole) (arg4 : Memref sig .tc .vmem S1x2048x64 .f32) (harg4 : arg4.IsWhole)
    (arg5 : Memref sig .tc .vmem S1x512x64 .f32) (harg5 : arg5.IsWhole)
    (x0 : Vec F S1x512x64 .f32) (x1 x2 : Vec F S1x2048x64 .f32) : Vec F S1x512x64 .f32 :=
  if h0 : (i 1).val = 0 then out1_q0 c i h0 arg2 harg2 arg3 harg3 arg4 harg4 arg5 harg5 x0 x1 x2
  else if h1 : (i 1).val = 1 then out1_q1 c i h1 arg2 harg2 arg3 harg3 arg4 harg4 arg5 harg5 x0 x1 x2
  else if h2 : (i 1).val = 2 then out1_q2 c i h2 arg2 harg2 arg3 harg3 arg4 harg4 arg5 harg5 x0 x1 x2
  else out1_q3 c i (qi_eq3 i h0 h1 h2) arg2 harg2 arg3 harg3 arg4 harg4 arg5 harg5 x0 x1 x2

theorem out1_eq_q0 (c : Dev nD) (i : grid1.Coords) (hi : (i 1).val = 0) (arg2 : Memref sig .tc .vmem S1x512x64 .f32) (harg2 : arg2.IsWhole)
    (arg3 : Memref sig .tc .vmem S1x2048x64 .f32) (harg3 : arg3.IsWhole) (arg4 : Memref sig .tc .vmem S1x2048x64 .f32) (harg4 : arg4.IsWhole)
    (arg5 : Memref sig .tc .vmem S1x512x64 .f32) (harg5 : arg5.IsWhole)
    (x0 : Vec F S1x512x64 .f32) (x1 x2 : Vec F S1x2048x64 .f32) :
    out1 c i arg2 harg2 arg3 harg3 arg4 harg4 arg5 harg5 x0 x1 x2 = out1_q0 c i hi arg2 harg2 arg3 harg3 arg4 harg4 arg5 harg5 x0 x1 x2 := by
  unfold out1; rw [dif_pos hi]
theorem out1_eq_q1 (c : Dev nD) (i : grid1.Coords) (hi : (i 1).val = 1) (arg2 : Memref sig .tc .vmem S1x512x64 .f32) (harg2 : arg2.IsWhole)
    (arg3 : Memref sig .tc .vmem S1x2048x64 .f32) (harg3 : arg3.IsWhole) (arg4 : Memref sig .tc .vmem S1x2048x64 .f32) (harg4 : arg4.IsWhole)
    (arg5 : Memref sig .tc .vmem S1x512x64 .f32) (harg5 : arg5.IsWhole)
    (x0 : Vec F S1x512x64 .f32) (x1 x2 : Vec F S1x2048x64 .f32) :
    out1 c i arg2 harg2 arg3 harg3 arg4 harg4 arg5 harg5 x0 x1 x2 = out1_q1 c i hi arg2 harg2 arg3 harg3 arg4 harg4 arg5 harg5 x0 x1 x2 := by
  unfold out1; rw [dif_neg (by omega), dif_pos hi]
theorem out1_eq_q2 (c : Dev nD) (i : grid1.Coords) (hi : (i 1).val = 2) (arg2 : Memref sig .tc .vmem S1x512x64 .f32) (harg2 : arg2.IsWhole)
    (arg3 : Memref sig .tc .vmem S1x2048x64 .f32) (harg3 : arg3.IsWhole) (arg4 : Memref sig .tc .vmem S1x2048x64 .f32) (harg4 : arg4.IsWhole)
    (arg5 : Memref sig .tc .vmem S1x512x64 .f32) (harg5 : arg5.IsWhole)
    (x0 : Vec F S1x512x64 .f32) (x1 x2 : Vec F S1x2048x64 .f32) :
    out1 c i arg2 harg2 arg3 harg3 arg4 harg4 arg5 harg5 x0 x1 x2 = out1_q2 c i hi arg2 harg2 arg3 harg3 arg4 harg4 arg5 harg5 x0 x1 x2 := by
  unfold out1; rw [dif_neg (by omega), dif_neg (by omega), dif_pos hi]
theorem out1_eq_q3 (c : Dev nD) (i : grid1.Coords) (hi : (i 1).val = 3) (arg2 : Memref sig .tc .vmem S1x512x64 .f32) (harg2 : arg2.IsWhole)
    (arg3 : Memref sig .tc .vmem S1x2048x64 .f32) (harg3 : arg3.IsWhole) (arg4 : Memref sig .tc .vmem S1x2048x64 .f32) (harg4 : arg4.IsWhole)
    (arg5 : Memref sig .tc .vmem S1x512x64 .f32) (harg5 : arg5.IsWhole)
    (x0 : Vec F S1x512x64 .f32) (x1 x2 : Vec F S1x2048x64 .f32) :
    out1 c i arg2 harg2 arg3 harg3 arg4 harg4 arg5 harg5 x0 x1 x2 = out1_q3 c i hi arg2 harg2 arg3 harg3 arg4 harg4 arg5 harg5 x0 x1 x2 := by
  unfold out1; rw [dif_neg (by omega), dif_neg (by omega), dif_neg (by omega)]

/-- In every case the body's triple holds for some covering list of pieces, and `out1` is those pieces read back. -/
theorem run1 (c : Dev nD) (i : grid1.Coords) (arg2 : Memref sig .tc .vmem S1x512x64 .f32) (harg2 : arg2.IsWhole)
    (arg3 : Memref sig .tc .vmem S1x2048x64 .f32) (harg3 : arg3.IsWhole) (arg4 : Memref sig .tc .vmem S1x2048x64 .f32) (harg4 : arg4.IsWhole)
    (arg5 : Memref sig .tc .vmem S1x512x64 .f32) (harg5 : arg5.IsWhole)
    (x0 : Vec F S1x512x64 .f32) (x1 x2 : Vec F S1x2048x64 .f32) :
    ∃ L1 : List (View.Piece (Elt F) S1x512x64 .f32), Run1Spec c i arg2 harg2 arg3 harg3 arg4 harg4 arg5 harg5 x0 x1 x2 L1 ∧ (∀ y : S1x512x64.Idx, ∃ pc ∈ L1, y ∈ pc.1.set)
      ∧ out1 c i arg2 harg2 arg3 harg3 arg4 harg4 arg5 harg5 x0 x1 x2 = VO1_3.read (Elt F) (VO1_3.writes (Elt F) VO1_3.junk L1) := by
  by_cases h0 : (i 1).val = 0
  · exact ⟨_, (kernelRun1_q0 c i h0 arg2 harg2 arg3 harg3 arg4 harg4 arg5 harg5 x0 x1 x2).2, cover1_q0 c i h0 arg2 harg2 arg3 harg3 arg4 harg4 arg5 harg5 x0 x1 x2, out1_eq_q0 c i h0 arg2 harg2 arg3 harg3 arg4 harg4 arg5 harg5 x0 x1 x2⟩
  by_cases h1 : (i 1).val = 1
  · exact ⟨_, (kernelRun1_q1 c i h1 arg2 harg2 arg3 harg3 arg4 harg4 arg5 harg5 x0 x1 x2).2, cover1_q1 c i h1 arg2 harg2 arg3 harg3 arg4 harg4 arg5 harg5 x0 x1 x2, out1_eq_q1 c i h1 arg2 harg2 arg3 harg3 arg4 harg4 arg5 harg5 x0 x1 x2⟩
  by_cases h2 : (i 1).val = 2
  · exact ⟨_, (kernelRun1_q2 c i h2 arg2 harg2 arg3 harg3 arg4 harg4 arg5 harg5 x0 x1 x2).2, cover1_q2 c i h2 arg2 harg2 arg3 harg3 arg4 harg4 arg5 harg5 x0 x1 x2, out1_eq_q2 c i h2 arg2 harg2 arg3 harg3 arg4 harg4 arg5 harg5 x0 x1 x2⟩
  have h3 := qi_eq3 i h0 h1 h2
  exact ⟨_, (kernelRun1_q3 c i h3 arg2 harg2 arg3 harg3 arg4 harg4 arg5 harg5 x0 x1 x2).2, cover1_q3 c i h3 arg2 harg2 arg3 harg3 arg4 harg4 arg5 harg5 x0 x1 x2, out1_eq_q3 c i h3 arg2 harg2 arg3 harg3 arg4 harg4 arg5 harg5 x0 x1 x2⟩

section Region1
variable (V : (c : Dev nD) → (b : Ref sig .tc) → Buf (Elt F) ((c : Thread nD τ).loc b))

/-! ## What the output holds after each point -/

/-- What the output's staging buffer holds after the body at point `t`: the run's contents at the point's memrefs and
    input blocks. -/
def outsAt1 (c : Dev nD) (t : Fin cfg1.N) : Vec F S1x512x64 .f32 :=
  out1 c (grid1.coords t) (ms1_0 t) (hs1_0 t) (ms1_1 t) (hs1_1 t) (ms1_2 t) (hs1_2 t) (ms1_3 t) (hs1_3 t)
    (iblk1 V c 0 t) (iblk1 V c 1 t) (iblk1 V c 2 t)

/-- At a point whose query chunk is 0 the output holds the run's contents of that case. -/
theorem outsAt1_eq_q0 (c : Dev nD) (t : Fin cfg1.N) (h : ((grid1.coords t) 1).val = 0) :
    outsAt1 V c t = out1_q0 c (grid1.coords t) h (ms1_0 t) (hs1_0 t) (ms1_1 t) (hs1_1 t) (ms1_2 t) (hs1_2 t) (ms1_3 t) (hs1_3 t)
      (iblk1 V c 0 t) (iblk1 V c 1 t) (iblk1 V c 2 t) :=
  out1_eq_q0 c (grid1.coords t) h _ _ _ _ _ _ _ _ _ _ _

/-- At a point whose query chunk is 1 the output holds the run's contents of that case. -/
theorem outsAt1_eq_q1 (c : Dev nD) (t : Fin cfg1.N) (h : ((grid1.coords t) 1).val = 1) :
    outsAt1 V c t = out1_q1 c (grid1.coords t) h (ms1_0 t) (hs1_0 t) (ms1_1 t) (hs1_1 t) (ms1_2 t) (hs1_2 t) (ms1_3 t) (hs1_3 t)
      (iblk1 V c 0 t) (iblk1 V c 1 t) (iblk1 V c 2 t) :=
  out1_eq_q1 c (grid1.coords t) h _ _ _ _ _ _ _ _ _ _ _

/-- At a point whose query chunk is 2 the output holds the run's contents of that case. -/
theorem outsAt1_eq_q2 (c : Dev nD) (t : Fin cfg1.N) (h : ((grid1.coords t) 1).val = 2) :
    outsAt1 V c t = out1_q2 c (grid1.coords t) h (ms1_0 t) (hs1_0 t) (ms1_1 t) (hs1_1 t) (ms1_2 t) (hs1_2 t) (ms1_3 t) (hs1_3 t)
      (iblk1 V c 0 t) (iblk1 V c 1 t) (iblk1 V c 2 t) :=
  out1_eq_q2 c (grid1.coords t) h _ _ _ _ _ _ _ _ _ _ _

/-- At a point whose query chunk is 3 the output holds the run's contents of that case. -/
theorem outsAt1_eq_q3 (c : Dev nD) (t : Fin cfg1.N) (h : ((grid1.coords t) 1).val = 3) :
    outsAt1 V c t = out1_q3 c (grid1.coords t) h (ms1_0 t) (hs1_0 t) (ms1_1 t) (hs1_1 t) (ms1_2 t) (hs1_2 t) (ms1_3 t) (hs1_3 t)
      (iblk1 V c 0 t) (iblk1 V c 1 t) (iblk1 V c 2 t) :=
  out1_eq_q3 c (grid1.coords t) h _ _ _ _ _ _ _ _ _ _ _

/-! ## The pipeline's proof data -/

/-- The proof data of pipeline 1 on core `c`: the arrays as the region finds them; after the body at point `t` each
    input's buffer at its block and the output's at `outsAt1`; the invariant the scoped rest and the generator register;
    nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outsAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outsAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The invariant, conjunct by conjunct -/

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f)
          ∗ (∃ d, owns (c : Thread nD τ) scM1_0 fullShare d) ∗ (∃ d, owns (c : Thread nD τ) scM1_1 fullShare d) ∗ (∃ d, owns (c : Thread nD τ) scM1_2 fullShare d))
        ∗ (∃ r, prngReg c r)) := by
  unfold Pipeline.ΦA; rw [scopedRest1_eq]; simp only [scM1_0, scM1_1, scM1_2, owns_whole]; try rfl

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 1000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  rw [show (dat1 V c).Φ t.castSucc = Pipeline.ΦA spec1 c from rfl, PhiA1_eq]
  unfold outsAt1
  obtain ⟨L1, hrun, hcov, hout⟩ := run1 c (grid1.coords t) (ms1_0 t) (hs1_0 t) (ms1_1 t) (hs1_1 t) (ms1_2 t) (hs1_2 t) (ms1_3 t) (hs1_3 t)
    (iblk1 V c 0 t) (iblk1 V c 1 t) (iblk1 V c 2 t)
  rw [hout]
  unfold Run1Spec at hrun
  iintro ⟨⟨⟨HR0, HR1, HR2, HR3, HR4, HR5, HR6, HR7, HR8, HR9, HR10, HS0, HS1, HS2⟩, Hg⟩, Ho, ⟨%d0, H0⟩, ⟨%d1, H1⟩, ⟨%d2, H2⟩, ⟨%d3, H3⟩⟩
  iapply (hrun _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  iintro ⟨H0, H1, H2, ⟨%e3, H3⟩, HS0, HS1, HS2⟩
  isplitl [HR0 HR1 HR2 HR3 HR4 HR5 HR6 HR7 HR8 HR9 HR10 HS0 HS1 HS2 Hg]
  · isplitl [HR0 HR1 HR2 HR3 HR4 HR5 HR6 HR7 HR8 HR9 HR10 HS0 HS1 HS2]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HS0]; · iexact HS0
      isplitl [HS1]; · iexact HS1
      iexact HS2
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ hcov

/-- The body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.IdealRun.lean ====
/-
  The two launches in order: the buffer contents at each boundary, the arguments unchanged, the three result arrays by name, and the run from the launch memory to the return.
-/
import proofs.«154606_j45561013076111_2_alg».proof.Proof.IdealRegion0
import proofs.«154606_j45561013076111_2_alg».proof.Proof.IdealRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! # The run: the two launches in order, from the launch memory to the return

## The buffer contents at each boundary: a fold through the two launches -/

/-- Core `c`'s buffers at launch (what the projection launch is entered from). -/
abbrev W0 : Dev nD → Valuation τ sig (Elt F) := fun c b => (s₀ m ρ).mem ((c : Dev nD), b)
/-- The same read at the core's references. -/
abbrev V0 : (c : Dev nD) → (b : Ref sig .tc) → Buf (Elt F) ((c : Thread nD τ).loc b) := fun c b => W0 m ρ c b
/-- After the projection launch: its seven arrays at what the write-backs leave (the four inputs as entered, q, k, v
    with every block written), every other buffer as entered (what the attention launch is entered from). -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the core's references. -/
abbrev V1 : (c : Dev nD) → (b : Ref sig .tc) → Buf (Elt F) ((c : Thread nD τ).loc b) := fun c b => W1 m ρ c b
/-- After the projection launch each of its arrays holds what the write-backs leave, and every other buffer what it
    held before. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the attention launch: its four arrays at what the write-backs leave (q, k, v as entered, the output with
    every block written), every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the core's references. -/
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ### The arguments end as launched: the projection launch only reads them (an input array is never written back),
    the attention launch does not touch them -/

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := (W1_arr m ρ c 2).trans (((dat0 (V0 m ρ) c).arrAt_in 2 rfl _).trans (A_eq0 (V0 m ρ) c 2))
    _ = m ((c : Thread nD τ).loc main_arg2) := rfl
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := (W1_arr m ρ c 3).trans (((dat0 (V0 m ρ) c).arrAt_in 3 rfl _).trans (A_eq0 (V0 m ρ) c 3))
    _ = m ((c : Thread nD τ).loc main_arg3) := rfl

/-! ### The results by name: what the attention launch finds in q, k, v, and what the three result arrays hold at
    the end (k and v are inputs of the attention launch, which leaves them as the projection launch wrote them) -/

theorem V1_q (c : Dev nD) : V1 m ρ c main_v0_0 = (dat0 (V0 m ρ) c).arrAt 4 cfg0.N := W1_arr m ρ c 4
theorem V1_k (c : Dev nD) : V1 m ρ c main_v0_1 = (dat0 (V0 m ρ) c).arrAt 5 cfg0.N := W1_arr m ρ c 5
theorem V1_v (c : Dev nD) : V1 m ρ c main_v0_2 = (dat0 (V0 m ρ) c).arrAt 6 cfg0.N := W1_arr m ρ c 6
theorem W2_main_v1 (c : Dev nD) : W2 m ρ c (Proc.devRef .tc main_v1) = (dat1 (V1 m ρ) c).arrAt 3 cfg1.N := W2_arr m ρ c 3
theorem W2_main_v0_1 (c : Dev nD) : W2 m ρ c (Proc.devRef .tc main_v0_1) = (dat0 (V0 m ρ) c).arrAt 5 cfg0.N :=
  calc W2 m ρ c (Proc.devRef .tc main_v0_1)
    _ = W1 m ρ c (Proc.devRef .tc main_v0_1) := (W2_arr m ρ c 1).trans (((dat1 (V1 m ρ) c).arrAt_in 1 rfl _).trans (A_eq1 (V1 m ρ) c 1))
    _ = (dat0 (V0 m ρ) c).arrAt 5 cfg0.N := W1_arr m ρ c 5
theorem W2_main_v0_2 (c : Dev nD) : W2 m ρ c (Proc.devRef .tc main_v0_2) = (dat0 (V0 m ρ) c).arrAt 6 cfg0.N :=
  calc W2 m ρ c (Proc.devRef .tc main_v0_2)
    _ = W1 m ρ c (Proc.devRef .tc main_v0_2) := (W2_arr m ρ c 2).trans (((dat1 (V1 m ρ) c).arrAt_in 2 rfl _).trans (A_eq1 (V1 m ρ) c 2))
    _ = (dat0 (V0 m ρ) c).arrAt 6 cfg0.N := W1_arr m ρ c 6

/-! ## The proof data of both launches and the state between them -/

/-- No launch has a prefetched table. -/
abbrev adm : (p : Fin 2) → (pcfgs (F := F) p).Adm := fun p => (cfgs p).toPCfg_adm
/-- Each launch's proof data at the contents it is entered from. -/
def pdats : (p : Fin 2) → (c : Dev nD) → Dat τ (Elt F) Unit ℕ (Pipeline.UD sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)

/-- An unscoped reference of the core is among those the state between launches holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without what is owed: every unscoped buffer at the final contents, the generator register at some state. -/
abbrev Tₙ (c : Dev nD) : sProp 𝕄 := iprop(StableHlo.held (c : Thread nD τ) (Pipeline.ucRefs τ sig) (W2 m ρ c) ∗ ∃ r, prngReg c r)

/-! ## The launches as segments -/

set_option backward.isDefEq.respectTransparency.types false in
/-- The projection launch over the state between launches: entered with every unscoped buffer at the launch contents, left
    with them at the contents after it. Its arrays are split out of the unscoped buffers and put back at the exit contents;
    the generator register passes through the invariant; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention launch, likewise: entered at the contents the projection launch leaves, left at the final contents. Its
    three scratch buffers are scoped: they stay inside the invariant from the first point to the last. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as the two segments, and the run -/

abbrev segs : List (Pipeline.Seg (pcfgs (F := F)) adm (pdats m ρ) () defs₀ 𝒱₀ L lv) :=
  [ .region (reg0 m ρ),
    .region (reg1 m ρ) ]
/-- The program is the run of the two segments. -/
theorem main_run (c : Dev nD) : main (F := F) c = Pipeline.Seg.run (segs m ρ) := (main_chain c).trans (by chain_rfl)

set_option backward.isDefEq.respectTransparency.types false in
/-- THE RUN, with the results named: from any memory with zero counters every weakly fair execution of the two launches
    terminates, nothing faulting, and every final memory holds, on every core, the attention output at what the attention
    launch's write-backs leave, k and v at what the projection launch's write-backs leave, and each argument as launched. -/
theorem run_named : θ_run defs (onTc (τ := τ) (main (F := F))) ⟨m, fun _ => 0, ρ⟩ (fun r => ∀ c : Dev nD,
      r.2.mem ((c.tc : Thread nD τ).loc main_v1) = (dat1 (V1 m ρ) c).arrAt 3 cfg1.N
      ∧ r.2.mem ((c.tc : Thread nD τ).loc main_v0_1) = (dat0 (V0 m ρ) c).arrAt 5 cfg0.N
      ∧ r.2.mem ((c.tc : Thread nD τ).loc main_v0_2) = (dat0 (V0 m ρ) c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (W2_main_v1 m ρ c),
       (h c _ (mem_uc main_v0_1 (by decide))).trans (W2_main_v0_1 m ρ c),
       (h c _ (mem_uc main_v0_2 (by decide))).trans (W2_main_v0_2 m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

/-- THE FRAME at any float model: the run terminates, nothing faulting, and every final memory holds each argument as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run _ _ _).mono (fun r h c => (h c).2.2.2) (run_named m ρ)

end Cert.KernelIdeal.Hand

end
-- ==== Proof.Value0.lean ====
/-
  The projection launch's three result arrays after the launch, index by index: each is the projection of the arrays the launch found.
-/
import proofs.«154606_j45561013076111_2_alg».proof.Proof.IdealRegion0
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Value0

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

/-! ## A block product read at an index -/

/-- The dimension numbers of the three products: rows × contraction times contraction × columns. -/
abbrev D0 : DotDims S2048x1024 S1024x64 S2048x64 := dot_S2048x1024_S1024x64_S2048x64_1_0_0_1_n_n

theorem lhs_0 (i : S2048x64.Idx) (q : D0.contr.Idx) : (D0.lhsIdx i q 0).val = (i 0).val := by
  unfold DotDims.lhsIdx
  rw [dif_neg (show ¬(0 : Fin S2048x1024.rank) ∈ D0.lhsBatch by decide), dif_pos (show (0 : Fin S2048x1024.rank) ∈ D0.lhsNonContracting by decide)]
  rfl
theorem lhs_1 (i : S2048x64.Idx) (q : D0.contr.Idx) : (D0.lhsIdx i q 1).val = (q ⟨0, by decide⟩).val :=
  D0.lhsIdx_val_of_single rfl i q
theorem rhs_0 (i : S2048x64.Idx) (q : D0.contr.Idx) : (D0.rhsIdx i q 0).val = (q ⟨0, by decide⟩).val :=
  D0.rhsIdx_val_of_single rfl i q
theorem rhs_1 (i : S2048x64.Idx) (q : D0.contr.Idx) : (D0.rhsIdx i q 1).val = (i 1).val := by
  unfold DotDims.rhsIdx
  rw [dif_neg (show ¬(1 : Fin S1024x64.rank) ∈ D0.rhsBatch by decide), dif_pos (show (1 : Fin S1024x64.rank) ∈ D0.rhsNonContracting by decide)]
  rfl

/-- The product of a [2048,1024] block (behind a unit axis) with a [1024,64] weight into the zero accumulator, behind a
    unit axis again, read at row `t` and column `h`: the sum over the contraction coordinate of the products. -/
theorem blockProd_apply (x0 : Vec Ideal S1x2048x1024 .f32) (w : Vec Ideal S1024x64 .f32) (u : Fin 1) (t : Fin 2048) (h : Fin 64) :
    (shapeCast S1x2048x64 (matmul (F := Ideal) D0 none (truncf (F := Ideal) .bf16 (shapeCast S2048x1024 x0 shapeCasts_S1x2048x1024_S2048x1024) bitsLt_bf16_f32)
        (truncf (F := Ideal) .bf16 w bitsLt_bf16_f32) (constant (F := Ideal) S2048x64 .f32 0x00000000#32)) shapeCasts_S2048x64_S1x2048x64 : Vec Ideal S1x2048x64 .f32) (ix3 u t h)
      = ∑ k : Fin 1024, x0 (ix3 (0 : Fin 1) t k) * w (ix2 k h) := by
  rw [shapeCast_ab_1ab_apply]
  simp only [matmul]
  rw [Ideal.matmul_constant_zero_apply, ← Equiv.sum_comp (contrEquiv1 D0 1024 rfl rfl).symm]
  refine Finset.sum_congr rfl fun k _ => ?_
  have hk := contrEquiv1_symm_val D0 1024 rfl rfl k
  have el : D0.lhsIdx (ix2 t h) ((contrEquiv1 D0 1024 rfl rfl).symm k) = ix2 t k := funext fun a => Fin.ext (by
    match a with
    | ⟨0, _⟩ => exact lhs_0 _ _
    | ⟨1, _⟩ => exact (lhs_1 _ _).trans hk)
  have er : D0.rhsIdx (ix2 t h) ((contrEquiv1 D0 1024 rfl rfl).symm k) = ix2 k h := funext fun a => Fin.ext (by
    match a with
    | ⟨0, _⟩ => exact (rhs_0 _ _).trans hk
    | ⟨1, _⟩ => exact rhs_1 _ _)
  rw [el, er, truncf_apply, truncf_apply, shapeCast_1ab_ab_apply]

theorem pay2_apply (x0 : Vec Ideal S1x2048x1024 .f32) (w : Vec Ideal S1024x64 .f32) (u : Fin 1) (t : Fin 2048) (h : Fin 64) :
    k0_pay2 (F := Ideal) x0 w (ix3 u t h) = ∑ k : Fin 1024, x0 (ix3 (0 : Fin 1) t k) * w (ix2 k h) :=
  blockProd_apply x0 w u t h
theorem pay3_apply (x0 : Vec Ideal S1x2048x1024 .f32) (w : Vec Ideal S1024x64 .f32) (u : Fin 1) (t : Fin 2048) (h : Fin 64) :
    k0_pay3 (F := Ideal) x0 w (ix3 u t h) = ∑ k : Fin 1024, x0 (ix3 (0 : Fin 1) t k) * w (ix2 k h) :=
  blockProd_apply x0 w u t h
theorem pay4_apply (x0 : Vec Ideal S1x2048x1024 .f32) (w : Vec Ideal S1024x64 .f32) (u : Fin 1) (t : Fin 2048) (h : Fin 64) :
    k0_pay4 (F := Ideal) x0 w (ix3 u t h) = ∑ k : Fin 1024, x0 (ix3 (0 : Fin 1) t k) * w (ix2 k h) :=
  blockProd_apply x0 w u t h

/-! ## From blocks to the arrays -/

theorem hz3 : (![0, 0, 0] : Fin 3 → Nat) = fun _ => 0 := funext fun a => by fin_cases a <;> rfl
theorem hz2 : (![0, 0] : Fin 2 → Nat) = fun _ => 0 := funext fun a => by fin_cases a <;> rfl

/-- The projection of the whole array: row `(b, t)` of `X` against column `h` of `W`. -/
def proj (X : S4x2048x1024.Idx → EReal) (W : S1024x64.Idx → EReal) : S4x2048x64.Idx → EReal :=
  fun i => ∑ k : Fin 1024, X (ix3 (i 0) (i 1) k) * W (ix2 k (i 2))

/-- The projection at an index written by its coordinates: the sum over the contraction coordinate. -/
theorem proj_apply (X : S4x2048x1024.Idx → EReal) (W : S1024x64.Idx → EReal) (b : Fin 4) (t : Fin 2048) (h : Fin 64) :
    proj X W (ix3 b t h) = ∑ k : Fin 1024, X (ix3 b t k) * W (ix2 k h) := rfl

/-- A block's payload at an inner index is the projection of the whole arrays at the array index it sits at, when the
    loaded x block is batch row `i 0` of `X` and the loaded weight is `W`. -/

theorem blk4_apply (X : S4x2048x1024.Idx → EReal) (W : S1024x64.Idx → EReal) (x0 : Vec Ideal S1x2048x1024 .f32) (w : Vec Ideal S1024x64 .f32)
    (j : S1x2048x64.Idx) (i : S4x2048x64.Idx)
    (hx : ∀ (t : Fin 2048) (k : Fin 1024), x0 (ix3 (0 : Fin 1) t k) = X (ix3 (i 0) t k)) (hw : ∀ (k : Fin 1024) (h : Fin 64), w (ix2 k h) = W (ix2 k h))
    (hi1 : (i 1).val = (j 1).val) (hi2 : (i 2).val = (j 2).val) :
    k0_pay2 (F := Ideal) x0 w j = proj X W i := by
  obtain ⟨u, t, h, rfl⟩ : ∃ (u : Fin 1) (t : Fin 2048) (h : Fin 64), j = ix3 u t h := ⟨j 0, j 1, j 2, eq_ix3 j⟩
  rw [pay2_apply]
  unfold proj
  have e1 : i 1 = t := Fin.ext hi1
  have e2 : i 2 = h := Fin.ext hi2
  rw [e1, e2]
  exact Finset.sum_congr rfl fun k _ => by rw [hx, hw]

theorem blk5_apply (X : S4x2048x1024.Idx → EReal) (W : S1024x64.Idx → EReal) (x0 : Vec Ideal S1x2048x1024 .f32) (w : Vec Ideal S1024x64 .f32)
    (j : S1x2048x64.Idx) (i : S4x2048x64.Idx)
    (hx : ∀ (t : Fin 2048) (k : Fin 1024), x0 (ix3 (0 : Fin 1) t k) = X (ix3 (i 0) t k)) (hw : ∀ (k : Fin 1024) (h : Fin 64), w (ix2 k h) = W (ix2 k h))
    (hi1 : (i 1).val = (j 1).val) (hi2 : (i 2).val = (j 2).val) :
    k0_pay3 (F := Ideal) x0 w j = proj X W i := by
  obtain ⟨u, t, h, rfl⟩ : ∃ (u : Fin 1) (t : Fin 2048) (h : Fin 64), j = ix3 u t h := ⟨j 0, j 1, j 2, eq_ix3 j⟩
  rw [pay3_apply]
  unfold proj
  have e1 : i 1 = t := Fin.ext hi1
  have e2 : i 2 = h := Fin.ext hi2
  rw [e1, e2]
  exact Finset.sum_congr rfl fun k _ => by rw [hx, hw]

theorem blk6_apply (X : S4x2048x1024.Idx → EReal) (W : S1024x64.Idx → EReal) (x0 : Vec Ideal S1x2048x1024 .f32) (w : Vec Ideal S1024x64 .f32)
    (j : S1x2048x64.Idx) (i : S4x2048x64.Idx)
    (hx : ∀ (t : Fin 2048) (k : Fin 1024), x0 (ix3 (0 : Fin 1) t k) = X (ix3 (i 0) t k)) (hw : ∀ (k : Fin 1024) (h : Fin 64), w (ix2 k h) = W (ix2 k h))
    (hi1 : (i 1).val = (j 1).val) (hi2 : (i 2).val = (j 2).val) :
    k0_pay4 (F := Ideal) x0 w j = proj X W i := by
  obtain ⟨u, t, h, rfl⟩ : ∃ (u : Fin 1) (t : Fin 2048) (h : Fin 64), j = ix3 u t h := ⟨j 0, j 1, j 2, eq_ix3 j⟩
  rw [pay4_apply]
  unfold proj
  have e1 : i 1 = t := Fin.ext hi1
  have e2 : i 2 = h := Fin.ext hi2
  rw [e1, e2]
  exact Finset.sum_congr rfl fun k _ => by rw [hx, hw]

/-- The printed index maps over the grid: point `t` takes batch row `t` of x and of each result, all of each weight. -/
theorem idx_facts : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0
    ∧ win0_6.index t (0 : Fin 3) = t.val ∧ win0_6.index t (1 : Fin 3) = 0 ∧ win0_6.index t (2 : Fin 3) = 0 :=
  (by decide +kernel : ∀ t : Fin grid0.N, _)

section Arrays
variable (V : (c : Dev nD) → (b : Ref sig .tc) → Buf (Elt Ideal) ((c : Thread nD τ).loc b))

/-! ### Window 4 -/

/-- What point `t` writes back to window 4 is block `t` of the projection of the whole arrays. -/
theorem flushed4_eq (c : Dev nD) (t : Fin cfg0.N) :
    (dat0 V c).flushed 4 t = ((cfg0.win 4).blk t).view.read (Elt Ideal) (proj (V c main_arg0) (V c main_arg1)) := by
  show (cfg0.win 4).cut (grid0.coords t) ((dat0 V c).after 4 t) = _
  rw [after0_4]
  unfold out0_4
  rw [View.canon_unit_zero hz3]
  simp only [View.ld_unit_zero (S := S1x2048x1024) hz3, View.ld_unit_zero (S := S1024x64) hz2]
  obtain ⟨e00, e01, e02, e10, e11, e20, e21, e30, e31, e40, e41, e42, e50, e51, e52, e60, e61, e62⟩ := idx_facts t
  funext j
  show k0_pay2 (iblk0 V c 0 t) (iblk0 V c 1 t) j = proj (V c main_arg0) (V c main_arg1) (((cfg0.win 4).blk t).view.emb j)
  have hj0 : (j 0).val < 1 := (j 0).isLt
  refine blk4_apply _ _ _ _ j _ (fun t' k => ?_) (fun k h => ?_) ?_ ?_
  · unfold iblk0
    rw [View.read_apply]
    show V c main_arg0 (((cfg0.win 0).blk t).view.emb _) = V c main_arg0 _
    congr 1
    funext a
    apply Fin.ext
    match a with
    | ⟨0, _⟩ => show win0_0.index t (0 : Fin 3) * 1 + 1 * 0 = win0_4.index t (0 : Fin 3) * 1 + 1 * (j 0).val; omega
    | ⟨1, _⟩ => show win0_0.index t (1 : Fin 3) * 2048 + 1 * t'.val = t'.val; omega
    | ⟨2, _⟩ => show win0_0.index t (2 : Fin 3) * 1024 + 1 * k.val = k.val; omega
  · unfold iblk0
    rw [View.read_apply]
    show V c main_arg1 (((cfg0.win 1).blk t).view.emb _) = V c main_arg1 _
    congr 1
    funext a
    apply Fin.ext
    match a with
    | ⟨0, _⟩ => show win0_1.index t (0 : Fin 2) * 1024 + 1 * k.val = k.val; omega
    | ⟨1, _⟩ => show win0_1.index t (1 : Fin 2) * 64 + 1 * h.val = h.val; omega
  · show win0_4.index t (1 : Fin 3) * 2048 + 1 * (j 1).val = (j 1).val; omega
  · show win0_4.index t (2 : Fin 3) * 64 + 1 * (j 2).val = (j 2).val; omega

/-- An index of the array is in point `t`'s block iff each coordinate is in the block's range on its axis. -/
theorem mem_blk4 (t : Fin cfg0.N) (i : S4x2048x64.Idx) :
    i ∈ ((cfg0.win 4).blk t).view.set ↔ ∀ a : Fin 3, win0_4.index t a * S1x2048x64.size a ≤ (i a).val ∧ (i a).val < win0_4.index t a * S1x2048x64.size a + S1x2048x64.size a := by
  show i ∈ ((View.whole main_v0_0).slice (win0_4.rect t)).set ↔ _
  rw [View.set_slice_whole, Rect.mem_set_unit]
  exact Iff.rfl

/-- Every index of the array is in the block of the point of its batch row. -/
theorem cover4 (i : S4x2048x64.Idx) : ∃ t : Fin cfg0.N, (cfg0.win 4).flush t = true ∧ i ∈ ((cfg0.win 4).blk t).view.set := by
  have hi0 : (i 0).val < 4 := (i 0).isLt
  have hi1 : (i 1).val < 2048 := (i 1).isLt
  have hi2 : (i 2).val < 64 := (i 2).isLt
  let t : Fin cfg0.N := ⟨(i 0).val, lt_of_lt_of_eq hi0 N_0.symm⟩
  have ht : t.val = (i 0).val := rfl
  obtain ⟨e00, e01, e02, e10, e11, e20, e21, e30, e31, e40, e41, e42, e50, e51, e52, e60, e61, e62⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 2048 ≤ (i 1).val ∧ (i 1).val < win0_4.index t (1 : Fin 3) * 2048 + 2048; omega
  | ⟨2, _⟩ => show win0_4.index t (2 : Fin 3) * 64 ≤ (i 2).val ∧ (i 2).val < win0_4.index t (2 : Fin 3) * 64 + 64; omega

/-- The array of window 4 after the launch: the projection of the arrays the launch found. -/
theorem final4 (c : Dev nD) : (dat0 V c).arrAt 4 cfg0.N = proj (V c main_arg0) (V c main_arg1) :=
  (dat0 V c).arrAt_eq_of_cover 4 (proj (V c main_arg0) (V c main_arg1)) (fun t _ => flushed4_eq V c t) cover4

/-- The same at an index written by its coordinates. -/
theorem final4_apply (c : Dev nD) (b : Fin 4) (t : Fin 2048) (h : Fin 64) :
    (dat0 V c).arrAt 4 cfg0.N (ix3 b t h) = proj (V c main_arg0) (V c main_arg1) (ix3 b t h) := by
  rw [final4]

/-! ### Window 5 -/

/-- What point `t` writes back to window 5 is block `t` of the projection of the whole arrays. -/
theorem flushed5_eq (c : Dev nD) (t : Fin cfg0.N) :
    (dat0 V c).flushed 5 t = ((cfg0.win 5).blk t).view.read (Elt Ideal) (proj (V c main_arg0) (V c main_arg2)) := by
  show (cfg0.win 5).cut (grid0.coords t) ((dat0 V c).after 5 t) = _
  rw [after0_5]
  unfold out0_5
  rw [View.canon_unit_zero hz3]
  simp only [View.ld_unit_zero (S := S1x2048x1024) hz3, View.ld_unit_zero (S := S1024x64) hz2]
  obtain ⟨e00, e01, e02, e10, e11, e20, e21, e30, e31, e40, e41, e42, e50, e51, e52, e60, e61, e62⟩ := idx_facts t
  funext j
  show k0_pay3 (iblk0 V c 0 t) (iblk0 V c 2 t) j = proj (V c main_arg0) (V c main_arg2) (((cfg0.win 5).blk t).view.emb j)
  have hj0 : (j 0).val < 1 := (j 0).isLt
  refine blk5_apply _ _ _ _ j _ (fun t' k => ?_) (fun k h => ?_) ?_ ?_
  · unfold iblk0
    rw [View.read_apply]
    show V c main_arg0 (((cfg0.win 0).blk t).view.emb _) = V c main_arg0 _
    congr 1
    funext a
    apply Fin.ext
    match a with
    | ⟨0, _⟩ => show win0_0.index t (0 : Fin 3) * 1 + 1 * 0 = win0_5.index t (0 : Fin 3) * 1 + 1 * (j 0).val; omega
    | ⟨1, _⟩ => show win0_0.index t (1 : Fin 3) * 2048 + 1 * t'.val = t'.val; omega
    | ⟨2, _⟩ => show win0_0.index t (2 : Fin 3) * 1024 + 1 * k.val = k.val; omega
  · unfold iblk0
    rw [View.read_apply]
    show V c main_arg2 (((cfg0.win 2).blk t).view.emb _) = V c main_arg2 _
    congr 1
    funext a
    apply Fin.ext
    match a with
    | ⟨0, _⟩ => show win0_2.index t (0 : Fin 2) * 1024 + 1 * k.val = k.val; omega
    | ⟨1, _⟩ => show win0_2.index t (1 : Fin 2) * 64 + 1 * h.val = h.val; omega
  · show win0_5.index t (1 : Fin 3) * 2048 + 1 * (j 1).val = (j 1).val; omega
  · show win0_5.index t (2 : Fin 3) * 64 + 1 * (j 2).val = (j 2).val; omega

/-- An index of the array is in point `t`'s block iff each coordinate is in the block's range on its axis. -/
theorem mem_blk5 (t : Fin cfg0.N) (i : S4x2048x64.Idx) :
    i ∈ ((cfg0.win 5).blk t).view.set ↔ ∀ a : Fin 3, win0_5.index t a * S1x2048x64.size a ≤ (i a).val ∧ (i a).val < win0_5.index t a * S1x2048x64.size a + S1x2048x64.size a := by
  show i ∈ ((View.whole main_v0_1).slice (win0_5.rect t)).set ↔ _
  rw [View.set_slice_whole, Rect.mem_set_unit]
  exact Iff.rfl

/-- Every index of the array is in the block of the point of its batch row. -/
theorem cover5 (i : S4x2048x64.Idx) : ∃ t : Fin cfg0.N, (cfg0.win 5).flush t = true ∧ i ∈ ((cfg0.win 5).blk t).view.set := by
  have hi0 : (i 0).val < 4 := (i 0).isLt
  have hi1 : (i 1).val < 2048 := (i 1).isLt
  have hi2 : (i 2).val < 64 := (i 2).isLt
  let t : Fin cfg0.N := ⟨(i 0).val, lt_of_lt_of_eq hi0 N_0.symm⟩
  have ht : t.val = (i 0).val := rfl
  obtain ⟨e00, e01, e02, e10, e11, e20, e21, e30, e31, e40, e41, e42, e50, e51, e52, e60, e61, e62⟩ := idx_facts t
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 2048 ≤ (i 1).val ∧ (i 1).val < win0_5.index t (1 : Fin 3) * 2048 + 2048; omega
  | ⟨2, _⟩ => show win0_5.index t (2 : Fin 3) * 64 ≤ (i 2).val ∧ (i 2).val < win0_5.index t (2 : Fin 3) * 64 + 64; omega

/-- The array of window 5 after the launch: the projection of the arrays the launch found. -/
theorem final5 (c : Dev nD) : (dat0 V c).arrAt 5 cfg0.N = proj (V c main_arg0) (V c main_arg2) :=
  (dat0 V c).arrAt_eq_of_cover 5 (proj (V c main_arg0) (V c main_arg2)) (fun t _ => flushed5_eq V c t) cover5

/-- The same at an index written by its coordinates. -/
theorem final5_apply (c : Dev nD) (b : Fin 4) (t : Fin 2048) (h : Fin 64) :
    (dat0 V c).arrAt 5 cfg0.N (ix3 b t h) = proj (V c main_arg0) (V c main_arg2) (ix3 b t h) := by
  rw [final5]

/-! ### Window 6 -/

/-- What point `t` writes back to window 6 is block `t` of the projection of the whole arrays. -/
theorem flushed6_eq (c : Dev nD) (t : Fin cfg0.N) :
    (dat0 V c).flushed 6 t = ((cfg0.win 6).blk t).view.read (Elt Ideal) (proj (V c main_arg0) (V c main_arg3)) := by
  show (cfg0.win 6).cut (grid0.coords t) ((dat0 V c).after 6 t) = _
  rw [after0_6]
  unfold out0_6
  rw [View.canon_unit_zero hz3]
  simp only [View.ld_unit_zero (S := S1x2048x1024) hz3, View.ld_unit_zero (S := S1024x64) hz2]
  obtain ⟨e00, e01, e02, e10, e11, e20, e21, e30, e31, e40, e41, e42, e50, e51, e52, e60, e61, e62⟩ := idx_facts t
  funext j
  show k0_pay4 (iblk0 V c 0 t) (iblk0 V c 3 t) j = proj (V c main_arg0) (V c main_arg3) (((cfg0.win 6).blk t).view.emb j)
  have hj0 : (j 0).val < 1 := (j 0).isLt
  refine blk6_apply _ _ _ _ j _ (fun t' k => ?_) (fun k h => ?_) ?_ ?_
  · unfold iblk0
    rw [View.read_apply]
    show V c main_arg0 (((cfg0.win 0).blk t).view.emb _) = V c main_arg0 _
    congr 1
    funext a
    apply Fin.ext
    match a with
    | ⟨0, _⟩ => show win0_0.index t (0 : Fin 3) * 1 + 1 * 0 = win0_6.index t (0 : Fin 3) * 1 + 1 * (j 0).val; omega
    | ⟨1, _⟩ => show win0_0.index t (1 : Fin 3) * 2048 + 1 * t'.val = t'.val; omega
    | ⟨2, _⟩ => show win0_0.index t (2 : Fin 3) * 1024 + 1 * k.val = k.val; omega
  · unfold iblk0
    rw [View.read_apply]
    show V c main_arg3 (((cfg0.win 3).blk t).view.emb _) = V c main_arg3 _
    congr 1
    funext a
    apply Fin.ext
    match a with
    | ⟨0, _⟩ => show win0_3.index t (0 : Fin 2) * 1024 + 1 * k.val = k.val; omega
    | ⟨1, _⟩ => show win0_3.index t (1 : Fin 2) * 64 + 1 * h.val = h.val; omega
  · show win0_6.index t (1 : Fin 3) * 2048 + 1 * (j 1).val = (j 1).val; omega
  · show win0_6.index t (2 : Fin 3) * 64 + 1 * (j 2).val = (j 2).val; omega

/-- An index of the array is in point `t`'s block iff each coordinate is in the block's range on its axis. -/
theorem mem_blk6 (t : Fin cfg0.N) (i : S4x2048x64.Idx) :
    i ∈ ((cfg0.win 6).blk t).view.set ↔ ∀ a : Fin 3, win0_6.index t a * S1x2048x64.size a ≤ (i a).val ∧ (i a).val < win0_6.index t a * S1x2048x64.size a + S1x2048x64.size a := by
  show i ∈ ((View.whole main_v0_2).slice (win0_6.rect t)).set ↔ _
  rw [View.set_slice_whole, Rect.mem_set_unit]
  exact Iff.rfl

/-- Every index of the array is in the block of the point of its batch row. -/
theorem cover6 (i : S4x2048x64.Idx) : ∃ t : Fin cfg0.N, (cfg0.win 6).flush t = true ∧ i ∈ ((cfg0.win 6).blk t).view.set := by
  have hi0 : (i 0).val < 4 := (i 0).isLt
  have hi1 : (i 1).val < 2048 := (i 1).isLt
  have hi2 : (i 2).val < 64 := (i 2).isLt
  let t : Fin cfg0.N := ⟨(i 0).val, lt_of_lt_of_eq hi0 N_0.symm⟩
  have ht : t.val = (i 0).val := rfl
  obtain ⟨e00, e01, e02, e10, e11, e20, e21, e30, e31, e40, e41, e42, e50, e51, e52, e60, e61, e62⟩ := idx_facts t
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 2048 ≤ (i 1).val ∧ (i 1).val < win0_6.index t (1 : Fin 3) * 2048 + 2048; omega
  | ⟨2, _⟩ => show win0_6.index t (2 : Fin 3) * 64 ≤ (i 2).val ∧ (i 2).val < win0_6.index t (2 : Fin 3) * 64 + 64; omega

/-- The array of window 6 after the launch: the projection of the arrays the launch found. -/
theorem final6 (c : Dev nD) : (dat0 V c).arrAt 6 cfg0.N = proj (V c main_arg0) (V c main_arg3) :=
  (dat0 V c).arrAt_eq_of_cover 6 (proj (V c main_arg0) (V c main_arg3)) (fun t _ => flushed6_eq V c t) cover6

/-- The same at an index written by its coordinates. -/
theorem final6_apply (c : Dev nD) (b : Fin 4) (t : Fin 2048) (h : Fin 64) :
    (dat0 V c).arrAt 6 cfg0.N (ix3 b t h) = proj (V c main_arg0) (V c main_arg3) (ix3 b t h) := by
  rw [final6]

end Arrays

end Cert.KernelIdeal.Value0

end
-- ==== Proof.Chain.lean ====
/-
  The attention body as a chain of pure maps: the three carried buffers (the weighted sum, the running row
  maximum, the normaliser) start at (0, -inf, 0); each processed chunk of 512 key/value rows sends them
  through one family of the body's pure terms; the stored block is the weighted sum divided by the normaliser.
-/
import proofs.«154606_j45561013076111_2_alg».proof.Proof.Gen.KernelIdeal.Skeleton
import Idealize.ShloMosaic.Lib.Pipeline.FrameBody

noncomputable section

open Idealize.ShloMosaic Idealize.ShloMosaic.TcCoe

namespace Cert.KernelIdeal.Chain

open Cert.KernelIdeal Cert.KernelIdeal.Gen

variable {F : FTy → Type} [FloatOps F] [Named F]

/-- The three buffers a query tile carries from chunk to chunk. -/
structure St (F : FTy → Type) where
  acc : Vec F S512x64 .f32
  m : Vec F S512x1 .f32
  l : Vec F S512x1 .f32

/-- Before the first chunk: weighted sum 0, maximum -inf, normaliser 0. -/
def st0 : St F := ⟨k1_pay26, k1_pay27, k1_pay28⟩

/-- Rows 0 … 0 + 511 of a [1, 2048, 64] block. -/
abbrev rows0 : Rect S1x2048x64 := Rect.unit (s := S1x2048x64) ![0, 0, 0] S1x512x64.size inb_S1x2048x64_S1x512x64_0_0_0

/-- Chunk 0: the query tile `v14` against key rows `kc` and value rows `vc`, from the carried buffers `s`. -/
def chunk0 (arg1 : BitVec 32) (v14 : FVec F S512x64 .bf16) (kc vc : Vec F S1x512x64 .f32) (s : St F) : St F :=
  ⟨k1_pay30 (k1_pay2 vc) (k1_pay5 arg1 v14 kc s.m s.m) (k1_pay6 arg1 v14 kc s.m) s.acc,
   k1_pay31 (k1_pay4 arg1 v14 kc s.m),
   k1_pay7 arg1 v14 kc s.m s.m s.l⟩

/-- Chunk 0 fed from the key block `x1` and the value block `x2`. -/
def step0 (arg1 : BitVec 32) (x0 : Vec F S1x512x64 .f32) (x1 x2 : Vec F S1x2048x64 .f32) (s : St F) : St F :=
  chunk0 arg1 (k1_pay29 x0) (View.ld x1 rows0) (View.ld x2 rows0) s

/-- Rows 512 … 512 + 511 of a [1, 2048, 64] block. -/
abbrev rows1 : Rect S1x2048x64 := Rect.unit (s := S1x2048x64) ![0, 512, 0] S1x512x64.size inb_S1x2048x64_S1x512x64_0_512_0

/-- Chunk 1: the query tile `v14` against key rows `kc` and value rows `vc`, from the carried buffers `s`. -/
def chunk1 (arg1 : BitVec 32) (v14 : FVec F S512x64 .bf16) (kc vc : Vec F S1x512x64 .f32) (s : St F) : St F :=
  ⟨k1_pay32 (k1_pay8 vc) (k1_pay11 arg1 v14 kc s.m s.m) (k1_pay12 arg1 v14 kc s.m) s.acc,
   k1_pay33 (k1_pay10 arg1 v14 kc s.m),
   k1_pay13 arg1 v14 kc s.m s.m s.l⟩

/-- Chunk 1 fed from the key block `x1` and the value block `x2`. -/
def step1 (arg1 : BitVec 32) (x0 : Vec F S1x512x64 .f32) (x1 x2 : Vec F S1x2048x64 .f32) (s : St F) : St F :=
  chunk1 arg1 (k1_pay29 x0) (View.ld x1 rows1) (View.ld x2 rows1) s

/-- Rows 1024 … 1024 + 511 of a [1, 2048, 64] block. -/
abbrev rows2 : Rect S1x2048x64 := Rect.unit (s := S1x2048x64) ![0, 1024, 0] S1x512x64.size inb_S1x2048x64_S1x512x64_0_1024_0

/-- Chunk 2: the query tile `v14` against key rows `kc` and value rows `vc`, from the carried buffers `s`. -/
def chunk2 (arg1 : BitVec 32) (v14 : FVec F S512x64 .bf16) (kc vc : Vec F S1x512x64 .f32) (s : St F) : St F :=
  ⟨k1_pay34 (k1_pay14 vc) (k1_pay17 arg1 v14 kc s.m s.m) (k1_pay18 arg1 v14 kc s.m) s.acc,
   k1_pay35 (k1_pay16 arg1 v14 kc s.m),
   k1_pay19 arg1 v14 kc s.m s.m s.l⟩

/-- Chunk 2 fed from the key block `x1` and the value block `x2`. -/
def step2 (arg1 : BitVec 32) (x0 : Vec F S1x512x64 .f32) (x1 x2 : Vec F S1x2048x64 .f32) (s : St F) : St F :=
  chunk2 arg1 (k1_pay29 x0) (View.ld x1 rows2) (View.ld x2 rows2) s

/-- Rows 1536 … 1536 + 511 of a [1, 2048, 64] block. -/
abbrev rows3 : Rect S1x2048x64 := Rect.unit (s := S1x2048x64) ![0, 1536, 0] S1x512x64.size inb_S1x2048x64_S1x512x64_0_1536_0

/-- Chunk 3: the query tile `v14` against key rows `kc` and value rows `vc`, from the carried buffers `s`. -/
def chunk3 (arg1 : BitVec 32) (v14 : FVec F S512x64 .bf16) (kc vc : Vec F S1x512x64 .f32) (s : St F) : St F :=
  ⟨k1_pay36 (k1_pay20 vc) (k1_pay23 arg1 v14 kc s.m s.m) (k1_pay24 arg1 v14 kc s.m) s.acc,
   k1_pay37 (k1_pay22 arg1 v14 kc s.m),
   k1_pay25 arg1 v14 kc s.m s.m s.l⟩

/-- Chunk 3 fed from the key block `x1` and the value block `x2`. -/
def step3 (arg1 : BitVec 32) (x0 : Vec F S1x512x64 .f32) (x1 x2 : Vec F S1x2048x64 .f32) (s : St F) : St F :=
  chunk3 arg1 (k1_pay29 x0) (View.ld x1 rows3) (View.ld x2 rows3) s

/-- The buffers after the first `n` chunks (n = 1 … 4). -/
def after (arg1 : BitVec 32) (x0 : Vec F S1x512x64 .f32) (x1 x2 : Vec F S1x2048x64 .f32) : Nat → St F
  | 0 => st0
  | 1 => step0 arg1 x0 x1 x2 st0
  | 2 => step1 arg1 x0 x1 x2 (step0 arg1 x0 x1 x2 st0)
  | 3 => step2 arg1 x0 x1 x2 (step1 arg1 x0 x1 x2 (step0 arg1 x0 x1 x2 st0))
  | _ => step3 arg1 x0 x1 x2 (step2 arg1 x0 x1 x2 (step1 arg1 x0 x1 x2 (step0 arg1 x0 x1 x2 st0)))

/-- The stored block: the weighted sum over the normaliser. -/
def result (s : St F) : Vec F S1x512x64 .f32 := k1_pay1 s.acc s.l

end Cert.KernelIdeal.Chain

end
-- ==== Proof.IdealRegion1Read.lean ====
/-
  The attention body's stored pieces read back: at a point whose query chunk is number k the output block is the weighted sum over the normaliser after the chain of k + 1 chunk maps from (0, -inf, 0).
-/
import proofs.«154606_j45561013076111_2_alg».proof.Proof.Chain
import proofs.«154606_j45561013076111_2_alg».proof.Proof.IdealRegion1Run0
import proofs.«154606_j45561013076111_2_alg».proof.Proof.IdealRegion1Run1
import proofs.«154606_j45561013076111_2_alg».proof.Proof.IdealRegion1Run2
import proofs.«154606_j45561013076111_2_alg».proof.Proof.IdealRegion1Run3
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! # What each case of the attention body leaves in the output block, as the chain of pure maps -/

private theorem zero3 : (![0, 0, 0] : Fin 3 → Nat) = fun _ => 0 := by funext a; fin_cases a <;> rfl
private theorem zero2 : (![0, 0] : Fin 2 → Nat) = fun _ => 0 := by funext a; fin_cases a <;> rfl

/-- A load of the whole shape after a list of stores whose last is a store of the whole shape reads that store's
    payload. -/
private theorem readCov_cons_whole {Val : EltTy → Type} [∀ e, Nonempty (Val e)] {S : Shape} {e : EltTy} {sg : RefSig} {κ : Kind} {sp : Space}
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

/-- With the query-chunk coordinate 0, the stored block is the chain's result after 1 key chunk: the one piece the
    run found is the store of the whole block, each scratch load reads the last store into that scratch buffer, and
    each load of the inputs reads the block's rows. -/
theorem out1_q0_read (c : Dev nD) (i : grid1.Coords) (hi : (i 1).val = 0)
    (arg2 : Memref sig .tc .vmem S1x512x64 .f32) (harg2 : arg2.IsWhole)
    (arg3 : Memref sig .tc .vmem S1x2048x64 .f32) (harg3 : arg3.IsWhole) (arg4 : Memref sig .tc .vmem S1x2048x64 .f32) (harg4 : arg4.IsWhole)
    (arg5 : Memref sig .tc .vmem S1x512x64 .f32) (harg5 : arg5.IsWhole)
    (x0 : Vec F S1x512x64 .f32) (x1 x2 : Vec F S1x2048x64 .f32) :
    View.canon (kernelRun1_q0 c i hi arg2 harg2 arg3 harg3 arg4 harg4 arg5 harg5 x0 x1 x2).1
      = Chain.result (Chain.after (BitVec.ofNat 32 (i 1).val) x0 x1 x2 1) := by
  unfold kernelRun1_q0
  dsimp only
  sl_unfold_words
  rw [View.canon_unit_zero zero3]
  repeat rw [readCov_cons_whole (S := S512x64) _ zero2]
  repeat rw [readCov_cons_whole (S := S512x1) _ zero2]
  simp only [View.readAt_eq_ld, harg2.read_unread, harg3.read_unread, harg4.read_unread, View.ld_unit_zero (S := S1x512x64) zero3]
  rfl

/-- With the query-chunk coordinate 1, the stored block is the chain's result after 2 key chunks: the one piece the
    run found is the store of the whole block, each scratch load reads the last store into that scratch buffer, and
    each load of the inputs reads the block's rows. -/
theorem out1_q1_read (c : Dev nD) (i : grid1.Coords) (hi : (i 1).val = 1)
    (arg2 : Memref sig .tc .vmem S1x512x64 .f32) (harg2 : arg2.IsWhole)
    (arg3 : Memref sig .tc .vmem S1x2048x64 .f32) (harg3 : arg3.IsWhole) (arg4 : Memref sig .tc .vmem S1x2048x64 .f32) (harg4 : arg4.IsWhole)
    (arg5 : Memref sig .tc .vmem S1x512x64 .f32) (harg5 : arg5.IsWhole)
    (x0 : Vec F S1x512x64 .f32) (x1 x2 : Vec F S1x2048x64 .f32) :
    View.canon (kernelRun1_q1 c i hi arg2 harg2 arg3 harg3 arg4 harg4 arg5 harg5 x0 x1 x2).1
      = Chain.result (Chain.after (BitVec.ofNat 32 (i 1).val) x0 x1 x2 2) := by
  unfold kernelRun1_q1
  dsimp only
  sl_unfold_words
  rw [View.canon_unit_zero zero3]
  repeat rw [readCov_cons_whole (S := S512x64) _ zero2]
  repeat rw [readCov_cons_whole (S := S512x1) _ zero2]
  simp only [View.readAt_eq_ld, harg2.read_unread, harg3.read_unread, harg4.read_unread, View.ld_unit_zero (S := S1x512x64) zero3]
  rfl

/-- With the query-chunk coordinate 2, the stored block is the chain's result after 3 key chunks: the one piece the
    run found is the store of the whole block, each scratch load reads the last store into that scratch buffer, and
    each load of the inputs reads the block's rows. -/
theorem out1_q2_read (c : Dev nD) (i : grid1.Coords) (hi : (i 1).val = 2)
    (arg2 : Memref sig .tc .vmem S1x512x64 .f32) (harg2 : arg2.IsWhole)
    (arg3 : Memref sig .tc .vmem S1x2048x64 .f32) (harg3 : arg3.IsWhole) (arg4 : Memref sig .tc .vmem S1x2048x64 .f32) (harg4 : arg4.IsWhole)
    (arg5 : Memref sig .tc .vmem S1x512x64 .f32) (harg5 : arg5.IsWhole)
    (x0 : Vec F S1x512x64 .f32) (x1 x2 : Vec F S1x2048x64 .f32) :
    View.canon (kernelRun1_q2 c i hi arg2 harg2 arg3 harg3 arg4 harg4 arg5 harg5 x0 x1 x2).1
      = Chain.result (Chain.after (BitVec.ofNat 32 (i 1).val) x0 x1 x2 3) := by
  unfold kernelRun1_q2
  dsimp only
  sl_unfold_words
  rw [View.canon_unit_zero zero3]
  repeat rw [readCov_cons_whole (S := S512x64) _ zero2]
  repeat rw [readCov_cons_whole (S := S512x1) _ zero2]
  simp only [View.readAt_eq_ld, harg2.read_unread, harg3.read_unread, harg4.read_unread, View.ld_unit_zero (S := S1x512x64) zero3]
  rfl

/-- With the query-chunk coordinate 3, the stored block is the chain's result after 4 key chunks: the one piece the
    run found is the store of the whole block, each scratch load reads the last store into that scratch buffer, and
    each load of the inputs reads the block's rows. -/
theorem out1_q3_read (c : Dev nD) (i : grid1.Coords) (hi : (i 1).val = 3)
    (arg2 : Memref sig .tc .vmem S1x512x64 .f32) (harg2 : arg2.IsWhole)
    (arg3 : Memref sig .tc .vmem S1x2048x64 .f32) (harg3 : arg3.IsWhole) (arg4 : Memref sig .tc .vmem S1x2048x64 .f32) (harg4 : arg4.IsWhole)
    (arg5 : Memref sig .tc .vmem S1x512x64 .f32) (harg5 : arg5.IsWhole)
    (x0 : Vec F S1x512x64 .f32) (x1 x2 : Vec F S1x2048x64 .f32) :
    View.canon (kernelRun1_q3 c i hi arg2 harg2 arg3 harg3 arg4 harg4 arg5 harg5 x0 x1 x2).1
      = Chain.result (Chain.after (BitVec.ofNat 32 (i 1).val) x0 x1 x2 4) := by
  unfold kernelRun1_q3
  dsimp only
  sl_unfold_words
  rw [View.canon_unit_zero zero3]
  repeat rw [readCov_cons_whole (S := S512x64) _ zero2]
  repeat rw [readCov_cons_whole (S := S512x1) _ zero2]
  simp only [View.readAt_eq_ld, harg2.read_unread, harg3.read_unread, harg4.read_unread, View.ld_unit_zero (S := S1x512x64) zero3]
  rfl

end Cert.KernelIdeal.Hand

end
-- ==== Proof.RefValue.lean ====
/-
  The reference's three results as functions of the argument arrays, index by index, on the extended reals:
  the keys and values are projections of `x`, and the output is, row by row, the softmax of the causally masked,
  scaled scores against the values.
-/
import proofs.«154606_j45561013076111_2_alg».proof.Proof.Gen.ReferenceIdeal.Read
import Idealize.ShloMosaic.Lib.ValueIdx
import Idealize.ShloMosaic.Lib.Pipeline.Value
import Idealize.ShloMosaic.PureOps.Ideal.Laws
import Idealize.ShloMosaic.Lib.StableHlo.Run
import Idealize.ShloMosaic.Lib.WordArith
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The functions the reference computes, index by index -/

/-- A projection: row `(b, t)` of `x` against column `h` of `w`. -/
def proj (x : S4x2048x1024.Idx → EReal) (w : S1024x64.Idx → EReal) : S4x2048x64.Idx → EReal :=
  fun i => ∑ k : Fin 1024, x (ix3 (i 0) (i 1) k) * w (ix2 k (i 2))

theorem proj_ix3 (x : S4x2048x1024.Idx → EReal) (w : S1024x64.Idx → EReal) (b : Fin 4) (t : Fin 2048) (h : Fin 64) :
    proj x w (ix3 b t h) = ∑ k : Fin 1024, x (ix3 b t k) * w (ix2 k h) := rfl

/-- The score's factor, the word of 1/32. -/
def scale : EReal := Ideal.ofBits .f32 0x3D000000#32

/-- Row `(b, q)` of the masked scores: the scaled product of query row `q` with key row `k` where `k ≤ q`, `⊥` elsewhere. -/
def srow (Q K : S4x2048x64.Idx → EReal) (b : Fin 4) (q : Fin 2048) : Fin 2048 → EReal :=
  fun k => if k ≤ q then (∑ h : Fin 64, Q (ix3 b q h) * K (ix3 b k h)) * scale else ⊥

/-- A row's maximum, from `⊥`. -/
def rowMax {n : Nat} (s : Fin n → EReal) : EReal := Finset.univ.fold max ⊥ s

/-- A row's softmax weights against a column: `Σ k, (exp (s k - max s) / Σ k', exp (s k' - max s)) · v k`. -/
def softmaxSum {n : Nat} (s v : Fin n → EReal) : EReal :=
  ∑ k : Fin n, Ideal.div (Ideal.exp (s k - rowMax s)) (∑ k' : Fin n, Ideal.exp (s k' - rowMax s)) * v k

/-- Causal attention of arbitrary arrays `Q`, `K`, `V`: at `(b, q, h)` the softmax of row `(b, q)` of the masked
    scores against column `h` of `V`'s batch `b`. -/
def attn (Q K V : S4x2048x64.Idx → EReal) : S4x2048x64.Idx → EReal :=
  fun i => softmaxSum (srow Q K (i 0) (i 1)) (fun k => V (ix3 (i 0) k (i 2)))

theorem attn_ix3 (Q K V : S4x2048x64.Idx → EReal) (b : Fin 4) (q : Fin 2048) (h : Fin 64) :
    attn Q K V (ix3 b q h)
      = ∑ k : Fin 2048, Ideal.div (Ideal.exp (srow Q K b q k - rowMax (srow Q K b q)))
          (∑ k' : Fin 2048, Ideal.exp (srow Q K b q k' - rowMax (srow Q K b q))) * V (ix3 b k h) := rfl

/-- A row's maximum is its supremum. -/
theorem rowMax_eq_sup {n : Nat} (s : Fin n → EReal) : rowMax s = Finset.univ.sup s := rfl

/-! ## Literals -/

theorem ofBits_neg_inf : Ideal.ofBits .f32 0xFF800000#32 = (⊥ : EReal) := by simp [Ideal.ofBits, Ideal.ieee]

/-! ## The projections -/

theorem proj_eq (x0 : (⟨S4x2048x1024, .f32⟩ : BufTy).Contents (Elt Ideal)) (w : (⟨S1024x64, .f32⟩ : BufTy).Contents (Elt Ideal)) :
    Host.dotGeneral (F := Ideal) (φ₁ := .f32) (φ₂ := .f32) dot_S4x2048x1024_S1024x64_S4x2048x64_2_0_01_1_n_n none x0 w = proj x0 w := by
  funext i
  refine (val_main_v0_apply x0 w i).trans ?_
  unfold proj
  refine Finset.sum_congr rfl fun k _ => ?_
  have el : lidx_main_v0 i k = ix3 (i 0) (i 1) k :=
    funext fun a => by match a with | ⟨0, _⟩ => rfl | ⟨1, _⟩ => rfl | ⟨2, _⟩ => rfl
  have er : ridx_main_v0 i k = ix2 k (i 2) :=
    funext fun a => by match a with | ⟨0, _⟩ => rfl | ⟨1, _⟩ => rfl
  exact congrArg₂ (· * ·) (congrArg x0 el) (congrArg w er)

section Stages

variable (x0 : (⟨S4x2048x1024, .f32⟩ : BufTy).Contents (Elt Ideal)) (x1 x2 x3 : (⟨S1024x64, .f32⟩ : BufTy).Contents (Elt Ideal))

theorem v0_eq : val_main_v0 (F := Ideal) x0 x1 = proj x0 x1 := proj_eq x0 x1
theorem v1_eq : val_main_v1 (F := Ideal) x0 x2 = proj x0 x2 := proj_eq x0 x2
theorem v2_eq : val_main_v2 (F := Ideal) x0 x3 = proj x0 x3 := proj_eq x0 x3

/-- The scaled scores. -/
theorem v5_apply (b : Fin 4) (q k : Fin 2048) :
    val_main_v5 (F := Ideal) x0 x1 x2 (ix3 b q k)
      = (∑ h : Fin 64, proj x0 x1 (ix3 b q h) * proj x0 x2 (ix3 b k h)) * scale := by
  rw [val_main_v5_apply, val_main_v3_apply, val_main_v4_apply, val_main_cst_apply, v0_eq, v1_eq]
  simp only [Ideal.mulf_def, Ideal.ofBits_def]
  unfold scale
  refine congrArg (· * _) (Finset.sum_congr rfl fun h _ => ?_)
  have el : lidx_main_v3 (ix3 b q k) h = ix3 b q h :=
    funext fun a => by match a with | ⟨0, _⟩ => rfl | ⟨1, _⟩ => rfl | ⟨2, _⟩ => rfl
  have er : ridx_main_v3 (ix3 b q k) h = ix3 b k h :=
    funext fun a => by match a with | ⟨0, _⟩ => rfl | ⟨1, _⟩ => rfl | ⟨2, _⟩ => rfl
  rw [el, er]

/-- The lower-triangular mask's bit. -/
theorem mask_apply (b : Fin 4) (q k : Fin 2048) :
    val_main_call1_v1 (F := Ideal) (ix3 b q k) = if k ≤ q then 1#1 else 0#1 := by
  rw [val_main_call1_v1_apply, val_main_v7_apply, val_main_call0_v4_apply, val_main_call0_v2_apply,
    val_main_call0_v0_apply, val_main_call0_v1_apply, val_main_call0_c_apply, val_main_call0_v3_apply,
    val_main_v6_apply, val_main_c_apply, val_main_call0_v5_apply, val_main_call0_c_0_apply]
  show Scalar.select (IntOp.cmpi .sge (IntOp.addi (BitVec.ofNat 32 q.val) 0#32) (BitVec.ofNat 32 k.val)) 1#1 0#1 = _
  have hq : (IntOp.addi (BitVec.ofNat 32 q.val) 0#32).toInt = q.val := by
    show (BitVec.ofNat 32 q.val + 0#32).toInt = _
    rw [BitVec.add_zero]; exact WordArith.toInt_ofNat_small _ (by have := q.isLt; omega)
  have hk : (BitVec.ofNat 32 k.val).toInt = k.val := WordArith.toInt_ofNat_small _ (by have := k.isLt; omega)
  by_cases hkq : k ≤ q
  · have hc : IntOp.cmpi .sge (IntOp.addi (BitVec.ofNat 32 q.val) 0#32) (BitVec.ofNat 32 k.val) = 1#1 :=
      IntOp.cmpi_sge.2 (by rw [hq, hk]; exact_mod_cast hkq)
    rw [if_pos hkq, hc, select_one]
  · have hc : IntOp.cmpi .sge (IntOp.addi (BitVec.ofNat 32 q.val) 0#32) (BitVec.ofNat 32 k.val) = 0#1 :=
      eq_zero_of_ne_one fun h => hkq (by have := IntOp.cmpi_sge.1 h; rw [hq, hk] at this; exact_mod_cast this)
    rw [if_neg hkq, hc, select_zero]

/-- The masked scores are the rows `srow`. -/
theorem v8_apply (b : Fin 4) (q k : Fin 2048) :
    val_main_v8 (F := Ideal) x0 x1 x2 (ix3 b q k) = srow (proj x0 x1) (proj x0 x2) b q k := by
  rw [val_main_v8_apply, mask_apply, v5_apply, val_main_call1_v2_apply, val_main_call1_v0_apply, val_main_cst_0_apply]
  unfold srow
  by_cases hkq : k ≤ q
  · rw [if_pos hkq, if_pos hkq, select_one]
  · rw [if_neg hkq, if_neg hkq, select_zero]; exact ofBits_neg_inf

end Stages

section Stages2

variable (x0 : (⟨S4x2048x1024, .f32⟩ : BufTy).Contents (Elt Ideal)) (x1 x2 x3 : (⟨S1024x64, .f32⟩ : BufTy).Contents (Elt Ideal))

/-- Row `(b, q)` with column `k` put back. -/
theorem lift_d2 (h : S4x2048x2048.Reduces [2] S4x2048) (b : Fin 4) (q : Fin 2048) (k : Fin (S4x2048x2048.size 2)) :
    h.lift (ix2 b q) k = (ix3 b q (⟨k.val, k.isLt⟩ : Fin 2048) : S4x2048x2048.Idx) := by
  funext c; apply Fin.ext
  fin_cases c <;> rfl

/-- The reduce with a maximum body, from `⊥`, is the row's maximum. -/
theorem v9_apply (b : Fin 4) (q : Fin 2048) :
    val_main_v9 (F := Ideal) x0 x1 x2 (ix2 b q) = rowMax (srow (proj x0 x1) (proj x0 x2) b q) := by
  unfold val_main_v9
  have hr : S4x2048x2048.Reduces [2] S4x2048 := by decide
  rw [Host.reduce_eq_fold_single FloatOps.maximumf _ _ reducesTo_S4x2048x2048_S4x2048_d2 hr h_S_, val_main_cst_1_apply]
  have hf : (val_main_v8 (F := Ideal) x0 x1 x2 ∘ hr.lift (ix2 b q)) = srow (proj x0 x1) (proj x0 x2) b q :=
    funext fun k => by
      show val_main_v8 (F := Ideal) x0 x1 x2 (hr.lift (ix2 b q) k) = _
      rw [lift_d2, v8_apply]
      rfl
  rw [hf, Ideal.ofBits_def, ofBits_neg_inf]
  rfl

theorem v11_apply (b : Fin 4) (q : Fin 2048) :
    val_main_v11 (F := Ideal) x0 x1 x2 (ix2 b q) = rowMax (srow (proj x0 x1) (proj x0 x2) b q) := by
  rw [val_main_v11_apply, val_main_v10_apply, val_main_cst_2_apply, v9_apply, Ideal.maximumf_def, Ideal.ofBits_def, ofBits_neg_inf]
  exact max_eq_right bot_le

theorem v15_apply (b : Fin 4) (q k : Fin 2048) :
    val_main_v15 (F := Ideal) x0 x1 x2 (ix3 b q k)
      = Ideal.exp (srow (proj x0 x1) (proj x0 x2) b q k - rowMax (srow (proj x0 x1) (proj x0 x2) b q)) := by
  have e : idx_main_v12 (idx_main_v13 (ix3 b q k)) = ix2 b q :=
    funext fun a => by match a with | ⟨0, _⟩ => rfl | ⟨1, _⟩ => rfl
  rw [val_main_v15_apply, val_main_v14_apply, val_main_v13_apply, val_main_v12_apply, e, v11_apply, v8_apply,
    Ideal.hostUnary_exp_def, Ideal.subf_def]

theorem v16_apply (b : Fin 4) (q : Fin 2048) :
    val_main_v16 (F := Ideal) x0 x1 x2 (ix2 b q)
      = ∑ k : Fin 2048, Ideal.exp (srow (proj x0 x1) (proj x0 x2) b q k - rowMax (srow (proj x0 x1) (proj x0 x2) b q)) := by
  rw [val_main_v16_apply, val_main_cst_3_apply, Ideal.ofBits_def, Ideal.ofBits_zero_f32, zero_add]
  refine Finset.sum_congr rfl fun k _ => ?_
  have e : idx_main_v16 (ix2 b q) k = ix3 b q k :=
    funext fun a => by match a with | ⟨0, _⟩ => rfl | ⟨1, _⟩ => rfl | ⟨2, _⟩ => rfl
  rw [e, v15_apply]

theorem v19_apply (b : Fin 4) (q k : Fin 2048) :
    val_main_v19 (F := Ideal) x0 x1 x2 (ix3 b q k)
      = Ideal.div (Ideal.exp (srow (proj x0 x1) (proj x0 x2) b q k - rowMax (srow (proj x0 x1) (proj x0 x2) b q)))
          (∑ k' : Fin 2048, Ideal.exp (srow (proj x0 x1) (proj x0 x2) b q k' - rowMax (srow (proj x0 x1) (proj x0 x2) b q))) := by
  have e : idx_main_v17 (idx_main_v18 (ix3 b q k)) = ix2 b q :=
    funext fun a => by match a with | ⟨0, _⟩ => rfl | ⟨1, _⟩ => rfl
  rw [val_main_v19_apply, val_main_v18_apply, val_main_v17_apply, e, v16_apply, v15_apply, Ideal.hostDivf_def]

theorem v20_eq : val_main_v20 (F := Ideal) x0 x1 x2 x3 = attn (proj x0 x1) (proj x0 x2) (proj x0 x3) := by
  funext i
  obtain ⟨b, q, h, rfl⟩ : ∃ (b : Fin 4) (q : Fin 2048) (h : Fin 64), i = ix3 b q h := ⟨i 0, i 1, i 2, eq_ix3 i⟩
  rw [val_main_v20_apply, attn_ix3, v2_eq]
  refine Finset.sum_congr rfl fun k _ => ?_
  have el : lidx_main_v20 (ix3 b q h) k = ix3 b q k :=
    funext fun a => by match a with | ⟨0, _⟩ => rfl | ⟨1, _⟩ => rfl | ⟨2, _⟩ => rfl
  have er : ridx_main_v20 (ix3 b q h) k = ix3 b k h :=
    funext fun a => by match a with | ⟨0, _⟩ => rfl | ⟨1, _⟩ => rfl | ⟨2, _⟩ => rfl
  rw [el, er, v19_apply]

end Stages2

/-! ## The reference's three results are these functions -/

theorem k_eq (m : (ℓ : Loc nD τ sig) → Buf (Elt Ideal) ℓ) (c : Dev nD) :
    Host.dotGeneral (F := Ideal) (φ₁ := .f32) (φ₂ := .f32) dot_S4x2048x1024_S1024x64_S4x2048x64_2_0_01_1_n_n none
        (m ((c.tc : Thread nD τ).loc main_arg0)) (m ((c.tc : Thread nD τ).loc main_arg2))
      = proj (m ((c.tc : Thread nD τ).loc main_arg0)) (m ((c.tc : Thread nD τ).loc main_arg2)) := proj_eq _ _

theorem v_eq (m : (ℓ : Loc nD τ sig) → Buf (Elt Ideal) ℓ) (c : Dev nD) :
    Host.dotGeneral (F := Ideal) (φ₁ := .f32) (φ₂ := .f32) dot_S4x2048x1024_S1024x64_S4x2048x64_2_0_01_1_n_n none
        (m ((c.tc : Thread nD τ).loc main_arg0)) (m ((c.tc : Thread nD τ).loc main_arg3))
      = proj (m ((c.tc : Thread nD τ).loc main_arg0)) (m ((c.tc : Thread nD τ).loc main_arg3)) := proj_eq _ _

theorem out_eq (m : (ℓ : Loc nD τ sig) → Buf (Elt Ideal) ℓ) (c : Dev nD) :
    Cert.ReferenceIdeal.Value.res_main_v20 (F := Ideal) m c
      = attn (proj (m ((c.tc : Thread nD τ).loc main_arg0)) (m ((c.tc : Thread nD τ).loc main_arg1)))
          (proj (m ((c.tc : Thread nD τ).loc main_arg0)) (m ((c.tc : Thread nD τ).loc main_arg2)))
          (proj (m ((c.tc : Thread nD τ).loc main_arg0)) (m ((c.tc : Thread nD τ).loc main_arg3))) :=
  (val_main_v20_eq (F := Ideal) m c).trans (v20_eq _ _ _ _)

/-- A projection at an index. -/
theorem proj_apply (x0 : (⟨S4x2048x1024, .f32⟩ : BufTy).Contents (Elt Ideal)) (w : (⟨S1024x64, .f32⟩ : BufTy).Contents (Elt Ideal))
    (b : Fin 4) (t : Fin 2048) (h : Fin 64) :
    Host.dotGeneral (F := Ideal) (φ₁ := .f32) (φ₂ := .f32) dot_S4x2048x1024_S1024x64_S4x2048x64_2_0_01_1_n_n none x0 w (ix3 b t h)
      = ∑ k : Fin 1024, x0 (ix3 b t k) * w (ix2 k h) :=
  congrFun (proj_eq x0 w) _

/-- The keys at an index (`proj_ix3` writes the sum out). -/
theorem k_apply (m : (ℓ : Loc nD τ sig) → Buf (Elt Ideal) ℓ) (c : Dev nD) (b : Fin 4) (t : Fin 2048) (h : Fin 64) :
    Host.dotGeneral (F := Ideal) (φ₁ := .f32) (φ₂ := .f32) dot_S4x2048x1024_S1024x64_S4x2048x64_2_0_01_1_n_n none
        (m ((c.tc : Thread nD τ).loc main_arg0)) (m ((c.tc : Thread nD τ).loc main_arg2)) (ix3 b t h)
      = proj (m ((c.tc : Thread nD τ).loc main_arg0)) (m ((c.tc : Thread nD τ).loc main_arg2)) (ix3 b t h) :=
  congrFun (k_eq m c) _

/-- The values at an index. -/
theorem v_apply (m : (ℓ : Loc nD τ sig) → Buf (Elt Ideal) ℓ) (c : Dev nD) (b : Fin 4) (t : Fin 2048) (h : Fin 64) :
    Host.dotGeneral (F := Ideal) (φ₁ := .f32) (φ₂ := .f32) dot_S4x2048x1024_S1024x64_S4x2048x64_2_0_01_1_n_n none
        (m ((c.tc : Thread nD τ).loc main_arg0)) (m ((c.tc : Thread nD τ).loc main_arg3)) (ix3 b t h)
      = proj (m ((c.tc : Thread nD τ).loc main_arg0)) (m ((c.tc : Thread nD τ).loc main_arg3)) (ix3 b t h) :=
  congrFun (v_eq m c) _

/-- The output at an index: the softmax of row `(b, q)` of the masked scores against column `h` of the values. -/
theorem out_apply (m : (ℓ : Loc nD τ sig) → Buf (Elt Ideal) ℓ) (c : Dev nD) (b : Fin 4) (q : Fin 2048) (h : Fin 64) :
    Cert.ReferenceIdeal.Value.res_main_v20 (F := Ideal) m c (ix3 b q h)
      = softmaxSum
          (srow (proj (m ((c.tc : Thread nD τ).loc main_arg0)) (m ((c.tc : Thread nD τ).loc main_arg1)))
            (proj (m ((c.tc : Thread nD τ).loc main_arg0)) (m ((c.tc : Thread nD τ).loc main_arg2))) b q)
          (fun k => proj (m ((c.tc : Thread nD τ).loc main_arg0)) (m ((c.tc : Thread nD τ).loc main_arg3)) (ix3 b k h)) :=
  congrFun (out_eq m c) _

/-- The reference's run with its three results named. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20)
          = attn (proj (m ((c.tc : Thread nD τ).loc main_arg0)) (m ((c.tc : Thread nD τ).loc main_arg1)))
              (proj (m ((c.tc : Thread nD τ).loc main_arg0)) (m ((c.tc : Thread nD τ).loc main_arg2)))
              (proj (m ((c.tc : Thread nD τ).loc main_arg0)) (m ((c.tc : Thread nD τ).loc main_arg3)))
      ∧ r.2.mem ((c.tc : Thread nD τ).loc main_v1)
          = proj (m ((c.tc : Thread nD τ).loc main_arg0)) (m ((c.tc : Thread nD τ).loc main_arg2))
      ∧ r.2.mem ((c.tc : Thread nD τ).loc main_v2)
          = proj (m ((c.tc : Thread nD τ).loc main_arg0)) (m ((c.tc : Thread nD τ).loc main_arg3)) :=
  (θ_run defs _ _).mono (fun _ h c => ⟨(h c).1.trans (out_eq m c), (h c).2.1.trans (k_eq m c), (h c).2.2.1.trans (v_eq m c)⟩)
    (Cert.ReferenceIdeal.Value.run (F := Ideal) m ρ)

end Cert.ReferenceIdeal.RefValue

end
-- ==== Proof.LibOnlineSoftmax.lean ====
/-
  The chunked ("online") softmax recurrence on one row equals the one-pass softmax-weighted sum,
  over the extended reals.

  A row of masked scores `S : Fin T → EReal` (each entry a real or `⊥`, at least one real in the
  first chunk, `⊥` from column `n * w` on) and real values `V` are read in `n` chunks of width `w`.
  The recurrence keeps a running maximum `m`, a normaliser `l` and a weighted sum `a`, both
  relative to `m`; a chunk with scores `s` and values `v` replaces them by

      new = max m (max s),   l' = exp (m - new) * l + Σ_j exp (s j - new),
      a'  = exp (m - new) * a + Σ_j exp (s j - new) * v j,   m' = new,

  from `(⊥, 0, 0)`, and the result is `a / l`. The one-pass form is
  `Σ_k (exp (S k - M) / Σ_k' exp (S k' - M)) * V k` with `M = max S`.

  The proof: after `c ≥ 1` chunks `m` is a real, the least upper bound of the scores seen, and
  `l = Σ exp (S k - m)`, `a = Σ exp (S k - m) * V k` over the columns seen, as real sums
  (`exp ⊥ = 0`; moving the reference point from `m` to `m'` multiplies every term by
  `exp (m - m')`). At the end `m = M`, the masked columns contribute `0`, the normaliser is
  positive, and the quotient of sums is the sum of quotients in `ℝ`.
-/
import Idealize.ShloMosaic.PureOps.Ideal
import Mathlib.Algebra.BigOperators.Fin
import Mathlib.Algebra.BigOperators.Ring.Finset
import Mathlib.Algebra.Order.BigOperators.Group.Finset
import Mathlib.Data.Finset.Fold

noncomputable section

namespace Cert.OnlineSoftmax

open Idealize.ShloMosaic
open scoped BigOperators

/-- The maximum of a finite row of extended reals, taken as the fold of `max` from `⊥`. -/
def rowMax {N : ℕ} (f : Fin N → EReal) : EReal := (Finset.univ : Finset (Fin N)).fold max (⊥ : EReal) f

/-- The running triple of the chunked recurrence for one row: the maximum so far, the
    normaliser and the weighted sum, both relative to that maximum. -/
structure State where
  m : EReal
  l : EReal
  a : EReal

/-- Before any chunk: maximum `⊥`, normaliser and weighted sum `0`. -/
def init : State := ⟨⊥, 0, 0⟩

/-- One chunk with scores `s` and values `v`: the new maximum is `max m (rowMax s)`; the old
    normaliser and weighted sum are rescaled by `exp (m - new)` and the chunk's terms
    `exp (s j - new)`, resp. `exp (s j - new) * v j`, are added. -/
def step {w : ℕ} (s v : Fin w → EReal) (st : State) : State where
  m := max st.m (rowMax s)
  l := Ideal.exp (st.m - max st.m (rowMax s)) * st.l + ∑ j, Ideal.exp (s j - max st.m (rowMax s))
  a := Ideal.exp (st.m - max st.m (rowMax s)) * st.a
        + ∑ j, Ideal.exp (s j - max st.m (rowMax s)) * v j

/-- The state after the first `n` chunks. -/
def run {w : ℕ} (score val : ℕ → Fin w → EReal) : ℕ → State
  | 0 => init
  | n + 1 => step (score n) (val n) (run score val n)

/-- The chunked result for the row: weighted sum over normaliser. -/
def kernelRow {w : ℕ} (score val : ℕ → Fin w → EReal) (n : ℕ) : EReal :=
  Ideal.div (run score val n).a (run score val n).l

/-- The one-pass result for the row: softmax weights against the values. -/
def refRow {T : ℕ} (S V : Fin T → EReal) : EReal :=
  ∑ k, Ideal.div (Ideal.exp (S k - rowMax S)) (∑ k', Ideal.exp (S k' - rowMax S)) * V k

/-- Chunk `c` of a row of length `T` cut into pieces of width `w` (`⊥` past the end). -/
def chunk {T w : ℕ} (f : Fin T → EReal) (c : ℕ) (j : Fin w) : EReal :=
  if h : c * w + j.val < T then f ⟨c * w + j.val, h⟩ else ⊥

theorem chunk_eq {T w : ℕ} (f : Fin T → EReal) (c : ℕ) (j : Fin w) (h : c * w + j.val < T) :
    chunk f c j = f ⟨c * w + j.val, h⟩ := dif_pos h

/-! ### Coercion of real sums -/

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ### The exponential weight of a score that is a real or `⊥`, as a real -/

/-- `exp (x - m)` as a real number: `0` at `x = ⊥`. -/
def E (x : EReal) (m : ℝ) : ℝ := if x = ⊥ then 0 else Real.exp (x.toReal - m)

theorem E_bot (m : ℝ) : E ⊥ m = 0 := if_pos rfl

theorem E_coe (r m : ℝ) : E (r : EReal) m = Real.exp (r - m) := by
  rw [E, if_neg (EReal.coe_ne_bot r), EReal.toReal_coe]

theorem E_nonneg (x : EReal) (m : ℝ) : 0 ≤ E x m := by
  unfold E; split_ifs
  · exact le_rfl
  · exact (Real.exp_pos _).le

/-- Changing the reference point from `m` to `m'` multiplies every weight by `exp (m - m')`. -/
theorem E_mul (x : EReal) (m m' : ℝ) : Real.exp (m - m') * E x m = E x m' := by
  unfold E; split_ifs
  · exact mul_zero _
  · rw [← Real.exp_add]; congr 1; ring

theorem exp_sub_coe {x : EReal} (hx : x ≠ ⊤) (m : ℝ) :
    Ideal.exp (x - (m : EReal)) = ((E x m : ℝ) : EReal) := by
  induction x with
  | bot => rw [EReal.bot_sub, Ideal.exp_bot, E_bot, EReal.coe_zero]
  | coe r => rw [← EReal.coe_sub, Ideal.exp_coe, E_coe]
  | top => exact absurd rfl hx

/-! ### The row maximum -/

theorem rowMax_le_iff {N : ℕ} (f : Fin N → EReal) (z : EReal) : rowMax f ≤ z ↔ ∀ k, f k ≤ z := by
  unfold rowMax
  rw [Finset.fold_max_le]
  exact ⟨fun h k => h.2 k (Finset.mem_univ k), fun h => ⟨bot_le, fun k _ => h k⟩⟩

theorem le_rowMax {N : ℕ} (f : Fin N → EReal) (k : Fin N) : f k ≤ rowMax f :=
  (rowMax_le_iff f _).1 le_rfl k

theorem rowMax_ne_top {N : ℕ} (f : Fin N → EReal) (h : ∀ k, f k ≠ ⊤) : rowMax f ≠ ⊤ := by
  rw [← lt_top_iff_ne_top]
  unfold rowMax
  rw [Finset.fold_max_lt]
  exact ⟨bot_lt_top, fun k _ => lt_top_iff_ne_top.2 (h k)⟩

/-! ### One chunk, on states whose entries are reals -/

section Step
variable {w : ℕ} (s v : Fin w → EReal) (st : State) (nr αr L A : ℝ) (vr : Fin w → ℝ)

theorem step_m_coe (hnew : max st.m (rowMax s) = (nr : EReal)) : (step s v st).m = (nr : EReal) := hnew

theorem step_l_coe (hnew : max st.m (rowMax s) = (nr : EReal))
    (hα : Ideal.exp (st.m - (nr : EReal)) = (αr : EReal)) (hl : st.l = (L : EReal))
    (hs : ∀ j, s j ≠ ⊤) :
    (step s v st).l = ((αr * L + ∑ j, E (s j) nr : ℝ) : EReal) := by
  show Ideal.exp (st.m - max st.m (rowMax s)) * st.l
      + ∑ j, Ideal.exp (s j - max st.m (rowMax s)) = _
  rw [hnew, hα, hl, EReal.coe_add, EReal.coe_mul, coe_sum]
  congr 1
  exact Finset.sum_congr rfl fun j _ => exp_sub_coe (hs j) nr

theorem step_a_coe (hnew : max st.m (rowMax s) = (nr : EReal))
    (hα : Ideal.exp (st.m - (nr : EReal)) = (αr : EReal)) (ha : st.a = (A : EReal))
    (hs : ∀ j, s j ≠ ⊤) (hv : ∀ j, v j = (vr j : EReal)) :
    (step s v st).a = ((αr * A + ∑ j, E (s j) nr * vr j : ℝ) : EReal) := by
  show Ideal.exp (st.m - max st.m (rowMax s)) * st.a
      + ∑ j, Ideal.exp (s j - max st.m (rowMax s)) * v j = _
  rw [hnew, hα, ha, EReal.coe_add, EReal.coe_mul, coe_sum]
  congr 1
  exact Finset.sum_congr rfl fun j _ => by rw [exp_sub_coe (hs j) nr, hv j, EReal.coe_mul]

end Step

/-! ### The invariant of the recurrence -/

theorem exists_coe_of_ne {x : EReal} (h1 : x ≠ ⊤) (h2 : x ≠ ⊥) : ∃ r : ℝ, x = (r : EReal) :=
  ⟨x.toReal, (EReal.coe_toReal h1 h2).symm⟩

section Run
variable {w : ℕ} (score val : ℕ → Fin w → EReal) (vr : ℕ → Fin w → ℝ)

/-- The normaliser of the first `n` chunks relative to the reference point `m`. -/
def Lsum (n : ℕ) (m : ℝ) : ℝ := ∑ c ∈ Finset.range n, ∑ j, E (score c j) m

/-- The weighted sum of the first `n` chunks relative to the reference point `m`. -/
def Asum (n : ℕ) (m : ℝ) : ℝ := ∑ c ∈ Finset.range n, ∑ j, E (score c j) m * vr c j

theorem Lsum_rescale (n : ℕ) (m m' : ℝ) : Real.exp (m - m') * Lsum score n m = Lsum score n m' := by
  unfold Lsum
  rw [Finset.mul_sum]
  refine Finset.sum_congr rfl fun c _ => ?_
  rw [Finset.mul_sum]
  exact Finset.sum_congr rfl fun j _ => E_mul _ _ _

theorem Asum_rescale (n : ℕ) (m m' : ℝ) :
    Real.exp (m - m') * Asum score vr n m = Asum score vr n m' := by
  unfold Asum
  rw [Finset.mul_sum]
  refine Finset.sum_congr rfl fun c _ => ?_
  rw [Finset.mul_sum]
  exact Finset.sum_congr rfl fun j _ => by rw [← mul_assoc, E_mul]

/-- After `n ≥ 1` chunks the running maximum is the real `mr`, the least upper bound of the scores
    seen, and the normaliser and weighted sum are the real sums relative to `mr`. -/
structure Inv (n : ℕ) (mr : ℝ) : Prop where
  hm : (run score val n).m = (mr : EReal)
  hl : (run score val n).l = ((Lsum score n mr : ℝ) : EReal)
  ha : (run score val n).a = ((Asum score vr n mr : ℝ) : EReal)
  hle : ∀ z : EReal, (mr : EReal) ≤ z ↔ ∀ c, c < n → ∀ j, score c j ≤ z

theorem run_inv (N : ℕ) (hs : ∀ c, c < N → ∀ j, score c j ≠ ⊤)
    (hv : ∀ c, c < N → ∀ j, val c j = (vr c j : EReal))
    (h0 : ∃ j : Fin w, ∃ r : ℝ, score 0 j = (r : EReal)) :
    ∀ n, n < N → ∃ mr : ℝ, Inv score val vr (n + 1) mr := by
  intro n
  induction n with
  | zero =>
    intro hN
    obtain ⟨j0, r0, hj0⟩ := h0
    have hne_top : rowMax (score 0) ≠ ⊤ := rowMax_ne_top _ (hs 0 hN)
    have hne_bot : rowMax (score 0) ≠ ⊥ := by
      intro hb
      have h := le_rowMax (score 0) j0
      rw [hb, hj0] at h
      exact absurd (le_bot_iff.1 h) (EReal.coe_ne_bot r0)
    obtain ⟨nr, hnr⟩ := exists_coe_of_ne hne_top hne_bot
    have hnew : max init.m (rowMax (score 0)) = (nr : EReal) := by
      show max ⊥ (rowMax (score 0)) = _
      rw [max_bot_left]; exact hnr
    have hα : Ideal.exp (init.m - (nr : EReal)) = ((0 : ℝ) : EReal) := by
      show Ideal.exp (⊥ - (nr : EReal)) = _
      rw [EReal.bot_sub, Ideal.exp_bot, EReal.coe_zero]
    have hz : (0 : EReal) = ((0 : ℝ) : EReal) := EReal.coe_zero.symm
    refine ⟨nr, ⟨hnew, ?_, ?_, ?_⟩⟩
    · show (step (score 0) (val 0) init).l = _
      rw [step_l_coe (score 0) (val 0) init nr 0 0 hnew hα hz (hs 0 hN)]
      congr 1
      simp [Lsum]
    · show (step (score 0) (val 0) init).a = _
      rw [step_a_coe (score 0) (val 0) init nr 0 0 (vr 0) hnew hα hz (hs 0 hN) (hv 0 hN)]
      congr 1
      simp [Asum]
    · intro z
      rw [← hnr, rowMax_le_iff]
      constructor
      · intro h c hc j
        have : c = 0 := by omega
        subst this; exact h j
      · intro h j; exact h 0 (by omega) j
  | succ n ih =>
    intro hN
    obtain ⟨mr, hinv⟩ := ih (by omega)
    have hcur_top : rowMax (score (n + 1)) ≠ ⊤ := rowMax_ne_top _ (hs (n + 1) hN)
    have hnew_top : max (mr : EReal) (rowMax (score (n + 1))) ≠ ⊤ := by
      rw [← lt_top_iff_ne_top, max_lt_iff]
      exact ⟨EReal.coe_lt_top mr, lt_top_iff_ne_top.2 hcur_top⟩
    have hnew_bot : max (mr : EReal) (rowMax (score (n + 1))) ≠ ⊥ := by
      intro hb
      have h := le_max_left (mr : EReal) (rowMax (score (n + 1)))
      rw [hb] at h
      exact absurd (le_bot_iff.1 h) (EReal.coe_ne_bot mr)
    obtain ⟨nr, hnr⟩ := exists_coe_of_ne hnew_top hnew_bot
    have hnew : max (run score val (n + 1)).m (rowMax (score (n + 1))) = (nr : EReal) := by
      rw [hinv.hm]; exact hnr
    have hα : Ideal.exp ((run score val (n + 1)).m - (nr : EReal))
        = ((Real.exp (mr - nr) : ℝ) : EReal) := by
      rw [hinv.hm, ← EReal.coe_sub, Ideal.exp_coe]
    refine ⟨nr, ⟨hnew, ?_, ?_, ?_⟩⟩
    · show (step (score (n + 1)) (val (n + 1)) (run score val (n + 1))).l = _
      rw [step_l_coe _ _ _ nr _ _ hnew hα hinv.hl (hs (n + 1) hN), Lsum_rescale]
      congr 1
      exact (Finset.sum_range_succ _ (n + 1)).symm
    · show (step (score (n + 1)) (val (n + 1)) (run score val (n + 1))).a = _
      rw [step_a_coe _ _ _ nr _ _ (vr (n + 1)) hnew hα hinv.ha (hs (n + 1) hN) (hv (n + 1) hN),
        Asum_rescale]
      congr 1
      exact (Finset.sum_range_succ _ (n + 1)).symm
    · intro z
      rw [← hnr, max_le_iff, hinv.hle, rowMax_le_iff]
      constructor
      · rintro ⟨h1, h2⟩ c hc j
        rcases Nat.lt_succ_iff_lt_or_eq.1 hc with h | h
        · exact h1 c h j
        · subst h; exact h2 j
      · intro h
        exact ⟨fun c hc j => h c (by omega) j, fun j => h (n + 1) (by omega) j⟩

end Run

/-! ### Cutting a sum over a row into chunks -/

theorem chunk_lt {T w n c : ℕ} (hT : n * w ≤ T) (hc : c < n) (j : Fin w) : c * w + j.val < T := by
  have h1 : (c + 1) * w ≤ n * w := Nat.mul_le_mul_right w hc
  have h2 : (c + 1) * w = c * w + w := by ring
  have h3 := j.isLt
  omega

theorem index_split {T w n : ℕ} (hw : 0 < w) (k : Fin T) (hk : k.val < n * w) :
    ∃ c, c < n ∧ ∃ j : Fin w, ∃ h : c * w + j.val < T, k = ⟨c * w + j.val, h⟩ :=
  ⟨k.val / w, (Nat.div_lt_iff_lt_mul hw).2 hk, ⟨k.val % w, Nat.mod_lt _ hw⟩,
    by rw [Nat.div_add_mod']; exact k.isLt, Fin.ext (Nat.div_add_mod' _ _).symm⟩

theorem sum_range_mul (G : ℕ → ℝ) (w n : ℕ) :
    ∑ k ∈ Finset.range (n * w), G k
      = ∑ c ∈ Finset.range n, ∑ j ∈ Finset.range w, G (c * w + j) := by
  induction n with
  | zero => simp
  | succ n ih => rw [add_mul, one_mul, Finset.sum_range_add, ih, Finset.sum_range_succ]

theorem sum_fin_chunks {T : ℕ} (w n : ℕ) (hT : n * w ≤ T) (G : ℕ → ℝ)
    (hz : ∀ k, n * w ≤ k → k < T → G k = 0) :
    ∑ k : Fin T, G k.val = ∑ c ∈ Finset.range n, ∑ j : Fin w, G (c * w + j.val) := by
  rw [Fin.sum_univ_eq_sum_range G T]
  obtain ⟨d, rfl⟩ := Nat.exists_eq_add_of_le hT
  rw [Finset.sum_range_add, sum_range_mul]
  have hrest : ∑ x ∈ Finset.range d, G (n * w + x) = 0 :=
    Finset.sum_eq_zero fun x hx =>
      hz _ (Nat.le_add_right _ _) (by have := Finset.mem_range.1 hx; omega)
  rw [hrest, add_zero]
  refine Finset.sum_congr rfl fun c _ => ?_
  exact (Fin.sum_univ_eq_sum_range (fun j => G (c * w + j)) w).symm

/-- A sum over a row of length `T` whose terms vanish from `n * w` on is the sum over its first `n`
    chunks of width `w`. -/
theorem sum_fin_eq_chunks {T w n : ℕ} (hT : n * w ≤ T) (g : Fin T → ℝ) (g' : ℕ → Fin w → ℝ)
    (hg : ∀ c, c < n → ∀ (j : Fin w) (h : c * w + j.val < T), g ⟨c * w + j.val, h⟩ = g' c j)
    (hz : ∀ k : Fin T, n * w ≤ k.val → g k = 0) :
    ∑ k, g k = ∑ c ∈ Finset.range n, ∑ j, g' c j := by
  have hG : ∀ k : Fin T, (if h : k.val < T then g ⟨k.val, h⟩ else 0) = g k := fun k => by
    rw [dif_pos k.isLt]
  calc ∑ k, g k
      = ∑ k : Fin T, (fun k : ℕ => if h : k < T then g ⟨k, h⟩ else 0) k.val :=
        Finset.sum_congr rfl fun k _ => (hG k).symm
    _ = ∑ c ∈ Finset.range n, ∑ j : Fin w,
          (fun k : ℕ => if h : k < T then g ⟨k, h⟩ else 0) (c * w + j.val) :=
        sum_fin_chunks w n hT _ fun k hk hkT => by
          show (if h : k < T then g ⟨k, h⟩ else 0) = 0
          rw [dif_pos hkT]; exact hz ⟨k, hkT⟩ hk
    _ = ∑ c ∈ Finset.range n, ∑ j, g' c j :=
        Finset.sum_congr rfl fun c hc => Finset.sum_congr rfl fun j _ => by
          have hlt : c * w + j.val < T := chunk_lt hT (Finset.mem_range.1 hc) j
          show (if h : c * w + j.val < T then g ⟨c * w + j.val, h⟩ else 0) = g' c j
          rw [dif_pos hlt]; exact hg c (Finset.mem_range.1 hc) j hlt

/-! ### The chunked recurrence computes the one-pass softmax-weighted sum -/

theorem kernelRow_eq_refRow {w T : ℕ} (n : ℕ) (hn : 0 < n) (hT : n * w ≤ T)
    (score val : ℕ → Fin w → EReal) (S V : Fin T → EReal)
    (hS : ∀ c, c < n → ∀ (j : Fin w) (h : c * w + j.val < T), S ⟨c * w + j.val, h⟩ = score c j)
    (hV : ∀ c, c < n → ∀ (j : Fin w) (h : c * w + j.val < T), V ⟨c * w + j.val, h⟩ = val c j)
    (hbot : ∀ k : Fin T, n * w ≤ k.val → S k = ⊥)
    (htop : ∀ k : Fin T, S k ≠ ⊤)
    (h0 : ∃ j : Fin w, ∃ r : ℝ, score 0 j = (r : EReal))
    (hVr : ∀ k : Fin T, ∃ r : ℝ, V k = (r : EReal)) :
    kernelRow score val n = refRow S V := by
  obtain ⟨n', rfl⟩ : ∃ n', n = n' + 1 := ⟨n - 1, by omega⟩
  have hw : 0 < w := by
    obtain ⟨j, _⟩ := h0
    exact lt_of_le_of_lt (Nat.zero_le _) j.isLt
  have hVr' : ∀ k, V k = ((V k).toReal : EReal) := fun k => by
    obtain ⟨r, hr⟩ := hVr k
    rw [hr, EReal.toReal_coe]
  have hs : ∀ c, c < n' + 1 → ∀ j, score c j ≠ ⊤ := fun c hc j => by
    rw [← hS c hc j (chunk_lt hT hc j)]; exact htop _
  have hv : ∀ c, c < n' + 1 → ∀ j, val c j = (((val c j).toReal : ℝ) : EReal) := fun c hc j => by
    rw [← hV c hc j (chunk_lt hT hc j)]; exact hVr' _
  obtain ⟨mr, hinv⟩ :=
    run_inv score val (fun c j => (val c j).toReal) (n' + 1) hs hv h0 n' (Nat.lt_succ_self n')
  -- the two maxima agree
  have hM : rowMax S = (mr : EReal) := by
    refine eq_of_forall_ge_iff fun z => ?_
    rw [rowMax_le_iff, hinv.hle]
    constructor
    · intro h c hc j
      rw [← hS c hc j (chunk_lt hT hc j)]; exact h _
    · intro h k
      by_cases hk : k.val < (n' + 1) * w
      · obtain ⟨c, hc, j, hlt, rfl⟩ := index_split hw k hk
        rw [hS c hc j hlt]; exact h c hc j
      · rw [hbot k (not_lt.1 hk)]; exact bot_le
  -- the normalisers and the weighted sums agree
  have hL : ∑ k, E (S k) mr = Lsum score (n' + 1) mr :=
    sum_fin_eq_chunks hT (fun k => E (S k) mr) (fun c j => E (score c j) mr)
      (fun c hc j h => by simp only [hS c hc j h])
      (fun k hk => by simp only [hbot k hk, E_bot])
  have hA : ∑ k, E (S k) mr * (V k).toReal
      = Asum score (fun c j => (val c j).toReal) (n' + 1) mr :=
    sum_fin_eq_chunks hT (fun k => E (S k) mr * (V k).toReal)
      (fun c j => E (score c j) mr * (val c j).toReal)
      (fun c hc j h => by simp only [hS c hc j h, hV c hc j h])
      (fun k hk => by simp only [hbot k hk, E_bot, zero_mul])
  -- the normaliser is positive
  have hLpos : 0 < Lsum score (n' + 1) mr := by
    rw [← hL]
    obtain ⟨j0, r0, hj0⟩ := h0
    have hlt := chunk_lt hT (Nat.succ_pos n') j0
    refine Finset.sum_pos' (fun k _ => E_nonneg _ _) ⟨⟨0 * w + j0.val, hlt⟩, Finset.mem_univ _, ?_⟩
    rw [hS 0 (Nat.succ_pos n') j0 hlt, hj0, E_coe]
    exact Real.exp_pos _
  have hLne : Lsum score (n' + 1) mr ≠ 0 := hLpos.ne'
  -- the chunked side as a real
  have hK : kernelRow score val (n' + 1)
      = ((Asum score (fun c j => (val c j).toReal) (n' + 1) mr
          * (1 / Lsum score (n' + 1) mr) : ℝ) : EReal) := by
    unfold kernelRow
    rw [hinv.ha, hinv.hl, Ideal.div_coe hLne, ← EReal.coe_mul]
  -- the one-pass side as a real
  have hR : refRow S V
      = ((∑ k, E (S k) mr * (1 / Lsum score (n' + 1) mr) * (V k).toReal : ℝ) : EReal) := by
    unfold refRow
    have hden : ∑ k', Ideal.exp (S k' - (mr : EReal)) = ((Lsum score (n' + 1) mr : ℝ) : EReal) := by
      rw [← hL, coe_sum]
      exact Finset.sum_congr rfl fun k _ => exp_sub_coe (htop k) mr
    rw [hM, hden, coe_sum]
    refine Finset.sum_congr rfl fun k _ => ?_
    obtain ⟨r, hr⟩ := hVr k
    rw [exp_sub_coe (htop k) mr, Ideal.div_coe hLne, ← EReal.coe_mul, hr, EReal.toReal_coe,
      ← EReal.coe_mul]
  rw [hK, hR, ← hA, Finset.sum_mul]
  congr 1
  exact Finset.sum_congr rfl fun k _ => by ring

/-- The same with the chunks read off the row itself. -/
theorem kernelRow_chunk_eq_refRow {w T : ℕ} (n : ℕ) (hn : 0 < n) (hw : 0 < w) (hT : n * w ≤ T)
    (S V : Fin T → EReal)
    (hbot : ∀ k : Fin T, n * w ≤ k.val → S k = ⊥)
    (htop : ∀ k : Fin T, S k ≠ ⊤)
    (h0 : ∃ r : ℝ, S ⟨0, lt_of_lt_of_le (Nat.mul_pos hn hw) hT⟩ = (r : EReal))
    (hVr : ∀ k : Fin T, ∃ r : ℝ, V k = (r : EReal)) :
    kernelRow (chunk (w := w) S) (chunk (w := w) V) n = refRow S V := by
  refine kernelRow_eq_refRow n hn hT _ _ S V (fun c _ j h => (chunk_eq S c j h).symm)
    (fun c _ j h => (chunk_eq V c j h).symm) hbot htop ?_ hVr
  obtain ⟨r, hr⟩ := h0
  have hlt : 0 * w + (⟨0, hw⟩ : Fin w).val < T := by
    have := lt_of_lt_of_le (Nat.mul_pos hn hw) hT
    simpa using this
  refine ⟨⟨0, hw⟩, r, ?_⟩
  rw [chunk_eq S 0 ⟨0, hw⟩ hlt, ← hr]
  exact congrArg S (Fin.ext (by simp))

example (S V : Fin 2048 → EReal) (n : ℕ) (hn : 0 < n) (hn4 : n ≤ 4)
    (hbot : ∀ k : Fin 2048, n * 512 ≤ k.val → S k = ⊥)
    (htop : ∀ k : Fin 2048, S k ≠ ⊤)
    (h0 : ∃ r : ℝ, S 0 = (r : EReal))
    (hVr : ∀ k : Fin 2048, ∃ r : ℝ, V k = (r : EReal)) :
    kernelRow (chunk (w := 512) S) (chunk (w := 512) V) n = refRow S V :=
  kernelRow_chunk_eq_refRow n hn (by norm_num) (by omega) S V hbot htop h0 hVr

/-! ### The definitions unfolded, and the same terms with an explicit zero accumulator -/

section Forms
variable {w : ℕ} (score val : ℕ → Fin w → EReal) (s v : Fin w → EReal) (st : State)

theorem rowMax_def {N : ℕ} (f : Fin N → EReal) :
    rowMax f = (Finset.univ : Finset (Fin N)).fold max (⊥ : EReal) f := rfl

theorem run_zero : run score val 0 = init := rfl

theorem run_succ (n : ℕ) : run score val (n + 1) = step (score n) (val n) (run score val n) := rfl

theorem init_m : init.m = ⊥ := rfl
theorem init_l : init.l = 0 := rfl
theorem init_a : init.a = 0 := rfl

theorem step_m : (step s v st).m = max st.m (rowMax s) := rfl

theorem step_l : (step s v st).l
    = Ideal.exp (st.m - max st.m (rowMax s)) * st.l + ∑ j, Ideal.exp (s j - max st.m (rowMax s)) := rfl

theorem step_a : (step s v st).a
    = Ideal.exp (st.m - max st.m (rowMax s)) * st.a
      + ∑ j, Ideal.exp (s j - max st.m (rowMax s)) * v j := rfl

/-- The normaliser's update with the chunk's sum taken from a zero accumulator. -/
theorem step_l_zero_add : (step s v st).l
    = Ideal.exp (st.m - max st.m (rowMax s)) * st.l
      + (0 + ∑ j, Ideal.exp (s j - max st.m (rowMax s))) := by
  rw [zero_add]; rfl

/-- The weighted sum's update with the chunk's product taken from a zero accumulator. -/
theorem step_a_zero_add : (step s v st).a
    = Ideal.exp (st.m - max st.m (rowMax s)) * st.a
      + (0 + ∑ j, Ideal.exp (s j - max st.m (rowMax s)) * v j) := by
  rw [zero_add]; rfl

theorem kernelRow_def (n : ℕ) :
    kernelRow score val n = Ideal.div (run score val n).a (run score val n).l := rfl

theorem refRow_def {T : ℕ} (S V : Fin T → EReal) : refRow S V
    = ∑ k, Ideal.div (Ideal.exp (S k - rowMax S)) (∑ k', Ideal.exp (S k' - rowMax S)) * V k := rfl

/-- The one-pass result with the maximum joined with `⊥` once more and both sums taken from zero. -/
theorem refRow_zero_add {T : ℕ} (S V : Fin T → EReal) : refRow S V
    = 0 + ∑ k, Ideal.div (Ideal.exp (S k - max ⊥ (rowMax S)))
        (0 + ∑ k', Ideal.exp (S k' - max ⊥ (rowMax S))) * V k := by
  simp only [zero_add, max_bot_left]; rfl

end Forms

end Cert.OnlineSoftmax

end
-- ==== Proof.RowAttn.lean ====
/-
  One row of causal attention, read off the blocks one grid point sees: the query block's row `p` of block `qi`
  against the whole key and value blocks of batch `b` gives, through the row formula, the array-level attention at
  `(b, qi·512 + p, h)`.
-/
import proofs.«154606_j45561013076111_2_alg».proof.KernelIdeal
import proofs.«154606_j45561013076111_2_alg».proof.Proof.RefValue
import proofs.«154606_j45561013076111_2_alg».proof.Proof.LibOnlineSoftmax

noncomputable section

namespace Cert.RowAttn

open Idealize.ShloMosaic Idealize.ShloMosaic.ValueIdx Cert.ReferenceIdeal.RefValue

/-- The row formula over a point's blocks is the attention of the arrays: the masked, scaled scores of the block row
    are row `(b, qi·512 + p)` of the arrays' masked scores (the order on `Fin 2048` is the order of the values), the
    value column is the arrays', and the two row maxima are one fold. -/
theorem refRow_attn (Q K V : Cert.ReferenceIdeal.S4x2048x64.Idx → EReal) (x0 : Cert.KernelIdeal.S1x512x64.Idx → EReal)
    (x1 x2 : Cert.KernelIdeal.S1x2048x64.Idx → EReal) (b : Fin 4) (qi : ℕ) (p : Fin 512) (h : Fin 64)
    (hr : qi * 512 + p.val < 2048)
    (hx0 : ∀ h' : Fin 64, x0 (ix3 0 p h') = Q (ix3 b ⟨qi * 512 + p.val, hr⟩ h'))
    (hx1 : ∀ (k : Fin 2048) (h' : Fin 64), x1 (ix3 0 k h') = K (ix3 b k h'))
    (hx2 : ∀ k : Fin 2048, x2 (ix3 0 k h) = V (ix3 b k h)) :
    Cert.OnlineSoftmax.refRow
        (fun k : Fin 2048 => if k.val ≤ qi * 512 + p.val
          then (∑ h' : Fin 64, x0 (ix3 0 p h') * x1 (ix3 0 k h')) * Ideal.ofBits .f32 0x3D000000#32 else ⊥)
        (fun k : Fin 2048 => x2 (ix3 0 k h))
      = attn Q K V (ix3 b ⟨qi * 512 + p.val, hr⟩ h) := by
  have hs : (fun k : Fin 2048 => if k.val ≤ qi * 512 + p.val
        then (∑ h' : Fin 64, x0 (ix3 0 p h') * x1 (ix3 0 k h')) * Ideal.ofBits .f32 0x3D000000#32 else (⊥ : EReal))
      = srow Q K b ⟨qi * 512 + p.val, hr⟩ := by
    funext k
    unfold srow scale
    by_cases hk : k.val ≤ qi * 512 + p.val
    · rw [if_pos hk, if_pos (show k ≤ (⟨qi * 512 + p.val, hr⟩ : Fin 2048) from hk)]
      exact congrArg (· * _) (Finset.sum_congr rfl fun h' _ => by rw [hx0, hx1])
    · rw [if_neg hk, if_neg (show ¬k ≤ (⟨qi * 512 + p.val, hr⟩ : Fin 2048) from hk)]
  have hv : (fun k : Fin 2048 => x2 (ix3 0 k h)) = fun k : Fin 2048 => V (ix3 b k h) := funext fun k => hx2 k
  refine (congrArg₂ Cert.OnlineSoftmax.refRow hs hv).trans ?_
  rw [attn_ix3]
  rfl

end Cert.RowAttn

end
-- ==== Proof.Payloads1.lean ====
/-
  The attention body's pure terms read at an index over the extended reals: the constants, the causal mask's bit, the two products, and one chunk of the recurrence at a row.
-/
import proofs.«154606_j45561013076111_2_alg».proof.Proof.Gen.KernelIdeal.Skeleton
import proofs.«154606_j45561013076111_2_alg».proof.Proof.Chain
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.Payloads1

open Idealize.ShloMosaic Idealize.ShloMosaic.ValueIdx Cert.KernelIdeal Cert.KernelIdeal.Gen
open scoped BigOperators

/-! ## Column forms of the layout operations -/

/-- A vector `[a]` cast to a column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The constants -/

theorem ofBits_neg_inf_f32 : Ideal.ofBits .f32 0xFF800000#32 = ⊥ := by simp [Ideal.ofBits, Ideal.ieee]

/-- The fill of the masked scores is the bottom element. -/
theorem neg_big_eq : Named.named (F := Ideal) κ "neg_big" (φ := .f32) 0xFF333332#32 = (⊥ : EReal) :=
  IdealRules.named_const.ideal_named_scalar _ _ _ _ rfl

/-- The accumulator starts at zero. -/
theorem pay26_apply (p : Fin 512) (h : Fin 64) : k1_pay26 (F := Ideal) (ix2 p h) = 0 := by
  unfold k1_pay26
  rw [shapeCast_self]
  exact Ideal.ofBits_zero_f32

/-- The running maximum starts at the bottom element. -/
theorem pay27_apply (p : Fin 512) (u : Fin 1) : k1_pay27 (F := Ideal) (ix2 p u) = ⊥ := by
  unfold k1_pay27
  rw [shapeCast_self]
  exact ofBits_neg_inf_f32

/-- The running denominator starts at zero. -/
theorem pay28_apply (p : Fin 512) (u : Fin 1) : k1_pay28 (F := Ideal) (ix2 p u) = 0 := by
  unfold k1_pay28
  rw [shapeCast_self]
  exact Ideal.ofBits_zero_f32

/-- The query tile, with its leading unit axis dropped. -/
theorem pay29_apply (v12 : Vec Ideal S1x512x64 .f32) (p : Fin 512) (h : Fin 64) :
    k1_pay29 (F := Ideal) v12 (ix2 p h) = v12 (ix3 0 p h) := by
  unfold k1_pay29
  exact shapeCast_1ab_ab_apply v12 _ p h

/-- The value rows of a chunk, with the leading unit axis dropped. -/
theorem pay2_apply (v37 : Vec Ideal S1x512x64 .f32) (j : Fin 512) (h : Fin 64) :
    k1_pay2 (F := Ideal) v37 (ix2 j h) = v37 (ix3 0 j h) := by
  unfold k1_pay2
  exact shapeCast_1ab_ab_apply v37 _ j h

/-- The new maximum is stored as it is. -/
theorem pay31_eq (v57 : FVec Ideal S512x1 .f32) : k1_pay31 (F := Ideal) v57 = v57 := by
  unfold k1_pay31
  exact shapeCast_self _ _

/-- The result tile: the accumulator divided by the denominator of its row. -/
theorem pay1_apply (v27 : Vec Ideal S512x64 .f32) (v28 : Vec Ideal S512x1 .f32) (p : Fin 512) (h : Fin 64) :
    k1_pay1 (F := Ideal) v27 v28 (ix3 0 p h) = Ideal.div (v27 (ix2 p h)) (v28 (ix2 p 0)) := by
  unfold k1_pay1
  refine (shapeCast_ab_1ab_apply _ _ 0 p h).trans ?_
  rw [divf_apply]
  exact congrArg (Ideal.div (v27 (ix2 p h))) (broadcastTo_a1_ab_apply v28 _ p h)

/-! ## The causal mask's words -/

/-- Below `2 ^ 31` the signed order of two 32-bit words is the order of the numbers. -/
theorem sle_ofNat (a b : ℕ) (ha : a < 2 ^ 31) (hb : b < 2 ^ 31) :
    (BitVec.ofNat 32 a).sle (BitVec.ofNat 32 b) = decide (a ≤ b) := by
  have ea : (BitVec.ofNat 32 a).toInt = (a : ℤ) := by
    rw [BitVec.toInt_eq_toNat_of_lt (by rw [BitVec.toNat_ofNat]; omega), BitVec.toNat_ofNat]
    congr 1; omega
  have eb : (BitVec.ofNat 32 b).toInt = (b : ℤ) := by
    rw [BitVec.toInt_eq_toNat_of_lt (by rw [BitVec.toNat_ofNat]; omega), BitVec.toNat_ofNat]
    congr 1; omega
  rw [BitVec.sle, ea, eb]
  simp

/-- The mask's bit at row `p`, column `j` of query tile `qi` against the key chunk at offset `off`. -/
theorem mask_word (qi : ℕ) (hqi : qi < 4) (off : ℕ) (hoff : off ≤ 1536) (p j : Fin 512) :
    IntOp.cmpi .sge (IntOp.addi (Scalar.muli (BitVec.ofNat 32 qi) 512#32) (BitVec.ofNat 32 p.val))
        (IntOp.addi (BitVec.ofNat 32 off) (BitVec.ofNat 32 j.val))
      = if off + j.val ≤ qi * 512 + p.val then 1#1 else 0#1 := by
  have hp := p.isLt
  have hj := j.isLt
  have e1 : IntOp.addi (Scalar.muli (BitVec.ofNat 32 qi) 512#32) (BitVec.ofNat 32 p.val) = BitVec.ofNat 32 (qi * 512 + p.val) := by
    show BitVec.ofNat 32 qi * BitVec.ofNat 32 512 + BitVec.ofNat 32 p.val = _
    rw [← BitVec.ofNat_mul, ← BitVec.ofNat_add]
  have e2 : IntOp.addi (BitVec.ofNat 32 off) (BitVec.ofNat 32 j.val) = BitVec.ofNat 32 (off + j.val) := by
    show BitVec.ofNat 32 off + BitVec.ofNat 32 j.val = _
    rw [← BitVec.ofNat_add]
  rw [e1, e2]
  show BitVec.ofBool ((BitVec.ofNat 32 (off + j.val)).sle (BitVec.ofNat 32 (qi * 512 + p.val))) = _
  rw [sle_ofNat _ _ (by omega) (by omega)]
  by_cases h : off + j.val ≤ qi * 512 + p.val
  · rw [if_pos h, decide_eq_true h]; rfl
  · rw [if_neg h, decide_eq_false h]; rfl

/-! ## The two products at an index -/

theorem lhs_qk_0 (i : S512x512.Idx) (q : dot_S512x64_S64x512_S512x512_1_0_0_1_n_n.contr.Idx) :
    (dot_S512x64_S64x512_S512x512_1_0_0_1_n_n.lhsIdx i q 0).val = (i 0).val := by
  unfold DotDims.lhsIdx
  rw [dif_neg (show ¬(0 : Fin S512x64.rank) ∈ dot_S512x64_S64x512_S512x512_1_0_0_1_n_n.lhsBatch by decide), dif_pos (show (0 : Fin S512x64.rank) ∈ dot_S512x64_S64x512_S512x512_1_0_0_1_n_n.lhsNonContracting by decide)]
  rfl
theorem rhs_qk_1 (i : S512x512.Idx) (q : dot_S512x64_S64x512_S512x512_1_0_0_1_n_n.contr.Idx) :
    (dot_S512x64_S64x512_S512x512_1_0_0_1_n_n.rhsIdx i q 1).val = (i 1).val := by
  unfold DotDims.rhsIdx
  rw [dif_neg (show ¬(1 : Fin S64x512.rank) ∈ dot_S512x64_S64x512_S512x512_1_0_0_1_n_n.rhsBatch by decide), dif_pos (show (1 : Fin S64x512.rank) ∈ dot_S512x64_S64x512_S512x512_1_0_0_1_n_n.rhsNonContracting by decide)]
  rfl

/-- The product of a `[512, 64]` tile with a `[64, 512]` tile into zero, at `(p, j)`. -/
theorem matmul_qk_apply (A : FVec Ideal S512x64 .bf16) (B : FVec Ideal S64x512 .bf16) (p j : Fin 512) :
    matmul dot_S512x64_S64x512_S512x512_1_0_0_1_n_n none A B (constant (F := Ideal) S512x512 .f32 0x00000000#32) (ix2 p j)
      = ∑ h : Fin 64, A (ix2 p h) * B (ix2 h j) := by
  simp only [matmul]
  rw [Ideal.matmul_constant_zero_apply, ← Equiv.sum_comp (contrEquiv1 dot_S512x64_S64x512_S512x512_1_0_0_1_n_n 64 rfl rfl).symm]
  refine Finset.sum_congr rfl fun k _ => ?_
  have hk := contrEquiv1_symm_val dot_S512x64_S64x512_S512x512_1_0_0_1_n_n 64 rfl rfl k
  have el : dot_S512x64_S64x512_S512x512_1_0_0_1_n_n.lhsIdx (ix2 p j) ((contrEquiv1 dot_S512x64_S64x512_S512x512_1_0_0_1_n_n 64 rfl rfl).symm k) = ix2 p k := funext fun a => Fin.ext (by
    match a with
    | ⟨0, _⟩ => exact lhs_qk_0 _ _
    | ⟨1, _⟩ => exact (dot_S512x64_S64x512_S512x512_1_0_0_1_n_n.lhsIdx_val_of_single rfl _ _).trans hk)
  have er : dot_S512x64_S64x512_S512x512_1_0_0_1_n_n.rhsIdx (ix2 p j) ((contrEquiv1 dot_S512x64_S64x512_S512x512_1_0_0_1_n_n 64 rfl rfl).symm k) = ix2 k j := funext fun a => Fin.ext (by
    match a with
    | ⟨0, _⟩ => exact (dot_S512x64_S64x512_S512x512_1_0_0_1_n_n.rhsIdx_val_of_single rfl _ _).trans hk
    | ⟨1, _⟩ => exact rhs_qk_1 _ _)
  rw [el, er]

theorem lhs_pv_0 (i : S512x64.Idx) (q : dot_S512x512_S512x64_S512x64_1_0_0_1_n_n.contr.Idx) :
    (dot_S512x512_S512x64_S512x64_1_0_0_1_n_n.lhsIdx i q 0).val = (i 0).val := by
  unfold DotDims.lhsIdx
  rw [dif_neg (show ¬(0 : Fin S512x512.rank) ∈ dot_S512x512_S512x64_S512x64_1_0_0_1_n_n.lhsBatch by decide), dif_pos (show (0 : Fin S512x512.rank) ∈ dot_S512x512_S512x64_S512x64_1_0_0_1_n_n.lhsNonContracting by decide)]
  rfl
theorem rhs_pv_1 (i : S512x64.Idx) (q : dot_S512x512_S512x64_S512x64_1_0_0_1_n_n.contr.Idx) :
    (dot_S512x512_S512x64_S512x64_1_0_0_1_n_n.rhsIdx i q 1).val = (i 1).val := by
  unfold DotDims.rhsIdx
  rw [dif_neg (show ¬(1 : Fin S512x64.rank) ∈ dot_S512x512_S512x64_S512x64_1_0_0_1_n_n.rhsBatch by decide), dif_pos (show (1 : Fin S512x64.rank) ∈ dot_S512x512_S512x64_S512x64_1_0_0_1_n_n.rhsNonContracting by decide)]
  rfl

/-- The product of a `[512, 512]` tile with a `[512, 64]` tile into zero, at `(p, h)`. -/
theorem matmul_pv_apply (A : FVec Ideal S512x512 .bf16) (B : FVec Ideal S512x64 .bf16) (p : Fin 512) (h : Fin 64) :
    matmul dot_S512x512_S512x64_S512x64_1_0_0_1_n_n none A B (constant (F := Ideal) S512x64 .f32 0x00000000#32) (ix2 p h)
      = ∑ j : Fin 512, A (ix2 p j) * B (ix2 j h) := by
  simp only [matmul]
  rw [Ideal.matmul_constant_zero_apply, ← Equiv.sum_comp (contrEquiv1 dot_S512x512_S512x64_S512x64_1_0_0_1_n_n 512 rfl rfl).symm]
  refine Finset.sum_congr rfl fun k _ => ?_
  have hk := contrEquiv1_symm_val dot_S512x512_S512x64_S512x64_1_0_0_1_n_n 512 rfl rfl k
  have el : dot_S512x512_S512x64_S512x64_1_0_0_1_n_n.lhsIdx (ix2 p h) ((contrEquiv1 dot_S512x512_S512x64_S512x64_1_0_0_1_n_n 512 rfl rfl).symm k) = ix2 p k := funext fun a => Fin.ext (by
    match a with
    | ⟨0, _⟩ => exact lhs_pv_0 _ _
    | ⟨1, _⟩ => exact (dot_S512x512_S512x64_S512x64_1_0_0_1_n_n.lhsIdx_val_of_single rfl _ _).trans hk)
  have er : dot_S512x512_S512x64_S512x64_1_0_0_1_n_n.rhsIdx (ix2 p h) ((contrEquiv1 dot_S512x512_S512x64_S512x64_1_0_0_1_n_n 512 rfl rfl).symm k) = ix2 k h := funext fun a => Fin.ext (by
    match a with
    | ⟨0, _⟩ => exact (dot_S512x512_S512x64_S512x64_1_0_0_1_n_n.rhsIdx_val_of_single rfl _ _).trans hk
    | ⟨1, _⟩ => exact rhs_pv_1 _ _)
  rw [el, er]

/-! ## One chunk of the recurrence, as functions of the row and column -/

/-- The masked, scaled score of query row `p` of tile `qi` against key row `j` of the chunk at offset `off`:
    bottom above the diagonal. -/
def score (ci qi : ℕ) (v14 : FVec Ideal S512x64 .bf16) (v34 : Vec Ideal S1x512x64 .f32) (p j : Fin 512) : EReal :=
  if ci * 512 + j.val ≤ qi * 512 + p.val then
    (∑ h : Fin 64, v14 (ix2 p h) * v34 (ix3 0 j h)) * Ideal.ofBits .f32 0x3D000000#32
  else ⊥

/-! ## The chunk's operations on whole tiles, read at an index -/

/-- The masked scaled scores of a chunk whose columns start at the word `off`. -/
def scoresVec (off arg1 : BitVec 32) (v14 : FVec Ideal S512x64 .bf16) (v34 : Vec Ideal S1x512x64 .f32) :
    FVec Ideal S512x512 .f32 :=
  select
    (cmpi .sge (addi (broadcast S512x512 (Scalar.muli arg1 512#32)) (iota .tc S512x512 32 [0] iota_S512x512_d0_w32))
      (addi (broadcast S512x512 off) (iota .tc S512x512 32 [1] iota_S512x512_d1_w32)))
    (mulf (matmul dot_S512x64_S64x512_S512x512_1_0_0_1_n_n none v14
        (transpose S64x512 [1, 0] (truncf .bf16 (shapeCast S512x64 v34 shapeCasts_S1x512x64_S512x64) bitsLt_bf16_f32)
          transposes_S512x64_p1_0_S64x512)
        (constant S512x512 .f32 0x00000000#32))
      (broadcast S512x512 (Scalar.ofBits .f32 0x3D000000#32)))
    (broadcast S512x512 (Named.named κ "neg_big" 0xFF333332#32))

theorem scoresVec_apply (ci qi : ℕ) (hqi : qi < 4) (hci : ci < 4) (v14 : FVec Ideal S512x64 .bf16)
    (v34 : Vec Ideal S1x512x64 .f32) (p j : Fin 512) :
    scoresVec (BitVec.ofNat 32 (ci * 512)) (BitVec.ofNat 32 qi) v14 v34 (ix2 p j) = score ci qi v14 v34 p j := by
  unfold scoresVec score
  generalize hoffd : ci * 512 = off
  have hoff : off ≤ 1536 := by omega
  rw [select_apply]
  have hm : cmpi .sge (addi (broadcast S512x512 (Scalar.muli (BitVec.ofNat 32 qi) 512#32)) (iota .tc S512x512 32 [0] iota_S512x512_d0_w32))
      (addi (broadcast S512x512 (BitVec.ofNat 32 off)) (iota .tc S512x512 32 [1] iota_S512x512_d1_w32)) (ix2 p j)
      = if off + j.val ≤ qi * 512 + p.val then 1#1 else 0#1 := by
    show IntOp.cmpi .sge (IntOp.addi (Scalar.muli (BitVec.ofNat 32 qi) 512#32) (iota .tc S512x512 32 [0] iota_S512x512_d0_w32 (ix2 p j)))
      (IntOp.addi (BitVec.ofNat 32 off) (iota .tc S512x512 32 [1] iota_S512x512_d1_w32 (ix2 p j))) = _
    rw [iota_single_apply, iota_single_apply]
    exact mask_word qi hqi off hoff p j
  rw [hm]
  by_cases h : off + j.val ≤ qi * 512 + p.val
  · rw [if_pos h, if_pos h, select_one, mulf_apply, broadcast_apply]
    refine congrArg (· * Ideal.ofBits .f32 0x3D000000#32) ?_
    refine (matmul_qk_apply v14 _ p j).trans ?_
    refine Finset.sum_congr rfl fun c _ => ?_
    refine congrArg (v14 (ix2 p c) * ·) ?_
    refine (transpose_ix2_apply _ _ c j).trans ?_
    rw [truncf_apply]
    exact shapeCast_1ab_ab_apply v34 _ j c
  · rw [if_neg h, if_neg h, select_zero, broadcast_apply]
    exact neg_big_eq

/-- The new running maximum from a tile of scores. -/
def newMaxVec (S : FVec Ideal S512x512 .f32) (v56 : Vec Ideal S512x1 .f32) : FVec Ideal S512x1 .f32 :=
  maximumf v56 (shapeCast S512x1
    (multiReduction .maximumf [1] S512 S 0xFF800000#32 reduces_S512x512_S512 (.inl rfl) rfl) shapeCasts_S512_S512x1)

theorem lift_row (p k : Fin 512) : reduces_S512x512_S512.lift (ix1 p) k = ix2 p k :=
  funext fun a => Fin.ext (by match a with | ⟨0, _⟩ => rfl | ⟨1, _⟩ => rfl)

theorem newMaxVec_apply (S : FVec Ideal S512x512 .f32) (v56 : Vec Ideal S512x1 .f32) (p : Fin 512) (u : Fin 1) :
    newMaxVec S v56 (ix2 p u)
      = max (v56 (ix2 p u)) ((Finset.univ : Finset (Fin 512)).fold max ⊥ fun j => S (ix2 p j)) := by
  unfold newMaxVec
  rw [maximumf_apply]
  refine congrArg (max (v56 (ix2 p u))) ?_
  refine (shapeCast_a_a1_apply _ _ p u).trans ?_
  refine (Ideal.multiReduction_maximumf_single S _ _ _ _ (ix1 p)).trans ?_
  show (Finset.univ : Finset (Fin 512)).fold max (Ideal.ofBits .f32 0xFF800000#32) (fun k => S (reduces_S512x512_S512.lift (ix1 p) k)) = _
  rw [ofBits_neg_inf_f32]
  exact congrArg (fun f => (Finset.univ : Finset (Fin 512)).fold max ⊥ f) (funext fun k => congrArg S (lift_row p k))

/-- The new running denominator from the rescaling factors, the weights and the old denominator. -/
def newLVec (A : FVec Ideal S512x1 .f32) (P : FVec Ideal S512x512 .f32) (v64 : Vec Ideal S512x1 .f32) :
    FVec Ideal S512x1 .f32 :=
  shapeCast S512x1 (addf (mulf A v64) (shapeCast S512x1
    (multiReduction .add [1] S512 P 0x00000000#32 reduces_S512x512_S512 (.inl rfl) rfl) shapeCasts_S512_S512x1))
    shapeCasts_S512x1_S512x1

theorem newLVec_apply (A : FVec Ideal S512x1 .f32) (P : FVec Ideal S512x512 .f32) (v64 : Vec Ideal S512x1 .f32)
    (p : Fin 512) (u : Fin 1) :
    newLVec A P v64 (ix2 p u) = A (ix2 p u) * v64 (ix2 p u) + ∑ j : Fin 512, P (ix2 p j) := by
  unfold newLVec
  rw [shapeCast_self, addf_apply, mulf_apply]
  refine congrArg (A (ix2 p u) * v64 (ix2 p u) + ·) ?_
  refine (shapeCast_a_a1_apply _ _ p u).trans ?_
  refine (Ideal.multiReduction_add_single P _ _ _ _ (ix1 p)).trans ?_
  show ∑ k : Fin 512, P (reduces_S512x512_S512.lift (ix1 p) k) = _
  exact Finset.sum_congr rfl fun k _ => congrArg P (lift_row p k)

/-- The rescaling factors `exp (m - m')`. -/
def alphaVec (S : FVec Ideal S512x512 .f32) (v56 v58 : Vec Ideal S512x1 .f32) : FVec Ideal S512x1 .f32 :=
  exp (subf v58 (newMaxVec S v56))

theorem alphaVec_apply (S : FVec Ideal S512x512 .f32) (v56 v58 : Vec Ideal S512x1 .f32) (p : Fin 512) (u : Fin 1) :
    alphaVec S v56 v58 (ix2 p u) = Ideal.exp (v58 (ix2 p u) - newMaxVec S v56 (ix2 p u)) := rfl

/-- The unnormalised weights `exp (s - m')`. -/
def probVec (S : FVec Ideal S512x512 .f32) (v56 : Vec Ideal S512x1 .f32) : FVec Ideal S512x512 .f32 :=
  exp (subf S (broadcastTo S512x512 (newMaxVec S v56) broadcasts_S512x1_S512x512))

theorem probVec_apply (S : FVec Ideal S512x512 .f32) (v56 : Vec Ideal S512x1 .f32) (p j : Fin 512) :
    probVec S v56 (ix2 p j) = Ideal.exp (S (ix2 p j) - newMaxVec S v56 (ix2 p 0)) := by
  unfold probVec
  show Ideal.exp (S (ix2 p j) - broadcastTo S512x512 (newMaxVec S v56) broadcasts_S512x1_S512x512 (ix2 p j)) = _
  rw [broadcastTo_a1_ab_apply]

/-- The weighted sum after a chunk: the old one rescaled, plus the weights times the value rows. -/
theorem pay30_apply (v39 : FVec Ideal S512x64 .bf16) (v60 : FVec Ideal S512x1 .f32) (v63 : FVec Ideal S512x512 .f32)
    (v72 : Vec Ideal S512x64 .f32) (p : Fin 512) (h : Fin 64) :
    k1_pay30 (F := Ideal) v39 v60 v63 v72 (ix2 p h)
      = v60 (ix2 p 0) * v72 (ix2 p h) + ∑ j : Fin 512, v63 (ix2 p j) * v39 (ix2 j h) := by
  unfold k1_pay30
  rw [shapeCast_self, addf_apply, mulf_apply]
  refine congrArg₂ (· + ·) (congrArg (· * v72 (ix2 p h)) (broadcastTo_a1_ab_apply v60 _ p h)) ?_
  exact matmul_pv_apply _ v39 p h

/-- One chunk on whole tiles, from the tile of scores `S` and the value rows `V`. -/
def chunkVec (S : FVec Ideal S512x512 .f32) (V : FVec Ideal S512x64 .bf16) (s : Chain.St Ideal) : Chain.St Ideal :=
  ⟨k1_pay30 V (alphaVec S s.m s.m) (probVec S s.m) s.acc,
   k1_pay31 (newMaxVec S s.m),
   newLVec (alphaVec S s.m s.m) (probVec S s.m) s.l⟩

/-- One chunk read at row `p` (and column `h` of the weighted sum): with `sc` the row's scores and `vv` the
    column of the value rows, the new maximum is `M = max m (max_j sc j)`, the new normaliser
    `exp (m - M) * l + Σ_j exp (sc j - M)`, the new weighted sum `exp (m - M) * a + Σ_j exp (sc j - M) * vv j`. -/
theorem chunkVec_apply (S : FVec Ideal S512x512 .f32) (V : FVec Ideal S512x64 .bf16) (s : Chain.St Ideal)
    (p : Fin 512) (h : Fin 64) (sc vv : Fin 512 → EReal)
    (hS : ∀ j, S (ix2 p j) = sc j) (hV : ∀ j, V (ix2 j h) = vv j) :
    (chunkVec S V s).m (ix2 p 0) = max (s.m (ix2 p 0)) ((Finset.univ : Finset (Fin 512)).fold max ⊥ sc)
    ∧ (chunkVec S V s).l (ix2 p 0)
        = Ideal.exp (s.m (ix2 p 0) - max (s.m (ix2 p 0)) ((Finset.univ : Finset (Fin 512)).fold max ⊥ sc)) * s.l (ix2 p 0)
          + ∑ j : Fin 512, Ideal.exp (sc j - max (s.m (ix2 p 0)) ((Finset.univ : Finset (Fin 512)).fold max ⊥ sc))
    ∧ (chunkVec S V s).acc (ix2 p h)
        = Ideal.exp (s.m (ix2 p 0) - max (s.m (ix2 p 0)) ((Finset.univ : Finset (Fin 512)).fold max ⊥ sc)) * s.acc (ix2 p h)
          + ∑ j : Fin 512, Ideal.exp (sc j - max (s.m (ix2 p 0)) ((Finset.univ : Finset (Fin 512)).fold max ⊥ sc)) * vv j := by
  have hM : newMaxVec S s.m (ix2 p 0)
      = max (s.m (ix2 p 0)) ((Finset.univ : Finset (Fin 512)).fold max ⊥ sc) := by
    rw [newMaxVec_apply]
    exact congrArg (fun f => max (s.m (ix2 p 0)) ((Finset.univ : Finset (Fin 512)).fold max ⊥ f)) (funext hS)
  refine ⟨?_, ?_, ?_⟩
  · show k1_pay31 (newMaxVec S s.m) (ix2 p 0) = _
    rw [pay31_eq]
    exact hM
  · show newLVec (alphaVec S s.m s.m) (probVec S s.m) s.l (ix2 p 0) = _
    rw [newLVec_apply, alphaVec_apply, hM]
    refine congrArg₂ (· + ·) rfl (Finset.sum_congr rfl fun j _ => ?_)
    rw [probVec_apply, hM, hS]
  · show k1_pay30 V (alphaVec S s.m s.m) (probVec S s.m) s.acc (ix2 p h) = _
    rw [pay30_apply, alphaVec_apply, hM]
    refine congrArg₂ (· + ·) rfl (Finset.sum_congr rfl fun j _ => ?_)
    rw [probVec_apply, hM, hS, hV]

/-! ## Chunk 0 -/

/-- The scores of chunk 0. -/
theorem pay3_apply (qi : ℕ) (hqi : qi < 4) (v14 : FVec Ideal S512x64 .bf16) (v34 : Vec Ideal S1x512x64 .f32)
    (p j : Fin 512) :
    k1_pay3 (F := Ideal) (BitVec.ofNat 32 qi) v14 v34 (ix2 p j) = score 0 qi v14 v34 p j :=
  scoresVec_apply 0 qi hqi (by omega) v14 v34 p j

/-- Chunk 0 at a row. -/
theorem chunk0_apply (qi : ℕ) (hqi : qi < 4) (v14 : FVec Ideal S512x64 .bf16) (kc vc : Vec Ideal S1x512x64 .f32)
    (s : Chain.St Ideal) (p : Fin 512) (h : Fin 64) :
    (Chain.chunk0 (BitVec.ofNat 32 qi) v14 kc vc s).m (ix2 p 0)
      = max (s.m (ix2 p 0)) ((Finset.univ : Finset (Fin 512)).fold max ⊥ (score 0 qi v14 kc p))
    ∧ (Chain.chunk0 (BitVec.ofNat 32 qi) v14 kc vc s).l (ix2 p 0)
        = Ideal.exp (s.m (ix2 p 0) - max (s.m (ix2 p 0)) ((Finset.univ : Finset (Fin 512)).fold max ⊥ (score 0 qi v14 kc p))) * s.l (ix2 p 0)
          + ∑ j : Fin 512, Ideal.exp (score 0 qi v14 kc p j - max (s.m (ix2 p 0)) ((Finset.univ : Finset (Fin 512)).fold max ⊥ (score 0 qi v14 kc p)))
    ∧ (Chain.chunk0 (BitVec.ofNat 32 qi) v14 kc vc s).acc (ix2 p h)
        = Ideal.exp (s.m (ix2 p 0) - max (s.m (ix2 p 0)) ((Finset.univ : Finset (Fin 512)).fold max ⊥ (score 0 qi v14 kc p))) * s.acc (ix2 p h)
          + ∑ j : Fin 512, Ideal.exp (score 0 qi v14 kc p j - max (s.m (ix2 p 0)) ((Finset.univ : Finset (Fin 512)).fold max ⊥ (score 0 qi v14 kc p))) * vc (ix3 0 j h) :=
  chunkVec_apply (k1_pay3 (F := Ideal) (BitVec.ofNat 32 qi) v14 kc) (k1_pay2 (F := Ideal) vc) s p h _ _
    (fun j => pay3_apply qi hqi v14 kc p j) (fun j => pay2_apply vc j h)

/-! ## Chunk 1 -/

/-- The value rows of chunk 1, with the leading unit axis dropped. -/
theorem pay8_apply (v37 : Vec Ideal S1x512x64 .f32) (j : Fin 512) (h : Fin 64) :
    k1_pay8 (F := Ideal) v37 (ix2 j h) = v37 (ix3 0 j h) := by
  unfold k1_pay8
  exact shapeCast_1ab_ab_apply v37 _ j h

/-- The scores of chunk 1. -/
theorem pay9_apply (qi : ℕ) (hqi : qi < 4) (v14 : FVec Ideal S512x64 .bf16) (v34 : Vec Ideal S1x512x64 .f32)
    (p j : Fin 512) :
    k1_pay9 (F := Ideal) (BitVec.ofNat 32 qi) v14 v34 (ix2 p j) = score 1 qi v14 v34 p j :=
  scoresVec_apply 1 qi hqi (by omega) v14 v34 p j

/-- The weighted sum after chunk 1. -/
theorem pay32_apply (v39 : FVec Ideal S512x64 .bf16) (v60 : FVec Ideal S512x1 .f32) (v63 : FVec Ideal S512x512 .f32)
    (v72 : Vec Ideal S512x64 .f32) (p : Fin 512) (h : Fin 64) :
    k1_pay32 (F := Ideal) v39 v60 v63 v72 (ix2 p h)
      = v60 (ix2 p 0) * v72 (ix2 p h) + ∑ j : Fin 512, v63 (ix2 p j) * v39 (ix2 j h) :=
  pay30_apply v39 v60 v63 v72 p h

/-- The new maximum of chunk 1 is stored as it is. -/
theorem pay33_eq (v57 : FVec Ideal S512x1 .f32) : k1_pay33 (F := Ideal) v57 = v57 := by
  unfold k1_pay33
  exact shapeCast_self _ _

/-- Chunk 1 at a row. -/
theorem chunk1_apply (qi : ℕ) (hqi : qi < 4) (v14 : FVec Ideal S512x64 .bf16) (kc vc : Vec Ideal S1x512x64 .f32)
    (s : Chain.St Ideal) (p : Fin 512) (h : Fin 64) :
    (Chain.chunk1 (BitVec.ofNat 32 qi) v14 kc vc s).m (ix2 p 0)
      = max (s.m (ix2 p 0)) ((Finset.univ : Finset (Fin 512)).fold max ⊥ (score 1 qi v14 kc p))
    ∧ (Chain.chunk1 (BitVec.ofNat 32 qi) v14 kc vc s).l (ix2 p 0)
        = Ideal.exp (s.m (ix2 p 0) - max (s.m (ix2 p 0)) ((Finset.univ : Finset (Fin 512)).fold max ⊥ (score 1 qi v14 kc p))) * s.l (ix2 p 0)
          + ∑ j : Fin 512, Ideal.exp (score 1 qi v14 kc p j - max (s.m (ix2 p 0)) ((Finset.univ : Finset (Fin 512)).fold max ⊥ (score 1 qi v14 kc p)))
    ∧ (Chain.chunk1 (BitVec.ofNat 32 qi) v14 kc vc s).acc (ix2 p h)
        = Ideal.exp (s.m (ix2 p 0) - max (s.m (ix2 p 0)) ((Finset.univ : Finset (Fin 512)).fold max ⊥ (score 1 qi v14 kc p))) * s.acc (ix2 p h)
          + ∑ j : Fin 512, Ideal.exp (score 1 qi v14 kc p j - max (s.m (ix2 p 0)) ((Finset.univ : Finset (Fin 512)).fold max ⊥ (score 1 qi v14 kc p))) * vc (ix3 0 j h) :=
  chunkVec_apply (k1_pay9 (F := Ideal) (BitVec.ofNat 32 qi) v14 kc) (k1_pay8 (F := Ideal) vc) s p h _ _
    (fun j => pay9_apply qi hqi v14 kc p j) (fun j => pay8_apply vc j h)

/-! ## Chunk 2 -/

/-- The value rows of chunk 2, with the leading unit axis dropped. -/
theorem pay14_apply (v37 : Vec Ideal S1x512x64 .f32) (j : Fin 512) (h : Fin 64) :
    k1_pay14 (F := Ideal) v37 (ix2 j h) = v37 (ix3 0 j h) := by
  unfold k1_pay14
  exact shapeCast_1ab_ab_apply v37 _ j h

/-- The scores of chunk 2. -/
theorem pay15_apply (qi : ℕ) (hqi : qi < 4) (v14 : FVec Ideal S512x64 .bf16) (v34 : Vec Ideal S1x512x64 .f32)
    (p j : Fin 512) :
    k1_pay15 (F := Ideal) (BitVec.ofNat 32 qi) v14 v34 (ix2 p j) = score 2 qi v14 v34 p j :=
  scoresVec_apply 2 qi hqi (by omega) v14 v34 p j

/-- The weighted sum after chunk 2. -/
theorem pay34_apply (v39 : FVec Ideal S512x64 .bf16) (v60 : FVec Ideal S512x1 .f32) (v63 : FVec Ideal S512x512 .f32)
    (v72 : Vec Ideal S512x64 .f32) (p : Fin 512) (h : Fin 64) :
    k1_pay34 (F := Ideal) v39 v60 v63 v72 (ix2 p h)
      = v60 (ix2 p 0) * v72 (ix2 p h) + ∑ j : Fin 512, v63 (ix2 p j) * v39 (ix2 j h) :=
  pay30_apply v39 v60 v63 v72 p h

/-- The new maximum of chunk 2 is stored as it is. -/
theorem pay35_eq (v57 : FVec Ideal S512x1 .f32) : k1_pay35 (F := Ideal) v57 = v57 := by
  unfold k1_pay35
  exact shapeCast_self _ _

/-- Chunk 2 at a row. -/
theorem chunk2_apply (qi : ℕ) (hqi : qi < 4) (v14 : FVec Ideal S512x64 .bf16) (kc vc : Vec Ideal S1x512x64 .f32)
    (s : Chain.St Ideal) (p : Fin 512) (h : Fin 64) :
    (Chain.chunk2 (BitVec.ofNat 32 qi) v14 kc vc s).m (ix2 p 0)
      = max (s.m (ix2 p 0)) ((Finset.univ : Finset (Fin 512)).fold max ⊥ (score 2 qi v14 kc p))
    ∧ (Chain.chunk2 (BitVec.ofNat 32 qi) v14 kc vc s).l (ix2 p 0)
        = Ideal.exp (s.m (ix2 p 0) - max (s.m (ix2 p 0)) ((Finset.univ : Finset (Fin 512)).fold max ⊥ (score 2 qi v14 kc p))) * s.l (ix2 p 0)
          + ∑ j : Fin 512, Ideal.exp (score 2 qi v14 kc p j - max (s.m (ix2 p 0)) ((Finset.univ : Finset (Fin 512)).fold max ⊥ (score 2 qi v14 kc p)))
    ∧ (Chain.chunk2 (BitVec.ofNat 32 qi) v14 kc vc s).acc (ix2 p h)
        = Ideal.exp (s.m (ix2 p 0) - max (s.m (ix2 p 0)) ((Finset.univ : Finset (Fin 512)).fold max ⊥ (score 2 qi v14 kc p))) * s.acc (ix2 p h)
          + ∑ j : Fin 512, Ideal.exp (score 2 qi v14 kc p j - max (s.m (ix2 p 0)) ((Finset.univ : Finset (Fin 512)).fold max ⊥ (score 2 qi v14 kc p))) * vc (ix3 0 j h) :=
  chunkVec_apply (k1_pay15 (F := Ideal) (BitVec.ofNat 32 qi) v14 kc) (k1_pay14 (F := Ideal) vc) s p h _ _
    (fun j => pay15_apply qi hqi v14 kc p j) (fun j => pay14_apply vc j h)

/-! ## Chunk 3 -/

/-- The value rows of chunk 3, with the leading unit axis dropped. -/
theorem pay20_apply (v37 : Vec Ideal S1x512x64 .f32) (j : Fin 512) (h : Fin 64) :
    k1_pay20 (F := Ideal) v37 (ix2 j h) = v37 (ix3 0 j h) := by
  unfold k1_pay20
  exact shapeCast_1ab_ab_apply v37 _ j h

/-- The scores of chunk 3. -/
theorem pay21_apply (qi : ℕ) (hqi : qi < 4) (v14 : FVec Ideal S512x64 .bf16) (v34 : Vec Ideal S1x512x64 .f32)
    (p j : Fin 512) :
    k1_pay21 (F := Ideal) (BitVec.ofNat 32 qi) v14 v34 (ix2 p j) = score 3 qi v14 v34 p j :=
  scoresVec_apply 3 qi hqi (by omega) v14 v34 p j

/-- The weighted sum after chunk 3. -/
theorem pay36_apply (v39 : FVec Ideal S512x64 .bf16) (v60 : FVec Ideal S512x1 .f32) (v63 : FVec Ideal S512x512 .f32)
    (v72 : Vec Ideal S512x64 .f32) (p : Fin 512) (h : Fin 64) :
    k1_pay36 (F := Ideal) v39 v60 v63 v72 (ix2 p h)
      = v60 (ix2 p 0) * v72 (ix2 p h) + ∑ j : Fin 512, v63 (ix2 p j) * v39 (ix2 j h) :=
  pay30_apply v39 v60 v63 v72 p h

/-- The new maximum of chunk 3 is stored as it is. -/
theorem pay37_eq (v57 : FVec Ideal S512x1 .f32) : k1_pay37 (F := Ideal) v57 = v57 := by
  unfold k1_pay37
  exact shapeCast_self _ _

/-- Chunk 3 at a row. -/
theorem chunk3_apply (qi : ℕ) (hqi : qi < 4) (v14 : FVec Ideal S512x64 .bf16) (kc vc : Vec Ideal S1x512x64 .f32)
    (s : Chain.St Ideal) (p : Fin 512) (h : Fin 64) :
    (Chain.chunk3 (BitVec.ofNat 32 qi) v14 kc vc s).m (ix2 p 0)
      = max (s.m (ix2 p 0)) ((Finset.univ : Finset (Fin 512)).fold max ⊥ (score 3 qi v14 kc p))
    ∧ (Chain.chunk3 (BitVec.ofNat 32 qi) v14 kc vc s).l (ix2 p 0)
        = Ideal.exp (s.m (ix2 p 0) - max (s.m (ix2 p 0)) ((Finset.univ : Finset (Fin 512)).fold max ⊥ (score 3 qi v14 kc p))) * s.l (ix2 p 0)
          + ∑ j : Fin 512, Ideal.exp (score 3 qi v14 kc p j - max (s.m (ix2 p 0)) ((Finset.univ : Finset (Fin 512)).fold max ⊥ (score 3 qi v14 kc p)))
    ∧ (Chain.chunk3 (BitVec.ofNat 32 qi) v14 kc vc s).acc (ix2 p h)
        = Ideal.exp (s.m (ix2 p 0) - max (s.m (ix2 p 0)) ((Finset.univ : Finset (Fin 512)).fold max ⊥ (score 3 qi v14 kc p))) * s.acc (ix2 p h)
          + ∑ j : Fin 512, Ideal.exp (score 3 qi v14 kc p j - max (s.m (ix2 p 0)) ((Finset.univ : Finset (Fin 512)).fold max ⊥ (score 3 qi v14 kc p))) * vc (ix3 0 j h) :=
  chunkVec_apply (k1_pay21 (F := Ideal) (BitVec.ofNat 32 qi) v14 kc) (k1_pay20 (F := Ideal) vc) s p h _ _
    (fun j => pay21_apply qi hqi v14 kc p j) (fun j => pay20_apply vc j h)

/-! ## The carried buffers before the first chunk, and the stored block -/

/-- Before the first chunk the weighted sum is 0, the maximum bottom, the normaliser 0. -/
theorem st0_apply (p : Fin 512) (h : Fin 64) :
    (Chain.st0 (F := Ideal)).m (ix2 p 0) = ⊥ ∧ (Chain.st0 (F := Ideal)).l (ix2 p 0) = 0
      ∧ (Chain.st0 (F := Ideal)).acc (ix2 p h) = 0 :=
  ⟨pay27_apply p 0, pay28_apply p 0, pay26_apply p h⟩

/-- The stored block is the weighted sum over the normaliser of its row. -/
theorem result_apply (s : Chain.St Ideal) (p : Fin 512) (h : Fin 64) :
    Chain.result s (ix3 0 p h) = Ideal.div (s.acc (ix2 p h)) (s.l (ix2 p 0)) :=
  pay1_apply s.acc s.l p h

end Cert.KernelIdeal.Payloads1

end
-- ==== Proof.RowValue.lean ====
/-
  One output row of one query tile: the chain's carried buffers at a row are the state of the chunked online-softmax recurrence, so the stored entry is the one-pass softmax-weighted sum of the row's causally masked scores against the value column.
-/
import proofs.«154606_j45561013076111_2_alg».proof.Proof.Chain
import proofs.«154606_j45561013076111_2_alg».proof.Proof.Payloads1
import proofs.«154606_j45561013076111_2_alg».proof.Proof.LibOnlineSoftmax

noncomputable section

namespace Cert.KernelIdeal.RowValue

open Idealize.ShloMosaic Idealize.ShloMosaic.ValueIdx Cert.KernelIdeal Cert.KernelIdeal.Gen
open Cert.KernelIdeal.Payloads1 Cert.OnlineSoftmax
open scoped BigOperators

/-! # One output row of one query tile

Row `p` of query tile `qi`, column `h` of the weighted sum: the chain of chunks, read at that row and column, is the
chunked recurrence on the row's masked scaled scores against column `h` of the value rows; after `qi + 1` chunks its
quotient is the softmax-weighted sum over all 2048 key rows, those past the diagonal carrying weight zero. -/

/-- The masked scaled scores of row `p` of query tile `qi` against all 2048 key rows: bottom past the diagonal. -/
def rowScore (qi : ℕ) (x0 : Vec Ideal S1x512x64 .f32) (x1 : Vec Ideal S1x2048x64 .f32) (p : Fin 512) (k : Fin 2048) : EReal :=
  if k.val ≤ qi * 512 + p.val then (∑ h' : Fin 64, x0 (ix3 0 p h') * x1 (ix3 0 k h')) * Ideal.ofBits .f32 0x3D000000#32 else ⊥

/-- Column `h` of the value rows. -/
def rowVal (x2 : Vec Ideal S1x2048x64 .f32) (h : Fin 64) (k : Fin 2048) : EReal := x2 (ix3 0 k h)

/-- The carried buffers read at row `p` and column `h`. -/
def rowSt (s : Chain.St Ideal) (p : Fin 512) (h : Fin 64) : State := ⟨s.m (ix2 p 0), s.l (ix2 p 0), s.acc (ix2 p h)⟩

/-- Triples with equal components are equal. -/
theorem state_congr {a b c a' b' c' : EReal} (ha : a = a') (hb : b = b') (hc : c = c') :
    State.mk a b c = State.mk a' b' c' := by subst ha hb hc; rfl

/-- Before the first chunk the row's triple is the recurrence's initial one. -/
theorem rowSt_st0 (p : Fin 512) (h : Fin 64) : rowSt (Chain.st0 (F := Ideal)) p h = init := by
  obtain ⟨hm, hl, ha⟩ := st0_apply p h
  exact state_congr hm hl ha

/-! ## A chunk's rows of the key and value blocks -/

/-- Rows `off … off + 511` of a block of 2048 rows, read at an index. -/
theorem ld_rows (X : Vec Ideal S1x2048x64 .f32) (off : ℕ) (inb : ∀ a, (![0, off, 0] : Fin 3 → ℕ) a + S1x512x64.size a ≤ S1x2048x64.size a)
    (j : Fin 512) (h : Fin 64) (hlt : off + j.val < 2048) :
    View.ld X (Rect.unit (s := S1x2048x64) ![0, off, 0] S1x512x64.size inb) (ix3 0 j h) = X (ix3 0 ⟨off + j.val, hlt⟩ h) := by
  show X _ = X _
  congr 1
  funext a
  apply Fin.ext
  match a with
  | ⟨0, _⟩ => simp [LoadRect.idx]
  | ⟨1, _⟩ => simp [LoadRect.idx]
  | ⟨2, _⟩ => simp [LoadRect.idx]

/-- The scores of chunk `ci` against the chunk's key rows are chunk `ci` of the row's scores. -/
theorem score_rows (ci qi off : ℕ) (hoff : off = ci * 512) (hci : ci < 4) (x0 : Vec Ideal S1x512x64 .f32) (x1 : Vec Ideal S1x2048x64 .f32)
    (inb : ∀ a, (![0, off, 0] : Fin 3 → ℕ) a + S1x512x64.size a ≤ S1x2048x64.size a) (p j : Fin 512) :
    score ci qi (k1_pay29 x0) (View.ld x1 (Rect.unit (s := S1x2048x64) ![0, off, 0] S1x512x64.size inb)) p j
      = chunk (w := 512) (rowScore qi x0 x1 p) ci j := by
  subst hoff
  have hlt : ci * 512 + j.val < 2048 := by have := j.isLt; omega
  rw [chunk_eq _ _ _ hlt]
  unfold score rowScore
  by_cases hc : ci * 512 + j.val ≤ qi * 512 + p.val
  · rw [if_pos hc, if_pos hc]
    refine congrArg (· * Ideal.ofBits .f32 0x3D000000#32) (Finset.sum_congr rfl fun h' _ => ?_)
    rw [pay29_apply, ld_rows x1 (ci * 512) inb j h' hlt]
  · rw [if_neg hc, if_neg hc]

/-- Column `h` of the chunk's value rows is chunk `ci` of the column. -/
theorem val_rows (ci off : ℕ) (hoff : off = ci * 512) (hci : ci < 4) (x2 : Vec Ideal S1x2048x64 .f32)
    (inb : ∀ a, (![0, off, 0] : Fin 3 → ℕ) a + S1x512x64.size a ≤ S1x2048x64.size a) (h : Fin 64) (j : Fin 512) :
    View.ld x2 (Rect.unit (s := S1x2048x64) ![0, off, 0] S1x512x64.size inb) (ix3 0 j h)
      = chunk (w := 512) (rowVal x2 h) ci j := by
  subst hoff
  have hlt : ci * 512 + j.val < 2048 := by have := j.isLt; omega
  rw [chunk_eq _ _ _ hlt]
  exact ld_rows x2 (ci * 512) inb j h hlt

/-! ## Each chunk is a step of the recurrence -/

/-- Chunk 0 read at the row is one step of the recurrence on chunk 0 of the row's scores and values. -/
theorem rowSt_step0 (qi : ℕ) (hqi : qi < 4) (x0 : Vec Ideal S1x512x64 .f32) (x1 x2 : Vec Ideal S1x2048x64 .f32)
    (s : Chain.St Ideal) (p : Fin 512) (h : Fin 64) :
    rowSt (Chain.step0 (BitVec.ofNat 32 qi) x0 x1 x2 s) p h
      = step (chunk (w := 512) (rowScore qi x0 x1 p) 0) (chunk (w := 512) (rowVal x2 h) 0) (rowSt s p h) := by
  have hS : ∀ j : Fin 512, k1_pay3 (F := Ideal) (BitVec.ofNat 32 qi) (k1_pay29 x0) (View.ld x1 Chain.rows0) (ix2 p j)
      = chunk (w := 512) (rowScore qi x0 x1 p) 0 j := fun j =>
    (pay3_apply qi hqi _ _ p j).trans (score_rows 0 qi 0 rfl (by omega) x0 x1 inb_S1x2048x64_S1x512x64_0_0_0 p j)
  have hV : ∀ j : Fin 512, k1_pay2 (F := Ideal) (View.ld x2 Chain.rows0) (ix2 j h)
      = chunk (w := 512) (rowVal x2 h) 0 j := fun j =>
    (pay2_apply _ j h).trans (val_rows 0 0 rfl (by omega) x2 inb_S1x2048x64_S1x512x64_0_0_0 h j)
  obtain ⟨hm, hl, ha⟩ := chunkVec_apply (k1_pay3 (F := Ideal) (BitVec.ofNat 32 qi) (k1_pay29 x0) (View.ld x1 Chain.rows0))
    (k1_pay2 (F := Ideal) (View.ld x2 Chain.rows0)) s p h _ _ hS hV
  exact state_congr hm hl ha

/-- Chunk 1 read at the row is one step of the recurrence on chunk 1 of the row's scores and values. -/
theorem rowSt_step1 (qi : ℕ) (hqi : qi < 4) (x0 : Vec Ideal S1x512x64 .f32) (x1 x2 : Vec Ideal S1x2048x64 .f32)
    (s : Chain.St Ideal) (p : Fin 512) (h : Fin 64) :
    rowSt (Chain.step1 (BitVec.ofNat 32 qi) x0 x1 x2 s) p h
      = step (chunk (w := 512) (rowScore qi x0 x1 p) 1) (chunk (w := 512) (rowVal x2 h) 1) (rowSt s p h) := by
  have hS : ∀ j : Fin 512, k1_pay9 (F := Ideal) (BitVec.ofNat 32 qi) (k1_pay29 x0) (View.ld x1 Chain.rows1) (ix2 p j)
      = chunk (w := 512) (rowScore qi x0 x1 p) 1 j := fun j =>
    (pay9_apply qi hqi _ _ p j).trans (score_rows 1 qi 512 rfl (by omega) x0 x1 inb_S1x2048x64_S1x512x64_0_512_0 p j)
  have hV : ∀ j : Fin 512, k1_pay8 (F := Ideal) (View.ld x2 Chain.rows1) (ix2 j h)
      = chunk (w := 512) (rowVal x2 h) 1 j := fun j =>
    (pay8_apply _ j h).trans (val_rows 1 512 rfl (by omega) x2 inb_S1x2048x64_S1x512x64_0_512_0 h j)
  obtain ⟨hm, hl, ha⟩ := chunkVec_apply (k1_pay9 (F := Ideal) (BitVec.ofNat 32 qi) (k1_pay29 x0) (View.ld x1 Chain.rows1))
    (k1_pay8 (F := Ideal) (View.ld x2 Chain.rows1)) s p h _ _ hS hV
  exact state_congr hm hl ha

/-- Chunk 2 read at the row is one step of the recurrence on chunk 2 of the row's scores and values. -/
theorem rowSt_step2 (qi : ℕ) (hqi : qi < 4) (x0 : Vec Ideal S1x512x64 .f32) (x1 x2 : Vec Ideal S1x2048x64 .f32)
    (s : Chain.St Ideal) (p : Fin 512) (h : Fin 64) :
    rowSt (Chain.step2 (BitVec.ofNat 32 qi) x0 x1 x2 s) p h
      = step (chunk (w := 512) (rowScore qi x0 x1 p) 2) (chunk (w := 512) (rowVal x2 h) 2) (rowSt s p h) := by
  have hS : ∀ j : Fin 512, k1_pay15 (F := Ideal) (BitVec.ofNat 32 qi) (k1_pay29 x0) (View.ld x1 Chain.rows2) (ix2 p j)
      = chunk (w := 512) (rowScore qi x0 x1 p) 2 j := fun j =>
    (pay15_apply qi hqi _ _ p j).trans (score_rows 2 qi 1024 rfl (by omega) x0 x1 inb_S1x2048x64_S1x512x64_0_1024_0 p j)
  have hV : ∀ j : Fin 512, k1_pay14 (F := Ideal) (View.ld x2 Chain.rows2) (ix2 j h)
      = chunk (w := 512) (rowVal x2 h) 2 j := fun j =>
    (pay14_apply _ j h).trans (val_rows 2 1024 rfl (by omega) x2 inb_S1x2048x64_S1x512x64_0_1024_0 h j)
  obtain ⟨hm, hl, ha⟩ := chunkVec_apply (k1_pay15 (F := Ideal) (BitVec.ofNat 32 qi) (k1_pay29 x0) (View.ld x1 Chain.rows2))
    (k1_pay14 (F := Ideal) (View.ld x2 Chain.rows2)) s p h _ _ hS hV
  exact state_congr hm hl ha

/-- Chunk 3 read at the row is one step of the recurrence on chunk 3 of the row's scores and values. -/
theorem rowSt_step3 (qi : ℕ) (hqi : qi < 4) (x0 : Vec Ideal S1x512x64 .f32) (x1 x2 : Vec Ideal S1x2048x64 .f32)
    (s : Chain.St Ideal) (p : Fin 512) (h : Fin 64) :
    rowSt (Chain.step3 (BitVec.ofNat 32 qi) x0 x1 x2 s) p h
      = step (chunk (w := 512) (rowScore qi x0 x1 p) 3) (chunk (w := 512) (rowVal x2 h) 3) (rowSt s p h) := by
  have hS : ∀ j : Fin 512, k1_pay21 (F := Ideal) (BitVec.ofNat 32 qi) (k1_pay29 x0) (View.ld x1 Chain.rows3) (ix2 p j)
      = chunk (w := 512) (rowScore qi x0 x1 p) 3 j := fun j =>
    (pay21_apply qi hqi _ _ p j).trans (score_rows 3 qi 1536 rfl (by omega) x0 x1 inb_S1x2048x64_S1x512x64_0_1536_0 p j)
  have hV : ∀ j : Fin 512, k1_pay20 (F := Ideal) (View.ld x2 Chain.rows3) (ix2 j h)
      = chunk (w := 512) (rowVal x2 h) 3 j := fun j =>
    (pay20_apply _ j h).trans (val_rows 3 1536 rfl (by omega) x2 inb_S1x2048x64_S1x512x64_0_1536_0 h j)
  obtain ⟨hm, hl, ha⟩ := chunkVec_apply (k1_pay21 (F := Ideal) (BitVec.ofNat 32 qi) (k1_pay29 x0) (View.ld x1 Chain.rows3))
    (k1_pay20 (F := Ideal) (View.ld x2 Chain.rows3)) s p h _ _ hS hV
  exact state_congr hm hl ha

/-- After `n ≤ 4` chunks the row's triple is the recurrence run `n` steps. -/
theorem rowSt_after (qi : ℕ) (hqi : qi < 4) (x0 : Vec Ideal S1x512x64 .f32) (x1 x2 : Vec Ideal S1x2048x64 .f32)
    (p : Fin 512) (h : Fin 64) (n : ℕ) (hn : n ≤ 4) :
    rowSt (Chain.after (BitVec.ofNat 32 qi) x0 x1 x2 n) p h
      = run (chunk (w := 512) (rowScore qi x0 x1 p)) (chunk (w := 512) (rowVal x2 h)) n := by
  have h0 : rowSt (Chain.after (BitVec.ofNat 32 qi) x0 x1 x2 0) p h
      = run (chunk (w := 512) (rowScore qi x0 x1 p)) (chunk (w := 512) (rowVal x2 h)) 0 := rowSt_st0 p h
  have h1 : rowSt (Chain.after (BitVec.ofNat 32 qi) x0 x1 x2 1) p h
      = run (chunk (w := 512) (rowScore qi x0 x1 p)) (chunk (w := 512) (rowVal x2 h)) 1 :=
    (rowSt_step0 qi hqi x0 x1 x2 _ p h).trans (congrArg (step _ _) h0)
  have h2 : rowSt (Chain.after (BitVec.ofNat 32 qi) x0 x1 x2 2) p h
      = run (chunk (w := 512) (rowScore qi x0 x1 p)) (chunk (w := 512) (rowVal x2 h)) 2 :=
    (rowSt_step1 qi hqi x0 x1 x2 _ p h).trans (congrArg (step _ _) h1)
  have h3 : rowSt (Chain.after (BitVec.ofNat 32 qi) x0 x1 x2 3) p h
      = run (chunk (w := 512) (rowScore qi x0 x1 p)) (chunk (w := 512) (rowVal x2 h)) 3 :=
    (rowSt_step2 qi hqi x0 x1 x2 _ p h).trans (congrArg (step _ _) h2)
  have h4 : rowSt (Chain.after (BitVec.ofNat 32 qi) x0 x1 x2 4) p h
      = run (chunk (w := 512) (rowScore qi x0 x1 p)) (chunk (w := 512) (rowVal x2 h)) 4 :=
    (rowSt_step3 qi hqi x0 x1 x2 _ p h).trans (congrArg (step _ _) h3)
  interval_cases n
  · exact h0
  · exact h1
  · exact h2
  · exact h3
  · exact h4

/-! ## The scores are bottom or real, the values real -/

/-- The scale 1/32 is a real number. -/
theorem scale_real : ∃ r : ℝ, Ideal.ofBits .f32 0x3D000000#32 = (r : EReal) := by
  unfold Ideal.ofBits Ideal.ieee
  simp only []
  rw [if_neg (by decide), if_neg (by decide)]
  exact ⟨_, rfl⟩

/-- A finite sum of real numbers is real. -/
theorem sum_real {n : ℕ} (f : Fin n → EReal) (hf : ∀ i, ∃ r : ℝ, f i = (r : EReal)) : ∃ r : ℝ, ∑ i, f i = (r : EReal) := by
  choose g hg using hf
  refine ⟨∑ i, g i, ?_⟩
  have hs : ∀ s : Finset (Fin n), ∑ i ∈ s, f i = ((∑ i ∈ s, g i : ℝ) : EReal) := by
    intro s
    refine Finset.induction_on s ?_ ?_
    · simp
    · intro a s ha ih
      rw [Finset.sum_insert ha, Finset.sum_insert ha, ih, hg, EReal.coe_add]
  exact hs _

/-- A visible score is a real number. -/
theorem rowScore_real (qi : ℕ) (x0 : Vec Ideal S1x512x64 .f32) (x1 : Vec Ideal S1x2048x64 .f32)
    (hx0 : ∀ i, ∃ r : ℝ, x0 i = (r : EReal)) (hx1 : ∀ i, ∃ r : ℝ, x1 i = (r : EReal)) (p : Fin 512) (k : Fin 2048)
    (hk : k.val ≤ qi * 512 + p.val) : ∃ r : ℝ, rowScore qi x0 x1 p k = (r : EReal) := by
  unfold rowScore
  rw [if_pos hk]
  obtain ⟨c, hc⟩ := scale_real
  obtain ⟨t, ht⟩ := sum_real (fun h' : Fin 64 => x0 (ix3 0 p h') * x1 (ix3 0 k h')) fun h' => by
    obtain ⟨a, ha⟩ := hx0 (ix3 0 p h'); obtain ⟨b, hb⟩ := hx1 (ix3 0 k h')
    exact ⟨a * b, by rw [ha, hb, EReal.coe_mul]⟩
  exact ⟨t * c, by rw [ht, hc, EReal.coe_mul]⟩

/-- No score is the top element. -/
theorem rowScore_ne_top (qi : ℕ) (x0 : Vec Ideal S1x512x64 .f32) (x1 : Vec Ideal S1x2048x64 .f32)
    (hx0 : ∀ i, ∃ r : ℝ, x0 i = (r : EReal)) (hx1 : ∀ i, ∃ r : ℝ, x1 i = (r : EReal)) (p : Fin 512) (k : Fin 2048) :
    rowScore qi x0 x1 p k ≠ ⊤ := by
  by_cases hk : k.val ≤ qi * 512 + p.val
  · obtain ⟨r, hr⟩ := rowScore_real qi x0 x1 hx0 hx1 p k hk
    rw [hr]; exact EReal.coe_ne_top r
  · unfold rowScore; rw [if_neg hk]; exact bot_ne_top

/-! ## The row's value -/

/-- Row `p`, column `h` of the block the chain stores after `qi + 1` chunks is the softmax-weighted sum of column `h` of
    the value rows, the weights those of the row's masked scaled scores over all 2048 key rows. -/
theorem row_value (qi : ℕ) (hqi : qi < 4) (x0 : Vec Ideal S1x512x64 .f32) (x1 x2 : Vec Ideal S1x2048x64 .f32)
    (hx0 : ∀ i, ∃ r : ℝ, x0 i = (r : EReal)) (hx1 : ∀ i, ∃ r : ℝ, x1 i = (r : EReal)) (hx2 : ∀ i, ∃ r : ℝ, x2 i = (r : EReal))
    (p : Fin 512) (h : Fin 64) :
    Chain.result (Chain.after (BitVec.ofNat 32 qi) x0 x1 x2 (qi + 1)) (ix3 0 p h)
      = refRow (fun k : Fin 2048 => if k.val ≤ qi * 512 + p.val then (∑ h' : Fin 64, x0 (ix3 0 p h') * x1 (ix3 0 k h')) * Ideal.ofBits .f32 0x3D000000#32 else ⊥)
          (fun k : Fin 2048 => x2 (ix3 0 k h)) := by
  have hrun := rowSt_after qi hqi x0 x1 x2 p h (qi + 1) (by omega)
  have hres : Chain.result (Chain.after (BitVec.ofNat 32 qi) x0 x1 x2 (qi + 1)) (ix3 0 p h)
      = kernelRow (chunk (w := 512) (rowScore qi x0 x1 p)) (chunk (w := 512) (rowVal x2 h)) (qi + 1) := by
    rw [result_apply]
    unfold kernelRow
    rw [← hrun]
    rfl
  rw [hres]
  exact kernelRow_chunk_eq_refRow (w := 512) (T := 2048) (qi + 1) (by omega) (by norm_num) (by omega)
    (rowScore qi x0 x1 p) (rowVal x2 h)
    (fun k hk => by unfold rowScore; rw [if_neg (by have := p.isLt; omega)])
    (rowScore_ne_top qi x0 x1 hx0 hx1 p)
    (rowScore_real qi x0 x1 hx0 hx1 p _ (Nat.zero_le _))
    (fun k => hx2 (ix3 0 k h))

end Cert.KernelIdeal.RowValue

end
-- ==== Proof.Value1.lean ====
/-
  The attention launch's output array after the run, index by index. Point t = 4 * batch + query chunk writes rows
  (t % 4) * 512 … of batch t / 4; row p of that block is the chunked online-softmax recurrence over key chunks
  0 … t % 4, which is the one-pass softmax-weighted sum over all 2048 keys of the causally masked scores (the
  keys of the later chunks are all masked). The sixteen blocks tile the array.
-/
import proofs.«154606_j45561013076111_2_alg».proof.Proof.IdealRegion1
import proofs.«154606_j45561013076111_2_alg».proof.Proof.IdealRegion1Read
import proofs.«154606_j45561013076111_2_alg».proof.Proof.RefValue
import proofs.«154606_j45561013076111_2_alg».proof.Proof.RowAttn
import proofs.«154606_j45561013076111_2_alg».proof.Proof.Chain
import proofs.«154606_j45561013076111_2_alg».proof.Proof.RowValue
import proofs.«154606_j45561013076111_2_alg».proof.Proof.Gen.KernelIdeal.Launch
import proofs.«154606_j45561013076111_2_alg».proof.Proof.Gen.KernelIdeal.Skeleton
import proofs.«154606_j45561013076111_2_alg».proof.Proof.Gen.KernelIdeal.Points
import Idealize.ShloMosaic.Lib.Pipeline.FrameBody
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Value1

open Cert.KernelIdeal Cert.KernelIdeal.Gen Cert.KernelIdeal.Hand

variable (V : (c : Dev nD) → (b : Ref sig .tc) → Buf (Elt Ideal) ((c : Thread nD τ).loc b))

theorem idx1_0 : ∀ t : Fin cfg1.N, win1_0.index t (0 : Fin 3) = t.val / 4 ∧ win1_0.index t (1 : Fin 3) = t.val % 4 ∧ win1_0.index t (2 : Fin 3) = 0 :=
  (by decide +kernel : ∀ t : Fin grid1.N, _)
theorem idx1_1 : ∀ t : Fin cfg1.N, win1_1.index t (0 : Fin 3) = t.val / 4 ∧ win1_1.index t (1 : Fin 3) = 0 ∧ win1_1.index t (2 : Fin 3) = 0 :=
  (by decide +kernel : ∀ t : Fin grid1.N, _)
theorem idx1_2 : ∀ t : Fin cfg1.N, win1_2.index t (0 : Fin 3) = t.val / 4 ∧ win1_2.index t (1 : Fin 3) = 0 ∧ win1_2.index t (2 : Fin 3) = 0 :=
  (by decide +kernel : ∀ t : Fin grid1.N, _)
theorem idx1_3 : ∀ t : Fin cfg1.N, win1_3.index t (0 : Fin 3) = t.val / 4 ∧ win1_3.index t (1 : Fin 3) = t.val % 4 ∧ win1_3.index t (2 : Fin 3) = 0 :=
  (by decide +kernel : ∀ t : Fin grid1.N, _)

/-- The query block at point t is rows (t % 4) * 512 … of batch t / 4 of the query array. -/
theorem iblk1_q_apply (c : Dev nD) (t : Fin cfg1.N) (x : S1x512x64.Idx) (k : S4x2048x64.Idx)
    (hk0 : (k 0).val = t.val / 4) (hk1 : (k 1).val = (t.val % 4) * 512 + (x 1).val) (hk2 : (k 2).val = (x 2).val) :
    (iblk1 V c 0 t : Vec Ideal S1x512x64 .f32) x = (V c main_v0_0 : S4x2048x64.Idx → Elt Ideal .f32) k := by
  obtain ⟨h0, h1, h2⟩ := idx1_0 t
  have hx0 : (x 0).val = 0 := by have h : (x 0).val < 1 := (x 0).isLt; omega
  unfold iblk1
  rw [View.read_apply]
  show V c main_v0_0 _ = V c main_v0_0 _
  congr 1
  funext a
  apply Fin.ext
  match a with
  | ⟨0, _⟩ => show win1_0.index t 0 * 1 + 1 * (x 0).val = (k 0).val; rw [h0, hk0, hx0]; omega
  | ⟨1, _⟩ => show win1_0.index t 1 * 512 + 1 * (x 1).val = (k 1).val; rw [h1, hk1]; omega
  | ⟨2, _⟩ => show win1_0.index t 2 * 64 + 1 * (x 2).val = (k 2).val; rw [h2, hk2]; omega

/-- The key block at point t is all 2048 rows of batch t / 4 of the key array. -/
theorem iblk1_k_apply (c : Dev nD) (t : Fin cfg1.N) (x : S1x2048x64.Idx) (k : S4x2048x64.Idx)
    (hk0 : (k 0).val = t.val / 4) (hk1 : (k 1).val = (x 1).val) (hk2 : (k 2).val = (x 2).val) :
    (iblk1 V c 1 t : Vec Ideal S1x2048x64 .f32) x = (V c main_v0_1 : S4x2048x64.Idx → Elt Ideal .f32) k := by
  obtain ⟨h0, h1, h2⟩ := idx1_1 t
  have hx0 : (x 0).val = 0 := by have h : (x 0).val < 1 := (x 0).isLt; omega
  unfold iblk1
  rw [View.read_apply]
  show V c main_v0_1 _ = V c main_v0_1 _
  congr 1
  funext a
  apply Fin.ext
  match a with
  | ⟨0, _⟩ => show win1_1.index t 0 * 1 + 1 * (x 0).val = (k 0).val; rw [h0, hk0, hx0]; omega
  | ⟨1, _⟩ => show win1_1.index t 1 * 2048 + 1 * (x 1).val = (k 1).val; rw [h1, hk1]; omega
  | ⟨2, _⟩ => show win1_1.index t 2 * 64 + 1 * (x 2).val = (k 2).val; rw [h2, hk2]; omega

theorem iblk1_v_apply (c : Dev nD) (t : Fin cfg1.N) (x : S1x2048x64.Idx) (k : S4x2048x64.Idx)
    (hk0 : (k 0).val = t.val / 4) (hk1 : (k 1).val = (x 1).val) (hk2 : (k 2).val = (x 2).val) :
    (iblk1 V c 2 t : Vec Ideal S1x2048x64 .f32) x = (V c main_v0_2 : S4x2048x64.Idx → Elt Ideal .f32) k := by
  obtain ⟨h0, h1, h2⟩ := idx1_2 t
  have hx0 : (x 0).val = 0 := by have h : (x 0).val < 1 := (x 0).isLt; omega
  unfold iblk1
  rw [View.read_apply]
  show V c main_v0_2 _ = V c main_v0_2 _
  congr 1
  funext a
  apply Fin.ext
  match a with
  | ⟨0, _⟩ => show win1_2.index t 0 * 1 + 1 * (x 0).val = (k 0).val; rw [h0, hk0, hx0]; omega
  | ⟨1, _⟩ => show win1_2.index t 1 * 2048 + 1 * (x 1).val = (k 1).val; rw [h1, hk1]; omega
  | ⟨2, _⟩ => show win1_2.index t 2 * 64 + 1 * (x 2).val = (k 2).val; rw [h2, hk2]; omega

theorem coords1 : ∀ t : Fin cfg1.N, ((grid1.coords t) 0).val = t.val / 4 ∧ ((grid1.coords t) 1).val = t.val % 4 :=
  (by decide +kernel : ∀ t : Fin grid1.N, _)

theorem size1_3 : win1_3.size (0 : Fin 3) = 1 ∧ win1_3.size (1 : Fin 3) = 512 ∧ win1_3.size (2 : Fin 3) = 64 := by decide
theorem xsize1_3 : ∀ t : Fin cfg1.N, win1_3.xsize (grid1.coords t) (0 : Fin 3) = 1 ∧ win1_3.xsize (grid1.coords t) (1 : Fin 3) = 512 ∧ win1_3.xsize (grid1.coords t) (2 : Fin 3) = 64 :=
  (by decide +kernel : ∀ t : Fin grid1.N, _)

/-- Every index of the output array lies in the block of the point (batch, query tile) = (i 0, i 1 / 512). -/
theorem cover1_3 (i : S4x2048x64.Idx) :
    ∃ t : Fin cfg1.N, (cfg1.win 3).flush t = true ∧ i ∈ ((View.whole main_v1).slice (win1_3.rect t)).set := by
  have h0 : (i 0 : Nat) < 4 := (i 0).isLt
  have h1 : (i 1 : Nat) < 2048 := (i 1).isLt
  have h2 : (i 2 : Nat) < 64 := (i 2).isLt
  have hN : cfg1.N = 16 := N_1
  refine ⟨⟨(i 0 : Nat) * 4 + (i 1 : Nat) / 512, by rw [hN]; omega⟩, flush1_3 _, ?_⟩
  rw [View.set_slice_whole, Rect.mem_set_unit]
  intro a
  obtain ⟨e0, e1, e2⟩ := idx1_3 ⟨(i 0 : Nat) * 4 + (i 1 : Nat) / 512, by rw [hN]; omega⟩
  obtain ⟨s0, s1, s2⟩ := size1_3
  obtain ⟨x0, x1, x2⟩ := xsize1_3 ⟨(i 0 : Nat) * 4 + (i 1 : Nat) / 512, by rw [hN]; omega⟩
  match a with
  | ⟨0, _⟩ =>
    show win1_3.index _ 0 * win1_3.size 0 ≤ (i 0 : Nat) ∧ (i 0 : Nat) < win1_3.index _ 0 * win1_3.size 0 + win1_3.xsize _ 0
    rw [e0, s0, x0]; dsimp only; omega
  | ⟨1, _⟩ =>
    show win1_3.index _ 1 * win1_3.size 1 ≤ (i 1 : Nat) ∧ (i 1 : Nat) < win1_3.index _ 1 * win1_3.size 1 + win1_3.xsize _ 1
    rw [e1, s1, x1]; dsimp only; omega
  | ⟨2, _⟩ =>
    show win1_3.index _ 2 * win1_3.size 2 ≤ (i 2 : Nat) ∧ (i 2 : Nat) < win1_3.index _ 2 * win1_3.size 2 + win1_3.xsize _ 2
    rw [e2, s2, x2]; dsimp only; omega

/-- The same cover at the index type the pipeline's array carries. -/
theorem cover1_3' (c : Dev nD) (i : ((cfg1.win 3).arr.view.loc (c.tc : Thread nD τ)).2.ty.Idx) :
    ∃ t : Fin cfg1.N, (cfg1.win 3).flush t = true ∧ i ∈ ((cfg1.win 3).blk t).view.set :=
  cover1_3 i

open Idealize.ShloMosaic.ValueIdx

/-- The block of point `t` sits at batch `t / 4`, rows `(t % 4) * 512 …` of the output array. -/
theorem emb1_3 (t : Fin cfg1.N) (p : Fin 512) (h : Fin 64) (hb : t.val / 4 < 4) (hr : (t.val % 4) * 512 + p.val < 2048) :
    ((cfg1.win 3).blk t).view.emb (ix3 (0 : Fin 1) p h) = (ix3 (⟨t.val / 4, hb⟩ : Fin 4) (⟨(t.val % 4) * 512 + p.val, hr⟩ : Fin 2048) h : S4x2048x64.Idx) := by
  obtain ⟨e0, e1, e2⟩ := idx1_3 t
  funext a
  apply Fin.ext
  match a with
  | ⟨0, _⟩ => show win1_3.index t (0 : Fin 3) * 1 + 1 * 0 = t.val / 4; omega
  | ⟨1, _⟩ => show win1_3.index t (1 : Fin 3) * 512 + 1 * p.val = (t.val % 4) * 512 + p.val; omega
  | ⟨2, _⟩ => show win1_3.index t (2 : Fin 3) * 64 + 1 * h.val = h.val; omega

/-- If at every point the body's block is, row by row, the rows of one whole-array function `G`, the output
    array ends holding `G`: the sixteen blocks tile it. -/
theorem final3 (c : Dev nD) (G : S4x2048x64.Idx → EReal)
    (hpoint : ∀ (t : Fin cfg1.N) (p : Fin 512) (h : Fin 64) (hb : t.val / 4 < 4) (hr : (t.val % 4) * 512 + p.val < 2048),
      (outsAt1 V c t : Vec Ideal S1x512x64 .f32) (ix3 (0 : Fin 1) p h) = G (ix3 (⟨t.val / 4, hb⟩ : Fin 4) (⟨(t.val % 4) * 512 + p.val, hr⟩ : Fin 2048) h)) :
    (dat1 V c).arrAt 3 cfg1.N = G := by
  refine (dat1 V c).arrAt_eq_of_cover 3 G (fun t _ => ?_) (cover1_3' c)
  show (cfg1.win 3).cut (grid1.coords t) ((dat1 V c).after 3 t) = _
  rw [after1_3]
  show (outsAt1 V c t : S1x512x64.Idx → EReal) = fun j : S1x512x64.Idx => G (((cfg1.win 3).blk t).view.emb j)
  funext j
  have hN : cfg1.N = 16 := N_1
  have ht : t.val < 16 := hN ▸ t.isLt
  have hj0 : (j 0).val = 0 := by have h : (j 0).val < 1 := (j 0).isLt; omega
  obtain ⟨p, h, rfl⟩ : ∃ (p : Fin 512) (h : Fin 64), j = ix3 (0 : Fin 1) p h :=
    ⟨j 1, j 2, by rw [eq_ix3 j]; congr 1; exact Fin.ext hj0⟩
  have hp : p.val < 512 := p.isLt
  exact (hpoint t p h (by omega) (by omega)).trans (congrArg G (emb1_3 t p h (by omega) (by omega)).symm)

/-- One row from blocks: when the three blocks are rows of arrays `Q`, `K`, `W` of real numbers, the chain's result at row
    `p`, column `h` of query chunk `qi` is causal attention of the arrays at batch `b`, row `qi * 512 + p`. -/
theorem row_of_blocks (Q K W : S4x2048x64.Idx → EReal) (x0 : Vec Ideal S1x512x64 .f32) (x1 x2 : Vec Ideal S1x2048x64 .f32)
    (b : Fin 4) (qi : ℕ) (hqi : qi < 4) (p : Fin 512) (h : Fin 64) (hr : qi * 512 + p.val < 2048)
    (hx0 : ∀ (p' : Fin 512) (h' : Fin 64) (hr' : qi * 512 + p'.val < 2048), x0 (ix3 0 p' h') = Q (ix3 b ⟨qi * 512 + p'.val, hr'⟩ h'))
    (hx1 : ∀ (k : Fin 2048) (h' : Fin 64), x1 (ix3 0 k h') = K (ix3 b k h'))
    (hx2 : ∀ (k : Fin 2048) (h' : Fin 64), x2 (ix3 0 k h') = W (ix3 b k h'))
    (hQ : ∀ i, ∃ r : ℝ, Q i = (r : EReal)) (hK : ∀ i, ∃ r : ℝ, K i = (r : EReal)) (hW : ∀ i, ∃ r : ℝ, W i = (r : EReal)) :
    Chain.result (Chain.after (BitVec.ofNat 32 qi) x0 x1 x2 (qi + 1)) (ix3 (0 : Fin 1) p h)
      = Cert.ReferenceIdeal.RefValue.attn Q K W (ix3 b ⟨qi * 512 + p.val, hr⟩ h) := by
  have r0 : ∀ i, ∃ r : ℝ, x0 i = (r : EReal) := fun i => by
    have hi0 : (i 0).val = 0 := by have h : (i 0).val < 1 := (i 0).isLt; omega
    obtain ⟨a, b', rfl⟩ : ∃ (a : Fin 512) (b' : Fin 64), i = ix3 (0 : Fin 1) a b' :=
      ⟨i 1, i 2, by rw [eq_ix3 i]; congr 1; exact Fin.ext hi0⟩
    have ha : a.val < 512 := a.isLt
    obtain ⟨r, hr'⟩ := hQ (ix3 b ⟨qi * 512 + a.val, by omega⟩ b')
    exact ⟨r, (hx0 a b' (by omega)).trans hr'⟩
  have r1 : ∀ i, ∃ r : ℝ, x1 i = (r : EReal) := fun i => by
    have hi0 : (i 0).val = 0 := by have h : (i 0).val < 1 := (i 0).isLt; omega
    obtain ⟨a, b', rfl⟩ : ∃ (a : Fin 2048) (b' : Fin 64), i = ix3 (0 : Fin 1) a b' :=
      ⟨i 1, i 2, by rw [eq_ix3 i]; congr 1; exact Fin.ext hi0⟩
    have ha : a.val < 2048 := a.isLt
    obtain ⟨r, hr'⟩ := hK (ix3 b a b')
    exact ⟨r, (hx1 a b').trans hr'⟩
  have r2 : ∀ i, ∃ r : ℝ, x2 i = (r : EReal) := fun i => by
    have hi0 : (i 0).val = 0 := by have h : (i 0).val < 1 := (i 0).isLt; omega
    obtain ⟨a, b', rfl⟩ : ∃ (a : Fin 2048) (b' : Fin 64), i = ix3 (0 : Fin 1) a b' :=
      ⟨i 1, i 2, by rw [eq_ix3 i]; congr 1; exact Fin.ext hi0⟩
    have ha : a.val < 2048 := a.isLt
    obtain ⟨r, hr'⟩ := hW (ix3 b a b')
    exact ⟨r, (hx2 a b').trans hr'⟩
  exact (Cert.KernelIdeal.RowValue.row_value qi hqi x0 x1 x2 r0 r1 r2 p h).trans
    (Cert.RowAttn.refRow_attn Q K W x0 x1 x2 b qi p h hr (fun h' => hx0 p h' hr) hx1 (fun k => hx2 k h))

/-- One row of one block: the body's result at point `t`, row `p`, column `h` is causal attention of the
    region-entry query, key and value arrays at batch `t / 4`, row `(t % 4) * 512 + p`. -/
theorem point_value (c : Dev nD)
    (hQ : ∀ i, ∃ r : ℝ, (V c main_v0_0 : S4x2048x64.Idx → EReal) i = (r : EReal))
    (hK : ∀ i, ∃ r : ℝ, (V c main_v0_1 : S4x2048x64.Idx → EReal) i = (r : EReal))
    (hV : ∀ i, ∃ r : ℝ, (V c main_v0_2 : S4x2048x64.Idx → EReal) i = (r : EReal))
    (t : Fin cfg1.N) (p : Fin 512) (h : Fin 64) (hb : t.val / 4 < 4) (hr : (t.val % 4) * 512 + p.val < 2048) :
    (outsAt1 V c t : Vec Ideal S1x512x64 .f32) (ix3 (0 : Fin 1) p h)
      = Cert.ReferenceIdeal.RefValue.attn (V c main_v0_0) (V c main_v0_1) (V c main_v0_2) (ix3 (⟨t.val / 4, hb⟩ : Fin 4) (⟨(t.val % 4) * 512 + p.val, hr⟩ : Fin 2048) h) := by
  obtain ⟨hc0, hc1⟩ := coords1 t
  have hq : t.val % 4 < 4 := Nat.mod_lt _ (by norm_num)
  have key : (outsAt1 V c t : Vec Ideal S1x512x64 .f32)
      = Chain.result (Chain.after (BitVec.ofNat 32 (t.val % 4)) (iblk1 V c 0 t) (iblk1 V c 1 t) (iblk1 V c 2 t) (t.val % 4 + 1)) := by
    have h4 : t.val % 4 = 0 ∨ t.val % 4 = 1 ∨ t.val % 4 = 2 ∨ t.val % 4 = 3 := by omega
    rcases h4 with h0 | h0 | h0 | h0
    · rw [outsAt1_eq_q0 V c t (hc1.trans h0), out1_q0_eq_canon, out1_q0_read, hc1, h0]
    · rw [outsAt1_eq_q1 V c t (hc1.trans h0), out1_q1_eq_canon, out1_q1_read, hc1, h0]
    · rw [outsAt1_eq_q2 V c t (hc1.trans h0), out1_q2_eq_canon, out1_q2_read, hc1, h0]
    · rw [outsAt1_eq_q3 V c t (hc1.trans h0), out1_q3_eq_canon, out1_q3_read, hc1, h0]
  rw [key]
  exact row_of_blocks (V c main_v0_0) (V c main_v0_1) (V c main_v0_2) (iblk1 V c 0 t) (iblk1 V c 1 t) (iblk1 V c 2 t)
    ⟨t.val / 4, hb⟩ (t.val % 4) hq p h hr
    (fun p' h' hr' => iblk1_q_apply V c t _ _ rfl rfl rfl)
    (fun k h' => iblk1_k_apply V c t _ _ rfl rfl rfl)
    (fun k h' => iblk1_v_apply V c t _ _ rfl rfl rfl)
    hQ hK hV

/-- The output array after the run: causal attention of the query, key and value arrays region 1 is entered with,
    when those hold real numbers. -/
theorem final_out (c : Dev nD)
    (hQ : ∀ i, ∃ r : ℝ, (V c main_v0_0 : S4x2048x64.Idx → EReal) i = (r : EReal))
    (hK : ∀ i, ∃ r : ℝ, (V c main_v0_1 : S4x2048x64.Idx → EReal) i = (r : EReal))
    (hV : ∀ i, ∃ r : ℝ, (V c main_v0_2 : S4x2048x64.Idx → EReal) i = (r : EReal)) :
    (dat1 V c).arrAt 3 cfg1.N = Cert.ReferenceIdeal.RefValue.attn (V c main_v0_0) (V c main_v0_1) (V c main_v0_2) :=
  final3 V c _ (point_value V c hQ hK hV)

end Cert.KernelIdeal.Value1
end
-- ==== Proof.Finite.lean ====
/-
  From the precondition (every |entry| < +∞, the four arrays conjoined) to: every entry of every argument array is a real number; and a finite sum of products of real numbers is a real number.
-/
import proofs.«154606_j45561013076111_2_alg».proof.Defs
import proofs.«154606_j45561013076111_2_alg».proof.Proof.Gen.Pre_finite_inputs
import Idealize.ShloMosaic.Lib.ReduceAll
import Idealize.ShloMosaic.Lib.ValueIdx
import Idealize.ShloMosaic.Lib.IdealHost

noncomputable section

namespace Cert.Finite

open Idealize.ShloMosaic Idealize.ShloMosaic.ValueIdx Idealize.SL.Sem
open Cert.Pre_finite_inputs

/-- The shape of rank 0 has one index. -/
instance : Subsingleton S_.Idx := ⟨fun a b => funext fun d => d.elim0⟩

/-- An extended real whose absolute value max(x, -x) is below +∞ is a real number: at ⊥ and at ⊤ it is ⊤. -/
theorem real_of_abs_lt_top (x : EReal) (h : max x (-x) < ⊤) : ∃ r : ℝ, x = (r : EReal) := by
  induction x using EReal.rec with
  | bot => simp at h
  | coe r => exact ⟨r, rfl⟩
  | top => simp at h

/-- The element test "|x| < +∞" at an index: where the comparison's bit is set, the entry is a real number. -/
theorem real_of_test {T : Shape} (hb : S_.BroadcastsInDim T (![] : Fin 0 → Fin T.rank)) (x : FVec Ideal T .f32) (i : T.Idx)
    (e : cmpf .olt (Host.absf x) (broadcastInDim T ![] hb (constant S_ .f32 0x7F800000#32)) i = 1#1) :
    ∃ r : ℝ, x i = (r : EReal) := by
  have htop : Ideal.ofBits .f32 0x7F800000#32 = ⊤ := by simp [Ideal.ofBits, Ideal.ieee]
  rw [cmpf_apply, broadcastInDim_scalar_apply, constant_apply, htop] at e
  have e' : Ideal.cmp .olt (max (x i) (-(x i))) ⊤ = 1#1 := e
  unfold Ideal.cmp at e'
  refine real_of_abs_lt_top (x i) ?_
  by_contra hn
  simp [hn] at e'

/-- From the precondition on four arrays (every |entry| < +∞, all four conjoined) to: every entry of each is a real number. -/
theorem entries_real (x : S4x2048x1024.Idx → EReal) (w1 w2 w3 : S1024x64.Idx → EReal)
    (h : Cert.Pre_finite_inputs.fn (F := Ideal) x w1 w2 w3 = (fun _ => 1#1)) :
    (∀ i, ∃ r : ℝ, x i = (r : EReal)) ∧ (∀ i, ∃ r : ℝ, w1 i = (r : EReal))
      ∧ (∀ i, ∃ r : ℝ, w2 i = (r : EReal)) ∧ (∀ i, ∃ r : ℝ, w3 i = (r : EReal)) := by
  have h0 := congrFun h ix0
  dsimp only [fn, fn_part1, andi] at h0
  obtain ⟨h012, h3⟩ := IntOp.andi_eq_one.mp h0
  obtain ⟨h01, h2⟩ := IntOp.andi_eq_one.mp h012
  obtain ⟨hx, h1⟩ := IntOp.andi_eq_one.mp h01
  exact ⟨fun i => real_of_test _ x i (Host.reduce_andi_all _ _ _ _ _ hx i),
    fun i => real_of_test _ w1 i (Host.reduce_andi_all _ _ _ _ _ h1 i),
    fun i => real_of_test _ w2 i (Host.reduce_andi_all _ _ _ _ _ h2 i),
    fun i => real_of_test _ w3 i (Host.reduce_andi_all _ _ _ _ _ h3 i)⟩

/-- Under the precondition every entry of every argument array is a real number, on every core. -/
theorem finite_of_pre (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal)) :=
  entries_real _ _ _ _ (h c)

/-- A finite sum of real numbers, read as extended reals, is the real sum. -/
theorem coe_sum {ι : Type} (s : Finset ι) (a : ι → ℝ) : (∑ k ∈ s, ((a k : ℝ) : EReal)) = ((∑ k ∈ s, a k : ℝ) : EReal) := by
  classical
  induction s using Finset.induction_on with
  | empty => simp
  | insert k s hk ih => rw [Finset.sum_insert hk, Finset.sum_insert hk, ih, EReal.coe_add]

/-- A finite sum of products of real numbers is a real number. -/
theorem sum_mul_real {n : ℕ} (f g : Fin n → EReal) (hf : ∀ k, ∃ r : ℝ, f k = (r : EReal)) (hg : ∀ k, ∃ r : ℝ, g k = (r : EReal)) :
    ∃ r : ℝ, (∑ k, f k * g k) = (r : EReal) := by
  choose a ha using hf
  choose b hb using hg
  refine ⟨∑ k, a k * b k, ?_⟩
  rw [← coe_sum]
  exact Finset.sum_congr rfl fun k _ => by rw [ha k, hb k, EReal.coe_mul]

/-- Each entry of a projection x·w (a row of 1024 entries of x against a column of w) is a real number when all entries of
    x and w are. -/
theorem proj_real (x : Cert.KernelIdeal.S4x2048x1024.Idx → EReal) (w : Cert.KernelIdeal.S1024x64.Idx → EReal)
    (hx : ∀ i, ∃ r : ℝ, x i = (r : EReal)) (hw : ∀ i, ∃ r : ℝ, w i = (r : EReal)) (i : Cert.KernelIdeal.S4x2048x64.Idx) :
    ∃ r : ℝ, (∑ k : Fin 1024, x (ix3 (i 0) (i 1) k) * w (ix2 k (i 2))) = (r : EReal) :=
  sum_mul_real (fun k => x (ix3 (i 0) (i 1) k)) (fun k => w (ix2 k (i 2))) (fun k => hx _) (fun k => hw _)

end Cert.Finite

end
-- ==== Proof.Bridge.lean ====
/-
  The five claims: the three frames, the idealization's four named-constant statements, and the equality of the three results at exact extended reals under finite inputs — the kernel's chunked attention of its own projections against the reference's softmax attention of the same projections.
-/
import proofs.«154606_j45561013076111_2_alg».proof.Defs
import proofs.«154606_j45561013076111_2_alg».proof.Proof.Gen.Kernel
import proofs.«154606_j45561013076111_2_alg».proof.Proof.Gen.KernelIdeal
import proofs.«154606_j45561013076111_2_alg».proof.Proof.Gen.ReferenceIdeal
import proofs.«154606_j45561013076111_2_alg».proof.Proof.Gen.Pre_finite_inputs
import proofs.«154606_j45561013076111_2_alg».proof.Proof.BitsRun
import proofs.«154606_j45561013076111_2_alg».proof.Proof.IdealRun
import proofs.«154606_j45561013076111_2_alg».proof.Proof.Value0
import proofs.«154606_j45561013076111_2_alg».proof.Proof.Value1
import proofs.«154606_j45561013076111_2_alg».proof.Proof.RefValue
import proofs.«154606_j45561013076111_2_alg».proof.Proof.Finite

noncomputable section

open Idealize.ShloMosaic Idealize.ShloMosaic.TcCoe Idealize.SL.Sem

namespace Cert.Proof.Claims

/-! ## The frames -/

/-- The kernel as printed runs from any memory and leaves its four arguments as launched. -/
theorem frame_k : Cert.frame_Kernel := fun m ρ _ => Cert.Kernel.Hand.frame m ρ

/-- So does the kernel at exact extended reals. -/
theorem frame_ki : Cert.frame_KernelIdeal := fun m ρ _ => Cert.KernelIdeal.Hand.frame m ρ

/-- So does the reference at exact extended reals. -/
theorem frame_ri : Cert.frame_ReferenceIdeal := fun m ρ _ =>
  (θ_run Cert.ReferenceIdeal.defs _ _).mono (fun _ h c => (h c).2.2.2) (Cert.ReferenceIdeal.Value.run (F := Ideal) m ρ)

/-! ## The one idealized constant -/

/-- The mask's large negative constant is named `"neg_big"`, and at exact extended reals the name denotes `⊥`: the
    statement is the same at each of its four sites. -/
theorem preserves : Cert.preserves_Kernel_KernelIdeal :=
  have p := IdealRules.named_const.statement Cert.KernelIdeal.κ "neg_big" .f32 0xFF333332#32 ⊥ rfl
  ⟨p, p, p, p⟩

/-! ## The values -/

/-- The two spellings of a projection are one function. -/
theorem proj_eq : Cert.KernelIdeal.Value0.proj = Cert.ReferenceIdeal.RefValue.proj := rfl

open Cert.KernelIdeal Cert.KernelIdeal.Hand Cert.ReferenceIdeal.RefValue in
/-- At exact extended reals and finite inputs the kernel's three results are causal softmax attention of the three
    projections, the key projection and the value projection of its arguments, and the reference's three results are
    the same functions of arguments that agree. -/
theorem algebraic : Cert.algebraic_KernelIdeal_ReferenceIdeal := by
  intro m ρ m' ρ' hpre hagree
  refine ⟨fun c => attn (proj (m ((c.tc : Thread nD τ).loc main_arg0)) (m ((c.tc : Thread nD τ).loc main_arg1)))
        (proj (m ((c.tc : Thread nD τ).loc main_arg0)) (m ((c.tc : Thread nD τ).loc main_arg2)))
        (proj (m ((c.tc : Thread nD τ).loc main_arg0)) (m ((c.tc : Thread nD τ).loc main_arg3))),
      fun c => proj (m ((c.tc : Thread nD τ).loc main_arg0)) (m ((c.tc : Thread nD τ).loc main_arg2)),
      fun c => proj (m ((c.tc : Thread nD τ).loc main_arg0)) (m ((c.tc : Thread nD τ).loc main_arg3)), ?_, ?_⟩
  · refine (θ_run Cert.KernelIdeal.defs _ _).mono (fun r h c => ?_) (Cert.KernelIdeal.Hand.run_named (F := Ideal) m ρ)
    obtain ⟨h1, h2, h3, h4⟩ := h c
    obtain ⟨fx, fq, fk, fv⟩ := Cert.Finite.finite_of_pre m hpre c
    have eQ : V1 m ρ c main_v0_0 = proj (m ((c.tc : Thread nD τ).loc main_arg0)) (m ((c.tc : Thread nD τ).loc main_arg1)) :=
      (V1_q m ρ c).trans (Cert.KernelIdeal.Value0.final4 (V0 m ρ) c)
    have eK : V1 m ρ c main_v0_1 = proj (m ((c.tc : Thread nD τ).loc main_arg0)) (m ((c.tc : Thread nD τ).loc main_arg2)) :=
      (V1_k m ρ c).trans (Cert.KernelIdeal.Value0.final5 (V0 m ρ) c)
    have eV : V1 m ρ c main_v0_2 = proj (m ((c.tc : Thread nD τ).loc main_arg0)) (m ((c.tc : Thread nD τ).loc main_arg3)) :=
      (V1_v m ρ c).trans (Cert.KernelIdeal.Value0.final6 (V0 m ρ) c)
    have hQ : ∀ i, ∃ r : ℝ, (V1 m ρ c main_v0_0 : S4x2048x64.Idx → EReal) i = (r : EReal) := fun i => by
      rw [eQ]; exact Cert.Finite.proj_real _ _ fx fq i
    have hK : ∀ i, ∃ r : ℝ, (V1 m ρ c main_v0_1 : S4x2048x64.Idx → EReal) i = (r : EReal) := fun i => by
      rw [eK]; exact Cert.Finite.proj_real _ _ fx fk i
    have hV : ∀ i, ∃ r : ℝ, (V1 m ρ c main_v0_2 : S4x2048x64.Idx → EReal) i = (r : EReal) := fun i => by
      rw [eV]; exact Cert.Finite.proj_real _ _ fx fv i
    refine ⟨h1.trans ?_, h2.trans (Cert.KernelIdeal.Value0.final5 (V0 m ρ) c), h3.trans (Cert.KernelIdeal.Value0.final6 (V0 m ρ) c), h4⟩
    rw [Cert.KernelIdeal.Value1.final_out (V1 m ρ) c hQ hK hV, eQ, eK, eV]
  · refine (θ_run Cert.ReferenceIdeal.defs _ _).mono (fun r h c => ?_) (Cert.ReferenceIdeal.Value.run (F := Ideal) m' ρ')
    obtain ⟨a0, a1, a2, a3⟩ := hagree c
    refine ⟨(h c).1.trans ?_, (h c).2.1.trans ?_, (h c).2.2.1.trans ?_, (h c).2.2.2⟩
    · rw [out_eq m' c, a0, a1, a2, a3]
    · rw [k_eq m' c, a0, a2]
    · rw [v_eq m' c, a0, a3]

end Cert.Proof.Claims

end
-- ==== Proof.lean ====
/- The projection-then-causal-attention kernel against its softmax reference. Both kernel programs (as printed, and
   at exact extended reals) and the reference run from any memory and leave their four arguments as launched; the one
   idealized constant, the mask's large negative number, is named and denotes minus infinity; and at exact extended
   reals with finite inputs the kernel's three results equal the reference's: q, k, v are the same sums of products,
   and the online softmax over four key chunks, with its running maximum, normalizer and rescaled accumulator,
   equals the one-pass softmax-weighted sum of the values under the causal mask. -/
import proofs.«154606_j45561013076111_2_alg».proof.Defs
import proofs.«154606_j45561013076111_2_alg».proof.Proof.Gen.Kernel
import proofs.«154606_j45561013076111_2_alg».proof.Proof.Gen.Kernel.Skeleton
import proofs.«154606_j45561013076111_2_alg».proof.Proof.Gen.Kernel.Launch
import proofs.«154606_j45561013076111_2_alg».proof.Proof.Gen.Kernel.Regions
import proofs.«154606_j45561013076111_2_alg».proof.Proof.Gen.Kernel.Points
import proofs.«154606_j45561013076111_2_alg».proof.Proof.Gen.KernelIdeal
import proofs.«154606_j45561013076111_2_alg».proof.Proof.Gen.KernelIdeal.Skeleton
import proofs.«154606_j45561013076111_2_alg».proof.Proof.Gen.KernelIdeal.Launch
import proofs.«154606_j45561013076111_2_alg».proof.Proof.Gen.KernelIdeal.Regions
import proofs.«154606_j45561013076111_2_alg».proof.Proof.Gen.KernelIdeal.Points
import proofs.«154606_j45561013076111_2_alg».proof.Proof.Gen.ReferenceIdeal
import proofs.«154606_j45561013076111_2_alg».proof.Proof.Gen.Pre_finite_inputs
import proofs.«154606_j45561013076111_2_alg».proof.Proof.Bridge
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
